-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x10 : S_.BroadcastsInDim S384x10 (![] : Fin 0 → Fin S384x10.rank)
  reducesTo_S384x10_S_d0_1 : S384x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S3x128 1) : IVec S_ 1 :=
  let main_c_26 : IVec S_ 1 := constantI S_ 1 1#1
  let main_v68 : IVec S_ 1 := (fun x v => Host.reduce IntOp.andi x v reducesTo_S3x128_S_d0_1 h_S_) main_v67 main_c_26
  let main_v69 : IVec S_ 1 := andi main_v63 main_v68
  main_v69

def fn_part3 {F : FTy → Type} [FloatOps F] (main_arg8 : FVec F S3x128 .f32) (main_arg13 : FVec F S384x10 .f32) (main_arg14 : FVec F S10 .f32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_v54 : FVec F S384x10 .f32 := Host.absf main_arg13
  let main_cst_20 : FVec F S_ .f32 := constant S_ .f32 0x7F800000#32
  let main_v55 : FVec F S384x10 .f32 := broadcastInDim S384x10 ![] bcast_S_S384x10 main_cst_20
  let main_v56 : IVec S384x10 1 := cmpf .olt main_v54 main_v55
  let main_c_21 : IVec S_ 1 := constantI S_ 1 1#1
  let main_v57 : IVec S_ 1 := (fun x v => Host.reduce IntOp.andi x v reducesTo_S384x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_cst_24 : FVec F S_ .f32 := constant S_ .f32 0x3727C5AC#32
  let main_v64 : FVec F S3x128 .f32 := broadcastInDim S3x128 ![] bcast_S_S3x128 main_cst_24
  let main_v65 : FVec F S3x128 .f32 := addf main_arg8 main_v64
  let main_cst_25 : FVec F S_ .f32 := constant S_ .f32 0x00000000#32
  let main_v66 : FVec F S3x128 .f32 := broadcastInDim S3x128 ![] bcast_S_S3x128 main_cst_25
  let main_v67 : IVec S3x128 1 := cmpf .ogt main_v65 main_v66
  fn_part4 (F := F) main_v63 main_v67

def fn_part2 {F : FTy → Type} [FloatOps F] (main_arg8 : FVec F S3x128 .f32) (main_arg9 : FVec F S3x128x128 .f32) (main_arg10 : FVec F S3x128 .f32) (main_arg11 : FVec F S384x384 .f32) (main_arg12 : FVec F S384 .f32) (main_arg13 : FVec F S384x10 .f32) (main_arg14 : FVec F S10 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S384x384 .f32 := Host.absf main_arg11
  let main_cst_16 : FVec F S_ .f32 := constant S_ .f32 0x7F800000#32
  let main_v45 : FVec F S384x384 .f32 := broadcastInDim S384x384 ![] bcast_S_S384x384 main_cst_16
  let main_v46 : IVec S384x384 1 := cmpf .olt main_v44 main_v45
  let main_c_17 : IVec S_ 1 := constantI S_ 1 1#1
  let main_v47 : IVec S_ 1 := (fun x v => Host.reduce IntOp.andi x v reducesTo_S384x384_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_arg8 main_arg13 main_arg14 main_v48 main_v49 main_v50

def fn_part1 {F : FTy → Type} [FloatOps F] (main_arg6 : FVec F S3x128 .f32) (main_arg7 : FVec F S3x128 .f32) (main_arg8 : FVec F S3x128 .f32) (main_arg9 : FVec F S3x128x128 .f32) (main_arg10 : FVec F S3x128 .f32) (main_arg11 : FVec F S384x384 .f32) (main_arg12 : FVec F S384 .f32) (main_arg13 : FVec F S384x10 .f32) (main_arg14 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S384x384 .f32) (main_arg12 : FVec F S384 .f32) (main_arg13 : FVec F S384x10 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S50000x1 : Shape := ⟨2, ![50000, 1]⟩
abbrev S512x384 : Shape := ⟨2, ![512, 384]⟩
abbrev S1x384 : Shape := ⟨2, ![1, 384]⟩
abbrev S1x10 : Shape := ⟨2, ![1, 10]⟩
abbrev S512x10 : Shape := ⟨2, ![512, 10]⟩

abbrev nBuf : Space → Nat
  | .hbm => 143
  | .vmem => 48
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S384x384, .f32⟩
  | 12 => ⟨S384, .f32⟩
  | 13 => ⟨S384x10, .f32⟩
  | 14 => ⟨S10, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S1x128x128, .f32⟩
  | 33 => ⟨S128x128, .f32⟩
  | 34 => ⟨S1x128, .f32⟩
  | 35 => ⟨S128, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S1x128x128, .f32⟩
  | 45 => ⟨S128x128, .f32⟩
  | 46 => ⟨S1x128, .f32⟩
  | 47 => ⟨S128, .f32⟩
  | 48 => ⟨S1x128, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S50000x128, .f32⟩
  | 55 => ⟨S_, .f32⟩
  | 56 => ⟨S512x128, .f32⟩
  | 57 => ⟨S50000x1, .i32⟩
  | 58 => ⟨S512x128, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x128, .f32⟩
  | 68 => ⟨S_, .f32⟩
  | 69 => ⟨S50000x128, .f32⟩
  | 70 => ⟨S800000x1, .i32⟩
  | 71 => ⟨S50000x128, .f32⟩
  | 72 => ⟨S1x128x128, .f32⟩
  | 73 => ⟨S128x128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S128, .f32⟩
  | 84 => ⟨S1x128x128, .f32⟩
  | 85 => ⟨S128x128, .f32⟩
  | 86 => ⟨S1x128, .f32⟩
  | 87 => ⟨S128, .f32⟩
  | 88 => ⟨S1x128, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S50000x128, .f32⟩
  | 95 => ⟨S_, .f32⟩
  | 96 => ⟨S512x128, .f32⟩
  | 97 => ⟨S50000x1, .i32⟩
  | 98 => ⟨S512x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .f32⟩
  | 109 => ⟨S50000x128, .f32⟩
  | 110 => ⟨S800000x1, .i32⟩
  | 111 => ⟨S50000x128, .f32⟩
  | 112 => ⟨S1x128x128, .f32⟩
  | 113 => ⟨S128x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S128, .f32⟩
  | 124 => ⟨S1x128x128, .f32⟩
  | 125 => ⟨S128x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S50000x128, .f32⟩
  | 7 => ⟨S_, .f32⟩
  | 8 => ⟨S512x128, .f32⟩
  | 9 => ⟨S50000x1, .i32⟩
  | 10 => ⟨S512x128, .f32⟩
  | 11 => ⟨S512x384, .f32⟩
  | 12 => ⟨S1x384, .f32⟩
  | 13 => ⟨S1x10, .f32⟩
  | 14 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S512x384, .f32⟩
  | .local _ .vmem, ⟨43, _⟩ => ⟨S384x384, .f32⟩
  | .local _ .vmem, ⟨44, _⟩ => ⟨S1x384, .f32⟩
  | .local _ .vmem, ⟨45, _⟩ => ⟨S384x10, .f32⟩
  | .local _ .vmem, ⟨46, _⟩ => ⟨S1x10, .f32⟩
  | .local _ .vmem, ⟨47, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_1 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_2 : Ref sig .tc := ⟨.hbm, 59, rfl⟩
abbrev main_v40 : Ref sig .tc := ⟨.hbm, 60, rfl⟩
abbrev main_v41 : Ref sig .tc := ⟨.hbm, 61, rfl⟩
abbrev main_c_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_5 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_6 : Ref sig .tc := ⟨.hbm, 99, rfl⟩
abbrev main_v76 : Ref sig .tc := ⟨.hbm, 100, rfl⟩
abbrev main_v77 : Ref sig .tc := ⟨.hbm, 101, rfl⟩
abbrev main_c_7 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_8 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_9 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc3_stg0_0 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41
abbrev cc3_sem0_0 : DmaSem sig := 42
abbrev cc3_sem1_0 : DmaSem sig := 43
abbrev cc3_sem2_0 : DmaSem sig := 44
abbrev cc3_sem3_0 : DmaSem sig := 45
abbrev cc3_sem4_0 : DmaSem sig := 46
abbrev cc3_sem5_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S5000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S384x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S512x128_S512x128_S512x128_S512x384_d1 : Shape.Concatenates [S512x128, S512x128, S512x128] S512x384 1
  shapeCasts_S384_S1x384 : S384.ShapeCasts S1x384
  shapeCasts_S10_S1x10 : S10.ShapeCasts S1x10
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x384_S384x384_0_0 : ∀ a, (![0, 0] : Fin 2 → Nat) a + S384x384.size a ≤ S384x384.size a
  h_S384x384 : 0 < S384x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S384x10_S384x10_0_0 : ∀ a, (![0, 0] : Fin 2 → Nat) a + S384x10.size a ≤ S384x10.size a
  h_S384x10 : 0 < S384x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x384_S384x384_S512x384_1_0_0_1_n_n_wf : DotDims.WF S512x384 S384x384 S512x384 [1] [0] [0] [1] [] []
  dot_S512x384_S384x10_S512x10_1_0_0_1_n_n_wf : DotDims.WF S512x384 S384x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S5000x128.size a ≤ S50000x128.size a
  hwx2_10 : ∀ i : grid2.Coords, EltTy.bits .f32 = 32 ∨ (Rect.block (s := S50000x128) S5000x128.size (cc2_transform_10 i) (hinb2_10 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x384.size a ≤ S512x384.size a
  hwx3_0 : ∀ i : grid3.Coords, EltTy.bits .f32 = 32 ∨ (Rect.block (s := S512x384) S512x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x384.size a ≤ S384x384.size a
  hwx3_1 : ∀ i : grid3.Coords, EltTy.bits .f32 = 32 ∨ (Rect.block (s := S384x384) S384x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x10.size a ≤ S384x10.size a
  hwx3_3 : ∀ i : grid3.Coords, EltTy.bits .f32 = 32 ∨ (Rect.block (s := S384x10) S384x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .f32 = 32 ∨ (Rect.block (s := S512x10) S512x10.size (cc3_transform_5 i) (hinb3_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x10_S512x10_1_0_0_1_n_n : DotDims S512x384 S384x10 S512x10 where
  lhsContracting := [1]
  rhsContracting := [0]
  lhsNonContracting := [0]
  rhsNonContracting := [1]
  lhsBatch := []
  rhsBatch := []
  wf := dot_S512x384_S384x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v35) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v68) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v63) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v71) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v72) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v72) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v102) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v103) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v104) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v105) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v106) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v99) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v107) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v108) S5000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v112) S512x384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S384x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v113) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S384x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v114) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v115) S512x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S512x128 : Shape := ⟨2, ![512, 128]⟩
abbrev S50000x1 : Shape := ⟨2, ![50000, 1]⟩
abbrev S512x384 : Shape := ⟨2, ![512, 384]⟩
abbrev S1x384 : Shape := ⟨2, ![1, 384]⟩
abbrev S512x10 : Shape := ⟨2, ![512, 10]⟩
abbrev S1x10 : Shape := ⟨2, ![1, 10]⟩

abbrev nBuf : Space → Nat
  | .hbm => 217
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S384x384, .f32⟩
  | 12 => ⟨S384, .f32⟩
  | 13 => ⟨S384x10, .f32⟩
  | 14 => ⟨S10, .f32⟩
  | 15 => ⟨S1x800000, .i32⟩
  | 16 => ⟨S800000, .i32⟩
  | 17 => ⟨S1x800000, .i32⟩
  | 18 => ⟨S800000, .i32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S512x128, .f32⟩
  | 79 => ⟨S50000x1, .i32⟩
  | 80 => ⟨S512x128, .f32⟩
  | 81 => ⟨S1x128x128, .f32⟩
  | 82 => ⟨S128x128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S128, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S1x128, .f32⟩
  | 116 => ⟨S50000x128, .f32⟩
  | 117 => ⟨S50000x128, .f32⟩
  | 118 => ⟨S_, .f32⟩
  | 119 => ⟨S128, .f32⟩
  | 120 => ⟨S128, .f32⟩
  | 121 => ⟨S128, .f32⟩
  | 122 => ⟨S128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S512x128, .f32⟩
  | 13 => ⟨S50000x1, .i32⟩
  | 14 => ⟨S512x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128x128, .f32⟩
  | 28 => ⟨S128x128, .f32⟩
  | 29 => ⟨S1x128, .f32⟩
  | 30 => ⟨S128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S_, .f32⟩
  | 41 => ⟨S50000x128, .f32⟩
  | 42 => ⟨S800000x1, .i32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S128, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S_, .f32⟩
  | 74 => ⟨S512x128, .f32⟩
  | 75 => ⟨S50000x1, .i32⟩
  | 76 => ⟨S512x128, .f32⟩
  | 77 => ⟨S512x384, .f32⟩
  | 78 => ⟨S512x384, .f32⟩
  | 79 => ⟨S1x384, .f32⟩
  | 80 => ⟨S512x384, .f32⟩
  | 81 => ⟨S512x384, .f32⟩
  | 82 => ⟨S_, .f32⟩
  | 83 => ⟨S512x384, .f32⟩
  | 84 => ⟨S512x384, .f32⟩
  | 85 => ⟨S512x10, .f32⟩
  | 86 => ⟨S1x10, .f32⟩
  | 87 => ⟨S512x10, .f32⟩
  | 88 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_1 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_call1_cst : Ref sig .tc := ⟨.hbm, 74, rfl⟩
abbrev main_call1_v0 : Ref sig .tc := ⟨.hbm, 75, rfl⟩
abbrev main_v53 : Ref sig .tc := ⟨.hbm, 76, rfl⟩
abbrev main_cst_2 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_3 : Ref sig .tc := ⟨.hbm, 97, rfl⟩
abbrev main_v73 : Ref sig .tc := ⟨.hbm, 98, rfl⟩
abbrev main_v74 : Ref sig .tc := ⟨.hbm, 99, rfl⟩
abbrev main_c_4 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_5 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_6 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_call2_cst : Ref sig .tc := ⟨.hbm, 129, rfl⟩
abbrev main_call2_v0 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_call3_cst : Ref sig .tc := ⟨.hbm, 136, rfl⟩
abbrev main_call3_v0 : Ref sig .tc := ⟨.hbm, 137, rfl⟩
abbrev main_v106 : Ref sig .tc := ⟨.hbm, 138, rfl⟩
abbrev main_cst_7 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_c_8 : Ref sig .tc := ⟨.hbm, 159, rfl⟩
abbrev main_v126 : Ref sig .tc := ⟨.hbm, 160, rfl⟩
abbrev main_v127 : Ref sig .tc := ⟨.hbm, 161, rfl⟩
abbrev main_c_9 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_10 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_11 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_call4_cst : Ref sig .tc := ⟨.hbm, 191, rfl⟩
abbrev main_call4_v0 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_call5_cst : Ref sig .tc := ⟨.hbm, 198, rfl⟩
abbrev main_call5_v0 : Ref sig .tc := ⟨.hbm, 199, rfl⟩
abbrev main_v159 : Ref sig .tc := ⟨.hbm, 200, rfl⟩
abbrev main_cst_12 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_call6_cst : Ref sig .tc := ⟨.hbm, 210, rfl⟩
abbrev main_call6_v0 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S512x128 : S_.BroadcastsInDim S512x128 (![] : Fin 0 → Fin S512x128.rank)
  bcast_S50000_S50000x1_0 : S50000.BroadcastsInDim S50000x1 (![0] : Fin 1 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S512x128_S512x128_S512x128_S512x384_d1 : Shape.Concatenates [S512x128, S512x128, S512x128] S512x384 1
  bcast_S384_S1x384_1 : S384.BroadcastsInDim S1x384 (![1] : Fin 1 → Fin S1x384.rank)
  bcast_S1x384_S512x384_0_1 : S1x384.BroadcastsInDim S512x384 (![0, 1] : Fin 2 → Fin S512x384.rank)
  bcast_S_S512x384 : S_.BroadcastsInDim S512x384 (![] : Fin 0 → Fin S512x384.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x384_S384x384_S512x384_1_0_0_1_n_n_wf : DotDims.WF S512x384 S384x384 S512x384 [1] [0] [0] [1] [] []
  dot_S512x384_S384x10_S512x10_1_0_0_1_n_n_wf : DotDims.WF S512x384 S384x10 S512x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x10_S512x10_1_0_0_1_n_n : DotDims S512x384 S384x10 S512x10 where
  lhsContracting := [1]
  rhsContracting := [0]
  lhsNonContracting := [0]
  rhsNonContracting := [1]
  lhsBatch := []
  rhsBatch := []
  wf := dot_S512x384_S384x10_S512x10_1_0_0_1_n_n_wf

class Facts : Prop extends Facts₀ where

variable [Facts]
-- ==== Proof.KB.Region0.lean ====
/-
  Layer kernel 0 (the pallas_call of GIN layer 0) as one region of the program, at the buffer contents `V` the
  region is entered with. A grid point t handles the 5000 node rows t·5000 … t·5000+4999: it reads the block of h and
  of the neighbour sums, and the whole of W1, b1, gamma, beta, running mean, running variance, W2, b2, and stores
  relu(relu(bn((h + agg)·W1 + b1))·W2 + b2) into its output block. Here: each window's block at a point, what the body
  leaves in the output buffer as a function of the input blocks, the body's triple, the proof data of the pipeline
  and the body obligation at every point.
-/
import proofs.«149891_j64046552318029_1_alg».proof.Proof.Gen.Kernel.Launch
import proofs.«149891_j64046552318029_1_alg».proof.Proof.Gen.Kernel.Skeleton
import proofs.«149891_j64046552318029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (unfetched, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (unfetched, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not (unfetched, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not (unfetched, the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not (unfetched, the block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not (unfetched, the block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not (unfetched, the block index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not (unfetched, the block index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output buffer after the body, from the input blocks: the one store's value over the whole buffer. -/
def out0_10 (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) : Vec F S5000x128 .f32 :=
  View.canon [⟨rA0, k0_pay1 (k0_pay2 (View.ld x0 rA0) (View.ld x1 rA0) (View.ld x2 rW0) (View.ld x3 rB0) (View.ld x4 rB0) (View.ld x5 rB0) (View.ld x6 rB0) (View.ld x7 rB0)) (k0_pay3 (View.ld x8 rW0)) (View.ld x9 rB0)⟩]

/-- The one store covers the buffer. -/
theorem cover0_10 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

/-! ## The body's triple -/

set_option maxHeartbeats 4000000 in
/-- On whole staging buffers, the inputs' at contents `x·` and the output's at anything, the body runs to the continuation
    with the inputs' as they were and the output's at `out0_10` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The pipeline's proof data -/

/-- The proof data of the pipeline on core `c`: the arrays as the region finds them; after the body at point `t` each
    input's buffer at its block and the output's at `out0_10` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 2000000 in
/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KB.Region1.lean ====
/-
  Layer kernel 1 (the pallas_call of GIN layer 1) as one region of the program, at the buffer contents `V` the
  region is entered with. A grid point t handles the 5000 node rows t·5000 … t·5000+4999: it reads the block of h and
  of the neighbour sums, and the whole of W1, b1, gamma, beta, running mean, running variance, W2, b2, and stores
  relu(relu(bn((h + agg)·W1 + b1))·W2 + b2) into its output block. Here: each window's block at a point, what the body
  leaves in the output buffer as a function of the input blocks, the body's triple, the proof data of the pipeline
  and the body obligation at every point.
-/
import proofs.«149891_j64046552318029_1_alg».proof.Proof.Gen.Kernel.Launch
import proofs.«149891_j64046552318029_1_alg».proof.Proof.Gen.Kernel.Skeleton
import proofs.«149891_j64046552318029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not (unfetched, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not (unfetched, the block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not (unfetched, the block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not (unfetched, the block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, fetched there or not (unfetched, the block index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point, fetched there or not (unfetched, the block index has not moved). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev rA1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output buffer after the body, from the input blocks: the one store's value over the whole buffer. -/
def out1_10 (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) : Vec F S5000x128 .f32 :=
  View.canon [⟨rA1, k1_pay1 (k1_pay2 (View.ld x0 rA1) (View.ld x1 rA1) (View.ld x2 rW1) (View.ld x3 rB1) (View.ld x4 rB1) (View.ld x5 rB1) (View.ld x6 rB1) (View.ld x7 rB1)) (k1_pay3 (View.ld x8 rW1)) (View.ld x9 rB1)⟩]

/-- The one store covers the buffer. -/
theorem cover1_10 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

/-! ## The body's triple -/

set_option maxHeartbeats 4000000 in
/-- On whole staging buffers, the inputs' at contents `x·` and the output's at anything, the body runs to the continuation
    with the inputs' as they were and the output's at `out1_10` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11) K := by
  simp only [cc1__gin_mlp_kernel_eq_skeleton]; unfold cc1__gin_mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays as the region finds them; after the body at point `t` each
    input's buffer at its block and the output's at `out1_10` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 2000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KB.Region2.lean ====
/-
  Layer kernel 2 (the pallas_call of GIN layer 2) as one region of the program, at the buffer contents `V` the
  region is entered with. A grid point t handles the 5000 node rows t·5000 … t·5000+4999: it reads the block of h and
  of the neighbour sums, and the whole of W1, b1, gamma, beta, running mean, running variance, W2, b2, and stores
  relu(relu(bn((h + agg)·W1 + b1))·W2 + b2) into its output block. Here: each window's block at a point, what the body
  leaves in the output buffer as a function of the input blocks, the body's triple, the proof data of the pipeline
  and the body obligation at every point.
-/
import proofs.«149891_j64046552318029_1_alg».proof.Proof.Gen.Kernel.Launch
import proofs.«149891_j64046552318029_1_alg».proof.Proof.Gen.Kernel.Skeleton
import proofs.«149891_j64046552318029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not (unfetched, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not (unfetched, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not (unfetched, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not (unfetched, the block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not (unfetched, the block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not (unfetched, the block index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every point, fetched there or not (unfetched, the block index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's staging buffer holds its block at every point, fetched there or not (unfetched, the block index has not moved). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's staging buffer holds its block at every point, fetched there or not (unfetched, the block index has not moved). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a buffer whole -/

abbrev rA2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output buffer after the body, from the input blocks: the one store's value over the whole buffer. -/
def out2_10 (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) : Vec F S5000x128 .f32 :=
  View.canon [⟨rA2, k2_pay1 (k2_pay2 (View.ld x0 rA2) (View.ld x1 rA2) (View.ld x2 rW2) (View.ld x3 rB2) (View.ld x4 rB2) (View.ld x5 rB2) (View.ld x6 rB2) (View.ld x7 rB2)) (k2_pay3 (View.ld x8 rW2)) (View.ld x9 rB2)⟩]

/-- The one store covers the buffer. -/
theorem cover2_10 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y

/-! ## The body's triple -/

set_option maxHeartbeats 4000000 in
/-- On whole staging buffers, the inputs' at contents `x·` and the output's at anything, the body runs to the continuation
    with the inputs' as they were and the output's at `out2_10` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The pipeline's proof data -/

/-- The proof data of the pipeline on core `c`: the arrays as the region finds them; after the body at point `t` each
    input's buffer at its block and the output's at `out2_10` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 2000000 in
/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KB.Region3.lean ====
/-
  The head kernel (the last pallas_call) as one region of the program, at the buffer contents `V` the region is
  entered with. Its grid has one point: it reads the pooled features [512,384], lin1_W, the lin1_b row, lin2_W, the
  lin2_b row whole and stores relu(g·lin1_W + lin1_b)·lin2_W + lin2_b into its [512,10] output. Here: each window's
  block, what the body leaves in the output buffer, the body's triple, the proof data and the body obligation.
-/
import proofs.«149891_j64046552318029_1_alg».proof.Proof.Gen.Kernel.Launch
import proofs.«149891_j64046552318029_1_alg».proof.Proof.Gen.Kernel.Skeleton
import proofs.«149891_j64046552318029_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at the point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at the point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a buffer whole -/

abbrev rH0 : Rect S512x384 := Rect.unit (s := S512x384) ![0, 0] S512x384.size inb_S512x384_S512x384_0_0
abbrev rH1 : Rect S384x384 := Rect.unit (s := S384x384) ![0, 0] S384x384.size inb_S384x384_S384x384_0_0
abbrev rH2 : Rect S1x384 := Rect.unit (s := S1x384) ![0, 0] S1x384.size inb_S1x384_S1x384_0_0
abbrev rH3 : Rect S384x10 := Rect.unit (s := S384x10) ![0, 0] S384x10.size inb_S384x10_S384x10_0_0
abbrev rH4 : Rect S1x10 := Rect.unit (s := S1x10) ![0, 0] S1x10.size inb_S1x10_S1x10_0_0
abbrev rH5 : Rect S512x10 := Rect.unit (s := S512x10) ![0, 0] S512x10.size inb_S512x10_S512x10_0_0

/-- The output buffer after the body, from the input blocks: the one store's value over the whole buffer. -/
def out3_5 (x0 : Vec F S512x384 .f32) (x1 : Vec F S384x384 .f32) (x2 : Vec F S1x384 .f32) (x3 : Vec F S384x10 .f32) (x4 : Vec F S1x10 .f32) : Vec F S512x10 .f32 :=
  View.canon [⟨rH5, k3_pay1 (View.ld x0 rH0) (View.ld x1 rH1) (View.ld x2 rH2) (View.ld x3 rH3) (View.ld x4 rH4)⟩]

/-- The one store covers the buffer. -/
theorem cover3_5 (p0 : Vec F S512x10 .f32) (y : S512x10.Idx) :
    ∃ pc ∈ ([⟨rH5, p0⟩] : List (View.Piece (Elt F) S512x10 .f32)), y ∈ pc.1.set :=
  View.cover_of_tiled [⟨rH5, p0⟩] S512x10.size (by rfl) y

/-! ## The body's triple -/

set_option maxHeartbeats 4000000 in
/-- On whole staging buffers, the inputs' at contents `x·` and the output's at anything, the body runs to the continuation
    with the inputs' as they were and the output's at `out3_5` of them. -/
theorem sound_kernel3 (c : Dev nD) (E : Set ℕ) (i : grid3.Coords) (arg1 : Memref sig .tc .vmem S512x384 .f32) (harg1 : arg1.IsWhole) (arg2 : Memref sig .tc .vmem S384x384 .f32) (harg2 : arg2.IsWhole) (arg3 : Memref sig .tc .vmem S1x384 .f32) (harg3 : arg3.IsWhole) (arg4 : Memref sig .tc .vmem S384x10 .f32) (harg4 : arg4.IsWhole) (arg5 : Memref sig .tc .vmem S1x10 .f32) (harg5 : arg5.IsWhole) (arg6 : Memref sig .tc .vmem S512x10 .f32) (harg6 : arg6.IsWhole)
    (x0 : Vec F S512x384 .f32) (x1 : Vec F S384x384 .f32) (x2 : Vec F S1x384 .f32) (x3 : Vec F S384x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__head_kernel i arg1 harg1 arg2 harg2 arg3 harg3 arg4 harg4 arg5 harg5 arg6 harg6) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body each input's buffer
    at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 2000000 in
/-- The body at the point: the inputs' buffers hold their blocks, so the triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.KB.Run.lean ====
/-
  The program's run as a list of segments — host stretch, layer kernel 0, host stretch, layer kernel 1, host stretch,
  layer kernel 2, host stretch, head kernel — and what every buffer holds at each boundary: `W0` the launch memory, an
  odd boundary the host stretch applied to the boundary before it, an even one the region's arrays at what its
  write-backs leave and every other buffer as entered. The run ends with every buffer at `W8`; no segment writes an
  argument array, so each argument ends as launched, and the result buffer ends at `W8` of it.
-/
import proofs.«149891_j64046552318029_1_alg».proof.Proof.Gen.Kernel.Launch
import proofs.«149891_j64046552318029_1_alg».proof.Proof.Gen.Kernel.Skeleton
import proofs.«149891_j64046552318029_1_alg».proof.Proof.Gen.Kernel.Points
import proofs.«149891_j64046552318029_1_alg».proof.Proof.Gen.Kernel.Regions
import proofs.«149891_j64046552318029_1_alg».proof.Proof.KB.Region0
import proofs.«149891_j64046552318029_1_alg».proof.Proof.KB.Region1
import proofs.«149891_j64046552318029_1_alg».proof.Proof.KB.Region2
import proofs.«149891_j64046552318029_1_alg».proof.Proof.KB.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After host stretch 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- A host stretch leaves a buffer it does not write as it was. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- A region leaves every buffer but its output array as it was: an input window's array is never written back. -/
theorem W2_keep (c : Dev nD) (r : Ref sig .tc) (h : r ≠ main_v36) : W2 m c (Proc.devRef .tc r) = W1 m c (Proc.devRef .tc r) := by
  by_cases hw : ∃ w, Pipeline.arrRef spec0 w = r
  · obtain ⟨w, rfl⟩ := hw
    have hin : (cfg0.win w).isOut = false := by
      revert h; revert w; decide
    exact (W2_arr m c w).trans (((dat0 (V1 m) c).arrAt_in w hin _).trans (A_eq0 (V1 m) c w))
  · exact W2_of_ne m c r fun w e => hw ⟨w, e⟩
/-- After host stretch 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- A host stretch leaves a buffer it does not write as it was. -/
theorem W3_keep (c : Dev nD) (r : Ref sig .tc) (h : r ∉ hostOps1_W) : W3 m c (Proc.devRef .tc r) = W2 m c (Proc.devRef .tc r) :=
  StableHlo.after_of_writes_sub hostOps1 _ hostOps1_writes h
/-- A region leaves every buffer but its output array as it was: an input window's array is never written back. -/
theorem W4_keep (c : Dev nD) (r : Ref sig .tc) (h : r ≠ main_v72) : W4 m c (Proc.devRef .tc r) = W3 m c (Proc.devRef .tc r) := by
  by_cases hw : ∃ w, Pipeline.arrRef spec1 w = r
  · obtain ⟨w, rfl⟩ := hw
    have hin : (cfg1.win w).isOut = false := by
      revert h; revert w; decide
    exact (W4_arr m c w).trans (((dat1 (V3 m) c).arrAt_in w hin _).trans (A_eq1 (V3 m) c w))
  · exact W4_of_ne m c r fun w e => hw ⟨w, e⟩
/-- After host stretch 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- A host stretch leaves a buffer it does not write as it was. -/
theorem W5_keep (c : Dev nD) (r : Ref sig .tc) (h : r ∉ hostOps2_W) : W5 m c (Proc.devRef .tc r) = W4 m c (Proc.devRef .tc r) :=
  StableHlo.after_of_writes_sub hostOps2 _ hostOps2_writes h
/-- A region leaves every buffer but its output array as it was: an input window's array is never written back. -/
theorem W6_keep (c : Dev nD) (r : Ref sig .tc) (h : r ≠ main_v108) : W6 m c (Proc.devRef .tc r) = W5 m c (Proc.devRef .tc r) := by
  by_cases hw : ∃ w, Pipeline.arrRef spec2 w = r
  · obtain ⟨w, rfl⟩ := hw
    have hin : (cfg2.win w).isOut = false := by
      revert h; revert w; decide
    exact (W6_arr m c w).trans (((dat2 (V5 m) c).arrAt_in w hin _).trans (A_eq2 (V5 m) c w))
  · exact W6_of_ne m c r fun w e => hw ⟨w, e⟩
/-- After host stretch 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- A host stretch leaves a buffer it does not write as it was. -/
theorem W7_keep (c : Dev nD) (r : Ref sig .tc) (h : r ∉ hostOps3_W) : W7 m c (Proc.devRef .tc r) = W6 m c (Proc.devRef .tc r) :=
  StableHlo.after_of_writes_sub hostOps3 _ hostOps3_writes h
/-- A region leaves every buffer but its output array as it was: an input window's array is never written back. -/
theorem W8_keep (c : Dev nD) (r : Ref sig .tc) (h : r ≠ main_v115) : W8 m c (Proc.devRef .tc r) = W7 m c (Proc.devRef .tc r) := by
  by_cases hw : ∃ w, Pipeline.arrRef spec3 w = r
  · obtain ⟨w, rfl⟩ := hw
    have hin : (cfg3.win w).isOut = false := by
      revert h; revert w; decide
    exact (W8_arr m c w).trans (((dat3 (V7 m) c).arrAt_in w hin _).trans (A_eq3 (V7 m) c w))
  · exact W8_of_ne m c r fun w e => hw ⟨w, e⟩

/-- A buffer no segment writes ends as launched. -/
theorem W8_launch (c : Dev nD) (r : Ref sig .tc) (h0 : r ∉ hostOps0_W) (h1 : r ∉ hostOps1_W) (h2 : r ∉ hostOps2_W) (h3 : r ∉ hostOps3_W)
    (g0 : r ≠ main_v36) (g1 : r ≠ main_v72) (g2 : r ≠ main_v108) (g3 : r ≠ main_v115) :
    W8 m c (Proc.devRef .tc r) = m ((c : Thread nD τ).loc r) :=
  (W8_keep m c r g3).trans <| (W7_keep m c r h3).trans <| (W6_keep m c r g2).trans <| (W5_keep m c r h2).trans <|
    (W4_keep m c r g1).trans <| (W3_keep m c r h1).trans <| (W2_keep m c r g0).trans <| (W1_keep m c r h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W8`, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`; its arrays split out of
    the unscoped buffers and put back at the exit contents; the generator register into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its arrays split out of
    the unscoped buffers and put back at the exit contents; the generator register into the invariant and out; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; its arrays split out of
    the unscoped buffers and put back at the exit contents; the generator register into the invariant and out; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`; its arrays split out of
    the unscoped buffers and put back at the exit contents; the generator register into the invariant and out; nothing owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

theorem main_run (c : Dev nD) : main (F := F) c = Pipeline.Seg.run (segs m) := (main_chain c).trans (by chain_rfl)

set_option backward.isDefEq.respectTransparency.types false in
/-- Every weakly fair execution of the program from memory `m` with zero counters terminates, nothing faulting, with
    every unscoped buffer of every core at `W8`: the launch over the segments, the last thread state read against the
    final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The run with the result named and the arguments unchanged: the result buffer ends at `W8` of it, each argument
    array as launched (no segment writes one). -/
theorem run : θ_run defs (onTc (τ := τ) (main (F := F))) ⟨m, fun _ => 0, ρ⟩ (fun r => ∀ c : Dev nD,
      r.2.mem ((c.tc : Thread nD τ).loc main_v115) = W8 m c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v115 (by decide)),
      (h c _ (mem_uc main_arg0 (by decide))).trans (W8_launch m c main_arg0 (by decide) (by decide) (by decide) (by decide) (by decide) (by decide) (by decide) (by decide)),
      (h c _ (mem_uc main_arg1 (by decide))).trans (W8_launch m c main_arg1 (by decide) (by decide) (by decide) (by decide) (by decide) (by decide) (by decide) (by decide)),
      (h c _ (mem_uc main_arg2 (by decide))).trans (W8_launch m c main_arg2 (by decide) (by decide) (by decide) (by decide) (by decide) (by decide) (by decide) (by decide)),
      (h c _ (mem_uc main_arg3 (by decide))).trans (W8_launch m c main_arg3 (by decide) (by decide) (by decide) (by decide) (by decide) (by decide) (by decide) (by decide)),
      (h c _ (mem_uc main_arg4 (by decide))).trans (W8_launch m c main_arg4 (by decide) (by decide) (by decide) (by decide) (by decide) (by decide) (by decide) (by decide)),
      (h c _ (mem_uc main_arg5 (by decide))).trans (W8_launch m c main_arg5 (by decide) (by decide) (by decide) (by decide) (by decide) (by decide) (by decide) (by decide)),
      (h c _ (mem_uc main_arg6 (by decide))).trans (W8_launch m c main_arg6 (by decide) (by decide) (by decide) (by decide) (by decide) (by decide) (by decide) (by decide)),
      (h c _ (mem_uc main_arg7 (by decide))).trans (W8_launch m c main_arg7 (by decide) (by decide) (by decide) (by decide) (by decide) (by decide) (by decide) (by decide)),
      (h c _ (mem_uc main_arg8 (by decide))).trans (W8_launch m c main_arg8 (by decide) (by decide) (by decide) (by decide) (by decide) (by decide) (by decide) (by decide)),
      (h c _ (mem_uc main_arg9 (by decide))).trans (W8_launch m c main_arg9 (by decide) (by decide) (by decide) (by decide) (by decide) (by decide) (by decide) (by decide)),
      (h c _ (mem_uc main_arg10 (by decide))).trans (W8_launch m c main_arg10 (by decide) (by decide) (by decide) (by decide) (by decide) (by decide) (by decide) (by decide)),
      (h c _ (mem_uc main_arg11 (by decide))).trans (W8_launch m c main_arg11 (by decide) (by decide) (by decide) (by decide) (by decide) (by decide) (by decide) (by decide)),
      (h c _ (mem_uc main_arg12 (by decide))).trans (W8_launch m c main_arg12 (by decide) (by decide) (by decide) (by decide) (by decide) (by decide) (by decide) (by decide)),
      (h c _ (mem_uc main_arg13 (by decide))).trans (W8_launch m c main_arg13 (by decide) (by decide) (by decide) (by decide) (by decide) (by decide) (by decide) (by decide)),
      (h c _ (mem_uc main_arg14 (by decide))).trans (W8_launch m c main_arg14 (by decide) (by decide) (by decide) (by decide) (by decide) (by decide) (by decide) (by decide))⟩)
    (run_all m ρ)

end Cert.Kernel.Frame

end
-- ==== Proof.KI.Region0.lean ====
/-
  Layer kernel 0 (the pallas_call of GIN layer 0) as one region of the program, at the buffer contents `V` the
  region is entered with. A grid point t handles the 5000 node rows t·5000 … t·5000+4999: it reads the block of h and
  of the neighbour sums, and the whole of W1, b1, gamma, beta, running mean, running variance, W2, b2, and stores
  relu(relu(bn((h + agg)·W1 + b1))·W2 + b2) into its output block. Here: each window's block at a point, what the body
  leaves in the output buffer as a function of the input blocks, the body's triple, the proof data of the pipeline
  and the body obligation at every point.
-/
import proofs.«149891_j64046552318029_1_alg».proof.Proof.Gen.KernelIdeal.Launch
import proofs.«149891_j64046552318029_1_alg».proof.Proof.Gen.KernelIdeal.Skeleton
import proofs.«149891_j64046552318029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (unfetched, the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's staging buffer holds its block at every point, fetched there or not (unfetched, the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's staging buffer holds its block at every point, fetched there or not (unfetched, the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's staging buffer holds its block at every point, fetched there or not (unfetched, the block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's staging buffer holds its block at every point, fetched there or not (unfetched, the block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's staging buffer holds its block at every point, fetched there or not (unfetched, the block index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's staging buffer holds its block at every point, fetched there or not (unfetched, the block index has not moved). -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7's staging buffer holds its block at every point, fetched there or not (unfetched, the block index has not moved). -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8's staging buffer holds its block at every point, fetched there or not (unfetched, the block index has not moved). -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9's staging buffer holds its block at every point, fetched there or not (unfetched, the block index has not moved). -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a buffer whole -/

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S1x128 := Rect.unit (s := S1x128) ![0, 0] S1x128.size inb_S1x128_S1x128_0_0

/-- The output buffer after the body, from the input blocks: the one store's value over the whole buffer. -/
def out0_10 (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) : Vec F S5000x128 .f32 :=
  View.canon [⟨rA0, k0_pay1 (k0_pay2 (View.ld x0 rA0) (View.ld x1 rA0) (View.ld x2 rW0) (View.ld x3 rB0) (View.ld x4 rB0) (View.ld x5 rB0) (View.ld x6 rB0) (View.ld x7 rB0)) (k0_pay3 (View.ld x8 rW0)) (View.ld x9 rB0)⟩]

/-- The one store covers the buffer. -/
theorem cover0_10 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

/-! ## The body's triple -/

set_option maxHeartbeats 4000000 in
/-- On whole staging buffers, the inputs' at contents `x·` and the output's at anything, the body runs to the continuation
    with the inputs' as they were and the output's at `out0_10` of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x6 x7 x8 x9)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11) K := by
  simp only [cc0__gin_mlp_kernel_eq_skeleton]; unfold cc0__gin_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover0_10 _)

/-! ## The pipeline's proof data -/

/-- The proof data of the pipeline on core `c`: the arrays as the region finds them; after the body at point `t` each
    input's buffer at its block and the output's at `out0_10` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

set_option maxHeartbeats 2000000 in
/-- The body at any point: the inputs' buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1.lean ====
/-
  Layer kernel 1 (the pallas_call of GIN layer 1) as one region of the program, at the buffer contents `V` the
  region is entered with. A grid point t handles the 5000 node rows t·5000 … t·5000+4999: it reads the block of h and
  of the neighbour sums, and the whole of W1, b1, gamma, beta, running mean, running variance, W2, b2, and stores
  relu(relu(bn((h + agg)·W1 + b1))·W2 + b2) into its output block. Here: each window's block at a point, what the body
  leaves in the output buffer as a function of the input blocks, the body's triple, the proof data of the pipeline
  and the body obligation at every point.
-/
import proofs.«149891_j64046552318029_1_alg».proof.Proof.Gen.KernelIdeal.Launch
import proofs.«149891_j64046552318029_1_alg».proof.Proof.Gen.KernelIdeal.Skeleton
import proofs.«149891_j64046552318029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (unfetched, the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's staging buffer holds its block at every point, fetched there or not (unfetched, the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's staging buffer holds its block at every point, fetched there or not (unfetched, the block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's staging buffer holds its block at every point, fetched there or not (unfetched, the block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's staging buffer holds its block at every point, fetched there or not (unfetched, the block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's staging buffer holds its block at every point, fetched there or not (unfetched, the block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's staging buffer holds its block at every point, fetched there or not (unfetched, the block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's staging buffer holds its block at every point, fetched there or not (unfetched, the block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's staging buffer holds its block at every point, fetched there or not (unfetched, the block index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's staging buffer holds its block at every point, fetched there or not (unfetched, the block index has not moved). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev rA1 : Rect S5000x128 := Rect.unit (s := S5000x128) ![0, 0] S5000x128.size inb_S5000x128_S5000x128_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The output buffer after the body, from the input blocks: the one store's value over the whole buffer. -/
def out1_10 (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) : Vec F S5000x128 .f32 :=
  View.canon [⟨rA1, k1_pay1 (k1_pay2 (View.ld x0 rA1) (View.ld x1 rA1) (View.ld x2 rW1) (View.ld x3 rB1) (View.ld x4 rB1) (View.ld x5 rB1) (View.ld x6 rB1) (View.ld x7 rB1)) (k1_pay3 (View.ld x8 rW1)) (View.ld x9 rB1)⟩]

/-- The one store covers the buffer. -/
theorem cover1_10 (p0 : Vec F S5000x128 .f32) (y : S5000x128.Idx) :
    ∃ pc ∈ ([⟨rA1, p0⟩] : List (View.Piece (Elt F) S5000x128 .f32)), y ∈ pc.1.set :=
  View.cover_of_tiled [⟨rA1, p0⟩] S5000x128.size (by rfl) y

/-! ## The body's triple -/

set_option maxHeartbeats 4000000 in
/-- On whole staging buffers, the inputs' at contents `x·` and the output's at anything, the body runs to the continuation
    with the inputs' as they were and the output's at `out1_10` of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8 arg9 harg9 arg10 harg10 arg11 harg11) K := by
  simp only [cc1__gin_mlp_kernel_eq_skeleton]; unfold cc1__gin_mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of the pipeline on core `c`: the arrays as the region finds them; after the body at point `t` each
    input's buffer at its block and the output's at `out1_10` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 2000000 in
/-- The body at any point: the inputs' buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Region2.lean ====
/-
  Layer kernel 2 (the pallas_call of GIN layer 2) as one region of the program, at the buffer contents `V` the
  region is entered with. A grid point t handles the 5000 node rows t·5000 … t·5000+4999: it reads the block of h and
  of the neighbour sums, and the whole of W1, b1, gamma, beta, running mean, running variance, W2, b2, and stores
  relu(relu(bn((h + agg)·W1 + b1))·W2 + b2) into its output block. Here: each window's block at a point, what the body
  leaves in the output buffer as a function of the input blocks, the body's triple, the proof data of the pipeline
  and the body obligation at every point.
-/
import proofs.«149891_j64046552318029_1_alg».proof.Proof.Gen.KernelIdeal.Launch
import proofs.«149891_j64046552318029_1_alg».proof.Proof.Gen.KernelIdeal.Skeleton
import proofs.«149891_j64046552318029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (unfetched, the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's staging buffer holds its block at every point, fetched there or not (unfetched, the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's staging buffer holds its block at every point, fetched there or not (unfetched, the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's staging buffer holds its block at every point, fetched there or not (unfetched, the block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's staging buffer holds its block at every point, fetched there or not (unfetched, the block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's staging buffer holds its block at every point, fetched there or not (unfetched, the block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's staging buffer holds its block at every point, fetched there or not (unfetched, the block index has not moved). -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's staging buffer holds its block at every point, fetched there or not (unfetched, the block index has not moved). -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's staging buffer holds its block at every point, fetched there or not (unfetched, the block index has not moved). -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's staging buffer holds its block at every point, fetched there or not (unfetched, the block index has not moved). -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take a buffer whole -/

abbrev rA2 : Rect S5000x128 := Rect.unit (s := S5000x128) ![0, 0] S5000x128.size inb_S5000x128_S5000x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0

/-- The output buffer after the body, from the input blocks: the one store's value over the whole buffer. -/
def out2_10 (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) : Vec F S5000x128 .f32 :=
  View.canon [⟨rA2, k2_pay1 (k2_pay2 (View.ld x0 rA2) (View.ld x1 rA2) (View.ld x2 rW2) (View.ld x3 rB2) (View.ld x4 rB2) (View.ld x5 rB2) (View.ld x6 rB2) (View.ld x7 rB2)) (k2_pay3 (View.ld x8 rW2)) (View.ld x9 rB2)⟩]

/-- The one store covers the buffer. -/
theorem cover2_10 (p0 : Vec F S5000x128 .f32) (y : S5000x128.Idx) :
    ∃ pc ∈ ([⟨rA2, p0⟩] : List (View.Piece (Elt F) S5000x128 .f32)), y ∈ pc.1.set :=
  View.cover_of_tiled [⟨rA2, p0⟩] S5000x128.size (by rfl) y

/-! ## The body's triple -/

set_option maxHeartbeats 4000000 in
/-- On whole staging buffers, the inputs' at contents `x·` and the output's at anything, the body runs to the continuation
    with the inputs' as they were and the output's at `out2_10` of them. -/
theorem sound_kernel2 (c : Dev nD) (E : Set ℕ) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S5000x128 .f32) (harg11 : arg11.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out2_10 x0 x1 x2 x3 x4 x5 x6 x7 x8 x9)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9 arg10 harg10 arg11 harg11) K := by
  simp only [cc2__gin_mlp_kernel_eq_skeleton]; unfold cc2__gin_mlp_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2_10 _)

/-! ## The pipeline's proof data -/

/-- The proof data of the pipeline on core `c`: the arrays as the region finds them; after the body at point `t` each
    input's buffer at its block and the output's at `out2_10` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

set_option maxHeartbeats 2000000 in
/-- The body at any point: the inputs' buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.Region3.lean ====
/-
  The head kernel (the last pallas_call) as one region of the program, at the buffer contents `V` the region is
  entered with. Its grid has one point: it reads the pooled features [512,384], lin1_W, the lin1_b row, lin2_W, the
  lin2_b row whole and stores relu(g·lin1_W + lin1_b)·lin2_W + lin2_b into its [512,10] output. Here: each window's
  block, what the body leaves in the output buffer, the body's triple, the proof data and the body obligation.
-/
import proofs.«149891_j64046552318029_1_alg».proof.Proof.Gen.KernelIdeal.Launch
import proofs.«149891_j64046552318029_1_alg».proof.Proof.Gen.KernelIdeal.Skeleton
import proofs.«149891_j64046552318029_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents of core c when the region is entered: every statement of this file is at this parameter
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at the point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's staging buffer holds its block at the point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's staging buffer holds its block at the point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's staging buffer holds its block at the point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's staging buffer holds its block at the point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a buffer whole -/

abbrev rH0 : Rect S512x384 := Rect.unit (s := S512x384) ![0, 0] S512x384.size inb_S512x384_S512x384_0_0
abbrev rH1 : Rect S384x384 := Rect.unit (s := S384x384) ![0, 0] S384x384.size inb_S384x384_S384x384_0_0
abbrev rH2 : Rect S1x384 := Rect.unit (s := S1x384) ![0, 0] S1x384.size inb_S1x384_S1x384_0_0
abbrev rH3 : Rect S384x10 := Rect.unit (s := S384x10) ![0, 0] S384x10.size inb_S384x10_S384x10_0_0
abbrev rH4 : Rect S1x10 := Rect.unit (s := S1x10) ![0, 0] S1x10.size inb_S1x10_S1x10_0_0
abbrev rH5 : Rect S512x10 := Rect.unit (s := S512x10) ![0, 0] S512x10.size inb_S512x10_S512x10_0_0

/-- The output buffer after the body, from the input blocks: the one store's value over the whole buffer. -/
def out3_5 (x0 : Vec F S512x384 .f32) (x1 : Vec F S384x384 .f32) (x2 : Vec F S1x384 .f32) (x3 : Vec F S384x10 .f32) (x4 : Vec F S1x10 .f32) : Vec F S512x10 .f32 :=
  View.canon [⟨rH5, k3_pay1 (View.ld x0 rH0) (View.ld x1 rH1) (View.ld x2 rH2) (View.ld x3 rH3) (View.ld x4 rH4)⟩]

/-- The one store covers the buffer. -/
theorem cover3_5 (p0 : Vec F S512x10 .f32) (y : S512x10.Idx) :
    ∃ pc ∈ ([⟨rH5, p0⟩] : List (View.Piece (Elt F) S512x10 .f32)), y ∈ pc.1.set :=
  View.cover_of_tiled [⟨rH5, p0⟩] S512x10.size (by rfl) y

/-! ## The body's triple -/

set_option maxHeartbeats 4000000 in
/-- On whole staging buffers, the inputs' at contents `x·` and the output's at anything, the body runs to the continuation
    with the inputs' as they were and the output's at `out3_5` of them. -/
theorem sound_kernel3 (c : Dev nD) (E : Set ℕ) (i : grid3.Coords) (arg1 : Memref sig .tc .vmem S512x384 .f32) (harg1 : arg1.IsWhole) (arg2 : Memref sig .tc .vmem S384x384 .f32) (harg2 : arg2.IsWhole) (arg3 : Memref sig .tc .vmem S1x384 .f32) (harg3 : arg3.IsWhole) (arg4 : Memref sig .tc .vmem S384x10 .f32) (harg4 : arg4.IsWhole) (arg5 : Memref sig .tc .vmem S1x10 .f32) (harg5 : arg5.IsWhole) (arg6 : Memref sig .tc .vmem S512x10 .f32) (harg6 : arg6.IsWhole)
    (x0 : Vec F S512x384 .f32) (x1 : Vec F S384x384 .f32) (x2 : Vec F S1x384 .f32) (x3 : Vec F S384x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__head_kernel i arg1 harg1 arg2 harg2 arg3 harg3 arg4 harg4 arg5 harg5 arg6 harg6) K := by
  simp only [cc3__head_kernel_eq_skeleton]; unfold cc3__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of the pipeline on core `c`: the arrays as the region finds them; after the body each input's buffer
    at its block and the output's at `out3_5` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

set_option maxHeartbeats 2000000 in
/-- The body at the point: the inputs' buffers hold their blocks, so the triple applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.Run.lean ====
/-
  The program's run as a list of segments — host stretch, layer kernel 0, host stretch, layer kernel 1, host stretch,
  layer kernel 2, host stretch, head kernel — and what every buffer holds at each boundary: `W0` the launch memory, an
  odd boundary the host stretch applied to the boundary before it, an even one the region's arrays at what its
  write-backs leave and every other buffer as entered. The run ends with every buffer at `W8`; no segment writes an
  argument array, so each argument ends as launched, and the result buffer ends at `W8` of it.
-/
import proofs.«149891_j64046552318029_1_alg».proof.Proof.Gen.KernelIdeal.Launch
import proofs.«149891_j64046552318029_1_alg».proof.Proof.Gen.KernelIdeal.Skeleton
import proofs.«149891_j64046552318029_1_alg».proof.Proof.Gen.KernelIdeal.Points
import proofs.«149891_j64046552318029_1_alg».proof.Proof.Gen.KernelIdeal.Regions
import proofs.«149891_j64046552318029_1_alg».proof.Proof.KI.Region0
import proofs.«149891_j64046552318029_1_alg».proof.Proof.KI.Region1
import proofs.«149891_j64046552318029_1_alg».proof.Proof.KI.Region2
import proofs.«149891_j64046552318029_1_alg».proof.Proof.KI.Region3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After host stretch 0 (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- A host stretch leaves a buffer it does not write as it was. -/
theorem W1_keep (c : Dev nD) (r : Ref sig .tc) (h : r ∉ hostOps0_W) : W1 m c (Proc.devRef .tc r) = W0 m c (Proc.devRef .tc r) :=
  StableHlo.after_of_writes_sub hostOps0 _ hostOps0_writes h
/-- A region leaves every buffer but its output array as it was: an input window's array is never written back. -/
theorem W2_keep (c : Dev nD) (r : Ref sig .tc) (h : r ≠ main_v36) : W2 m c (Proc.devRef .tc r) = W1 m c (Proc.devRef .tc r) := by
  by_cases hw : ∃ w, Pipeline.arrRef spec0 w = r
  · obtain ⟨w, rfl⟩ := hw
    have hin : (cfg0.win w).isOut = false := by
      revert h; revert w; decide
    exact (W2_arr m c w).trans (((dat0 (V1 m) c).arrAt_in w hin _).trans (A_eq0 (V1 m) c w))
  · exact W2_of_ne m c r fun w e => hw ⟨w, e⟩
/-- After host stretch 1 (region 1's entry). -/
abbrev W3 : Dev nD → Valuation τ sig (Elt F) := fun c => StableHlo.after hostOps1 (W2 m c)
/-- The same read at the TensorCore's references. -/
abbrev V3 : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- A host stretch leaves a buffer it does not write as it was. -/
theorem W3_keep (c : Dev nD) (r : Ref sig .tc) (h : r ∉ hostOps1_W) : W3 m c (Proc.devRef .tc r) = W2 m c (Proc.devRef .tc r) :=
  StableHlo.after_of_writes_sub hostOps1 _ hostOps1_writes h
/-- A region leaves every buffer but its output array as it was: an input window's array is never written back. -/
theorem W4_keep (c : Dev nD) (r : Ref sig .tc) (h : r ≠ main_v72) : W4 m c (Proc.devRef .tc r) = W3 m c (Proc.devRef .tc r) := by
  by_cases hw : ∃ w, Pipeline.arrRef spec1 w = r
  · obtain ⟨w, rfl⟩ := hw
    have hin : (cfg1.win w).isOut = false := by
      revert h; revert w; decide
    exact (W4_arr m c w).trans (((dat1 (V3 m) c).arrAt_in w hin _).trans (A_eq1 (V3 m) c w))
  · exact W4_of_ne m c r fun w e => hw ⟨w, e⟩
/-- After host stretch 2 (region 2's entry). -/
abbrev W5 : Dev nD → Valuation τ sig (Elt F) := fun c => StableHlo.after hostOps2 (W4 m c)
/-- The same read at the TensorCore's references. -/
abbrev V5 : (c : Dev nD) → (b : Ref sig .tc) → Buf (Elt F) ((c : Thread nD τ).loc b) := fun c b => W5 m c b
/-- At region 2's exit: its arrays at what the pipeline leaves, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- A host stretch leaves a buffer it does not write as it was. -/
theorem W5_keep (c : Dev nD) (r : Ref sig .tc) (h : r ∉ hostOps2_W) : W5 m c (Proc.devRef .tc r) = W4 m c (Proc.devRef .tc r) :=
  StableHlo.after_of_writes_sub hostOps2 _ hostOps2_writes h
/-- A region leaves every buffer but its output array as it was: an input window's array is never written back. -/
theorem W6_keep (c : Dev nD) (r : Ref sig .tc) (h : r ≠ main_v108) : W6 m c (Proc.devRef .tc r) = W5 m c (Proc.devRef .tc r) := by
  by_cases hw : ∃ w, Pipeline.arrRef spec2 w = r
  · obtain ⟨w, rfl⟩ := hw
    have hin : (cfg2.win w).isOut = false := by
      revert h; revert w; decide
    exact (W6_arr m c w).trans (((dat2 (V5 m) c).arrAt_in w hin _).trans (A_eq2 (V5 m) c w))
  · exact W6_of_ne m c r fun w e => hw ⟨w, e⟩
/-- After host stretch 3 (region 3's entry). -/
abbrev W7 : Dev nD → Valuation τ sig (Elt F) := fun c => StableHlo.after hostOps3 (W6 m c)
/-- The same read at the TensorCore's references. -/
abbrev V7 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (dat3 (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- A host stretch leaves a buffer it does not write as it was. -/
theorem W7_keep (c : Dev nD) (r : Ref sig .tc) (h : r ∉ hostOps3_W) : W7 m c (Proc.devRef .tc r) = W6 m c (Proc.devRef .tc r) :=
  StableHlo.after_of_writes_sub hostOps3 _ hostOps3_writes h
/-- A region leaves every buffer but its output array as it was: an input window's array is never written back. -/
theorem W8_keep (c : Dev nD) (r : Ref sig .tc) (h : r ≠ main_v115) : W8 m c (Proc.devRef .tc r) = W7 m c (Proc.devRef .tc r) := by
  by_cases hw : ∃ w, Pipeline.arrRef spec3 w = r
  · obtain ⟨w, rfl⟩ := hw
    have hin : (cfg3.win w).isOut = false := by
      revert h; revert w; decide
    exact (W8_arr m c w).trans (((dat3 (V7 m) c).arrAt_in w hin _).trans (A_eq3 (V7 m) c w))
  · exact W8_of_ne m c r fun w e => hw ⟨w, e⟩

/-- A buffer no segment writes ends as launched. -/
theorem W8_launch (c : Dev nD) (r : Ref sig .tc) (h0 : r ∉ hostOps0_W) (h1 : r ∉ hostOps1_W) (h2 : r ∉ hostOps2_W) (h3 : r ∉ hostOps3_W)
    (g0 : r ≠ main_v36) (g1 : r ≠ main_v72) (g2 : r ≠ main_v108) (g3 : r ≠ main_v115) :
    W8 m c (Proc.devRef .tc r) = m ((c : Thread nD τ).loc r) :=
  (W8_keep m c r g3).trans <| (W7_keep m c r h3).trans <| (W6_keep m c r g2).trans <| (W5_keep m c r h2).trans <|
    (W4_keep m c r g1).trans <| (W3_keep m c r h1).trans <| (W2_keep m c r g0).trans <| (W1_keep m c r h0).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W8`, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`; its arrays split out of
    the unscoped buffers and put back at the exit contents; the generator register into the invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; its arrays split out of
    the unscoped buffers and put back at the exit contents; the generator register into the invariant and out; nothing owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`; its arrays split out of
    the unscoped buffers and put back at the exit contents; the generator register into the invariant and out; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`; its arrays split out of
    the unscoped buffers and put back at the exit contents; the generator register into the invariant and out; nothing owed. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

theorem main_run (c : Dev nD) : main (F := F) c = Pipeline.Seg.run (segs m) := (main_chain c).trans (by chain_rfl)

set_option backward.isDefEq.respectTransparency.types false in
/-- Every weakly fair execution of the program from memory `m` with zero counters terminates, nothing faulting, with
    every unscoped buffer of every core at `W8`: the launch over the segments, the last thread state read against the
    final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The run with the result named and the arguments unchanged: the result buffer ends at `W8` of it, each argument
    array as launched (no segment writes one). -/
theorem run : θ_run defs (onTc (τ := τ) (main (F := F))) ⟨m, fun _ => 0, ρ⟩ (fun r => ∀ c : Dev nD,
      r.2.mem ((c.tc : Thread nD τ).loc main_v115) = W8 m c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v115 (by decide)),
      (h c _ (mem_uc main_arg0 (by decide))).trans (W8_launch m c main_arg0 (by decide) (by decide) (by decide) (by decide) (by decide) (by decide) (by decide) (by decide)),
      (h c _ (mem_uc main_arg1 (by decide))).trans (W8_launch m c main_arg1 (by decide) (by decide) (by decide) (by decide) (by decide) (by decide) (by decide) (by decide)),
      (h c _ (mem_uc main_arg2 (by decide))).trans (W8_launch m c main_arg2 (by decide) (by decide) (by decide) (by decide) (by decide) (by decide) (by decide) (by decide)),
      (h c _ (mem_uc main_arg3 (by decide))).trans (W8_launch m c main_arg3 (by decide) (by decide) (by decide) (by decide) (by decide) (by decide) (by decide) (by decide)),
      (h c _ (mem_uc main_arg4 (by decide))).trans (W8_launch m c main_arg4 (by decide) (by decide) (by decide) (by decide) (by decide) (by decide) (by decide) (by decide)),
      (h c _ (mem_uc main_arg5 (by decide))).trans (W8_launch m c main_arg5 (by decide) (by decide) (by decide) (by decide) (by decide) (by decide) (by decide) (by decide)),
      (h c _ (mem_uc main_arg6 (by decide))).trans (W8_launch m c main_arg6 (by decide) (by decide) (by decide) (by decide) (by decide) (by decide) (by decide) (by decide)),
      (h c _ (mem_uc main_arg7 (by decide))).trans (W8_launch m c main_arg7 (by decide) (by decide) (by decide) (by decide) (by decide) (by decide) (by decide) (by decide)),
      (h c _ (mem_uc main_arg8 (by decide))).trans (W8_launch m c main_arg8 (by decide) (by decide) (by decide) (by decide) (by decide) (by decide) (by decide) (by decide)),
      (h c _ (mem_uc main_arg9 (by decide))).trans (W8_launch m c main_arg9 (by decide) (by decide) (by decide) (by decide) (by decide) (by decide) (by decide) (by decide)),
      (h c _ (mem_uc main_arg10 (by decide))).trans (W8_launch m c main_arg10 (by decide) (by decide) (by decide) (by decide) (by decide) (by decide) (by decide) (by decide)),
      (h c _ (mem_uc main_arg11 (by decide))).trans (W8_launch m c main_arg11 (by decide) (by decide) (by decide) (by decide) (by decide) (by decide) (by decide) (by decide)),
      (h c _ (mem_uc main_arg12 (by decide))).trans (W8_launch m c main_arg12 (by decide) (by decide) (by decide) (by decide) (by decide) (by decide) (by decide) (by decide)),
      (h c _ (mem_uc main_arg13 (by decide))).trans (W8_launch m c main_arg13 (by decide) (by decide) (by decide) (by decide) (by decide) (by decide) (by decide) (by decide)),
      (h c _ (mem_uc main_arg14 (by decide))).trans (W8_launch m c main_arg14 (by decide) (by decide) (by decide) (by decide) (by decide) (by decide) (by decide) (by decide))⟩)
    (run_all m ρ)

end Cert.KernelIdeal.Frame

end
-- ==== Proof.Spec.lean ====
/-
  The network as index-by-index functions on the extended reals, stated once for any number of rows so that a
  block of rows and the whole node array are instances of one definition.

  A layer takes the node features `h` and the neighbour sums `agg`, both [N,128], and computes per node n
    hid n k = max (((Σ_j (h n j + agg n j) · W1 j k) + b1 k − rm k) · scale k + be k) 0
    out n d = max ((Σ_k hid n k · W2 k d) + b2 d) 0
  where `scale k` is the batch-norm factor of channel k. The head is relu(g·W1 + b1)·W2 + b2 on [512,384].
  The one law: for a positive v, g · v^(-1/2) = g / √v on the extended reals (also at v = +∞, where both are 0).
-/
import Idealize.ShloMosaic.PureOps.Ideal
import Idealize.ShloMosaic.Lib.ValueIdx

noncomputable section

open scoped BigOperators

namespace Cert.Gin

open Idealize.ShloMosaic Idealize.ShloMosaic.ValueIdx

/-- The zero both programs clamp against (the same word on both sides, never evaluated). -/
abbrev zero : EReal := Ideal.ofBits .f32 0x00000000#32
/-- The batch-norm epsilon, the same word in both programs. -/
abbrev eps : EReal := Ideal.ofBits .f32 0x3727C5AC#32

/-- The hidden activation of node `n`, channel `k`: first affine map, batch-norm in evaluation mode, relu. -/
def hid (N : Nat) (h agg : (⟨2, ![N, 128]⟩ : Shape).Idx → EReal) (W1 : (⟨2, ![128, 128]⟩ : Shape).Idx → EReal)
    (b1 scale be rm : Fin 128 → EReal) (n : Fin N) (k : Fin 128) : EReal :=
  max (((((∑ j : Fin 128, (h (ix2 n j) + agg (ix2 n j)) * W1 (ix2 j k)) + b1 k) - rm k) * scale k) + be k) zero

/-- One layer: the second affine map of the hidden activations, then relu. -/
def layer (N : Nat) (h agg : (⟨2, ![N, 128]⟩ : Shape).Idx → EReal) (W1 : (⟨2, ![128, 128]⟩ : Shape).Idx → EReal)
    (b1 scale be rm : Fin 128 → EReal) (W2 : (⟨2, ![128, 128]⟩ : Shape).Idx → EReal) (b2 : Fin 128 → EReal) :
    (⟨2, ![N, 128]⟩ : Shape).Idx → EReal :=
  fun i => max ((∑ k : Fin 128, hid N h agg W1 b1 scale be rm (i 0) k * W2 (ix2 k (i 1))) + b2 (i 1)) zero

/-- The head on the pooled features: relu(g·W1 + b1)·W2 + b2. -/
def head (g : (⟨2, ![512, 384]⟩ : Shape).Idx → EReal) (W1 : (⟨2, ![384, 384]⟩ : Shape).Idx → EReal) (b1 : Fin 384 → EReal)
    (W2 : (⟨2, ![384, 10]⟩ : Shape).Idx → EReal) (b2 : Fin 10 → EReal) : (⟨2, ![512, 10]⟩ : Shape).Idx → EReal :=
  fun i => (∑ k : Fin 384, max ((∑ j : Fin 384, g (ix2 (i 0) j) * W1 (ix2 j k)) + b1 k) zero * W2 (ix2 k (i 1))) + b2 (i 1)

/-- For a positive `v`, multiplying by the reciprocal square root is dividing by the square root, for every
    extended real `g`: at a positive real both are `g · (√v)⁻¹`, at `+∞` both are `g · 0`. -/
theorem mul_rsqrt_eq_div_sqrt (g v : EReal) (hv : 0 < v) : g * Ideal.rsqrt v = Ideal.div g (Ideal.sqrt v) := by
  induction v using EReal.rec with
  | bot => exact absurd hv (by simp)
  | top =>
    have h1 : Ideal.rsqrt ⊤ = 0 := rfl
    have h2 : Ideal.sqrt ⊤ = ⊤ := rfl
    rw [h1, h2]; unfold Ideal.div
    rw [if_neg (by simp)]; simp
  | coe r =>
    have hr : 0 < r := by exact_mod_cast hv
    have hs : 0 < Real.sqrt r := Real.sqrt_pos.mpr hr
    have h1 : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    have h2 : Ideal.sqrt (r : EReal) = ((Real.sqrt r : ℝ) : EReal) := by
      show (if r < 0 then ⊥ else ((Real.sqrt r : ℝ) : EReal)) = _
      rw [if_neg (not_lt.mpr hr.le)]
    rw [h1, h2]; unfold Ideal.div
    rw [if_neg (by exact_mod_cast hs.ne'), ← EReal.coe_inv]

end Cert.Gin

end
-- ==== Proof.PayLayer.lean ====
/-
  The kernel's stored values read at one index, on the extended reals.

  Each layer kernel stores max((Σ_k hid(p,k) · W2(k,q)) + b2(q), 0), where hid is the first affine map of h + agg,
  the batch-norm of evaluation mode written with a reciprocal square root, and a clamp at zero; the head kernel
  stores (Σ_k max((Σ_j g(p,j) · W1(j,k)) + b1(k), 0) · W2(k,q)) + b2(q). The narrowing of a product's operands is
  the identity on the extended reals, a cast to the same shape is the identity, a row broadcast over the rows reads
  the row, and a product into the zero accumulator is the plain sum over the contracted axis.
-/
import proofs.«149891_j64046552318029_1_alg».proof.Proof.Spec
import proofs.«149891_j64046552318029_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Gin

/-! ### The [5000,128] × [128,128] product -/

/-- The left operand's row coordinate is the output's row. -/
theorem mm_layer_lhs0 (i : S5000x128.Idx) (c : dot_S5000x128_S128x128_S5000x128_1_0_0_1_n_n.contr.Idx) : (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand's column coordinate is the output's column. -/
theorem mm_layer_rhs1 (i : S5000x128.Idx) (c : dot_S5000x128_S128x128_S5000x128_1_0_0_1_n_n.contr.Idx) : (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a [5000,128] block with a [128,128] weight, into the zero accumulator, at (p,q). -/
theorem mm_layer (a : FVec Ideal S5000x128 .bf16) (b : FVec Ideal S128x128 .bf16) (p : Fin 5000) (q : Fin 128) :
    matmul (F := Ideal) dot_S5000x128_S128x128_S5000x128_1_0_0_1_n_n none a b (constant S5000x128 .f32 0x00000000#32) (ix2 p q)
      = ∑ k : Fin 128, a (ix2 p k) * b (ix2 k q) := by
  refine (Ideal.matmul_constant_zero_apply dot_S5000x128_S128x128_S5000x128_1_0_0_1_n_n none a b (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact mm_layer_lhs0 _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (dot_S5000x128_S128x128_S5000x128_1_0_0_1_n_n.rhsIdx_val_of_single rfl _ _).trans hk
    | ⟨1, _⟩ => exact mm_layer_rhs1 _ _)
  rw [el, er]

/-! ### The [512,384] × [384,384] product -/

/-- The left operand's row coordinate is the output's row. -/
theorem mm_head1_lhs0 (i : S512x384.Idx) (c : dot_S512x384_S384x384_S512x384_1_0_0_1_n_n.contr.Idx) : (dot_S512x384_S384x384_S512x384_1_0_0_1_n_n.lhsIdx i c 0).val = (i 0).val := by
  unfold DotDims.lhsIdx
  rw [dif_neg (show ¬(0 : Fin S512x384.rank) ∈ dot_S512x384_S384x384_S512x384_1_0_0_1_n_n.lhsBatch by decide), dif_pos (show (0 : Fin S512x384.rank) ∈ dot_S512x384_S384x384_S512x384_1_0_0_1_n_n.lhsNonContracting by decide)]
  rfl

/-- The right operand's column coordinate is the output's column. -/
theorem mm_head1_rhs1 (i : S512x384.Idx) (c : dot_S512x384_S384x384_S512x384_1_0_0_1_n_n.contr.Idx) : (dot_S512x384_S384x384_S512x384_1_0_0_1_n_n.rhsIdx i c 1).val = (i 1).val := by
  unfold DotDims.rhsIdx
  rw [dif_neg (show ¬(1 : Fin S384x384.rank) ∈ dot_S512x384_S384x384_S512x384_1_0_0_1_n_n.rhsBatch by decide), dif_pos (show (1 : Fin S384x384.rank) ∈ dot_S512x384_S384x384_S512x384_1_0_0_1_n_n.rhsNonContracting by decide)]
  rfl

/-- The product of the [512,384] pooled features with a [384,384] weight, into the zero accumulator, at (p,q). -/
theorem mm_head1 (a : FVec Ideal S512x384 .bf16) (b : FVec Ideal S384x384 .bf16) (p : Fin 512) (q : Fin 384) :
    matmul (F := Ideal) dot_S512x384_S384x384_S512x384_1_0_0_1_n_n none a b (constant S512x384 .f32 0x00000000#32) (ix2 p q)
      = ∑ k : Fin 384, a (ix2 p k) * b (ix2 k q) := by
  refine (Ideal.matmul_constant_zero_apply dot_S512x384_S384x384_S512x384_1_0_0_1_n_n none a b (ix2 p q)).trans ?_
  rw [← Equiv.sum_comp (contrEquiv1 dot_S512x384_S384x384_S512x384_1_0_0_1_n_n 384 rfl rfl).symm]
  refine Finset.sum_congr rfl fun k _ => ?_
  have hk := contrEquiv1_symm_val dot_S512x384_S384x384_S512x384_1_0_0_1_n_n 384 rfl rfl k
  have el : dot_S512x384_S384x384_S512x384_1_0_0_1_n_n.lhsIdx (ix2 p q) ((contrEquiv1 dot_S512x384_S384x384_S512x384_1_0_0_1_n_n 384 rfl rfl).symm k) = ix2 p k := funext fun d => Fin.ext (by
    match d with
    | ⟨0, _⟩ => exact mm_head1_lhs0 _ _
    | ⟨1, _⟩ => exact (dot_S512x384_S384x384_S512x384_1_0_0_1_n_n.lhsIdx_val_of_single rfl _ _).trans hk)
  have er : dot_S512x384_S384x384_S512x384_1_0_0_1_n_n.rhsIdx (ix2 p q) ((contrEquiv1 dot_S512x384_S384x384_S512x384_1_0_0_1_n_n 384 rfl rfl).symm k) = ix2 k q := funext fun d => Fin.ext (by
    match d with
    | ⟨0, _⟩ => exact (dot_S512x384_S384x384_S512x384_1_0_0_1_n_n.rhsIdx_val_of_single rfl _ _).trans hk
    | ⟨1, _⟩ => exact mm_head1_rhs1 _ _)
  rw [el, er]

/-! ### The [512,384] × [384,10] product -/

/-- The left operand's row coordinate is the output's row. -/
theorem mm_head2_lhs0 (i : S512x10.Idx) (c : dot_S512x384_S384x10_S512x10_1_0_0_1_n_n.contr.Idx) : (dot_S512x384_S384x10_S512x10_1_0_0_1_n_n.lhsIdx i c 0).val = (i 0).val := by
  unfold DotDims.lhsIdx
  rw [dif_neg (show ¬(0 : Fin S512x384.rank) ∈ dot_S512x384_S384x10_S512x10_1_0_0_1_n_n.lhsBatch by decide), dif_pos (show (0 : Fin S512x384.rank) ∈ dot_S512x384_S384x10_S512x10_1_0_0_1_n_n.lhsNonContracting by decide)]
  rfl

/-- The right operand's column coordinate is the output's column. -/
theorem mm_head2_rhs1 (i : S512x10.Idx) (c : dot_S512x384_S384x10_S512x10_1_0_0_1_n_n.contr.Idx) : (dot_S512x384_S384x10_S512x10_1_0_0_1_n_n.rhsIdx i c 1).val = (i 1).val := by
  unfold DotDims.rhsIdx
  rw [dif_neg (show ¬(1 : Fin S384x10.rank) ∈ dot_S512x384_S384x10_S512x10_1_0_0_1_n_n.rhsBatch by decide), dif_pos (show (1 : Fin S384x10.rank) ∈ dot_S512x384_S384x10_S512x10_1_0_0_1_n_n.rhsNonContracting by decide)]
  rfl

/-- The product of a [512,384] activation with the [384,10] weight, into the zero accumulator, at (p,q). -/
theorem mm_head2 (a : FVec Ideal S512x384 .bf16) (b : FVec Ideal S384x10 .bf16) (p : Fin 512) (q : Fin 10) :
    matmul (F := Ideal) dot_S512x384_S384x10_S512x10_1_0_0_1_n_n none a b (constant S512x10 .f32 0x00000000#32) (ix2 p q)
      = ∑ k : Fin 384, a (ix2 p k) * b (ix2 k q) := by
  refine (Ideal.matmul_constant_zero_apply dot_S512x384_S384x10_S512x10_1_0_0_1_n_n none a b (ix2 p q)).trans ?_
  rw [← Equiv.sum_comp (contrEquiv1 dot_S512x384_S384x10_S512x10_1_0_0_1_n_n 384 rfl rfl).symm]
  refine Finset.sum_congr rfl fun k _ => ?_
  have hk := contrEquiv1_symm_val dot_S512x384_S384x10_S512x10_1_0_0_1_n_n 384 rfl rfl k
  have el : dot_S512x384_S384x10_S512x10_1_0_0_1_n_n.lhsIdx (ix2 p q) ((contrEquiv1 dot_S512x384_S384x10_S512x10_1_0_0_1_n_n 384 rfl rfl).symm k) = ix2 p k := funext fun d => Fin.ext (by
    match d with
    | ⟨0, _⟩ => exact mm_head2_lhs0 _ _
    | ⟨1, _⟩ => exact (dot_S512x384_S384x10_S512x10_1_0_0_1_n_n.lhsIdx_val_of_single rfl _ _).trans hk)
  have er : dot_S512x384_S384x10_S512x10_1_0_0_1_n_n.rhsIdx (ix2 p q) ((contrEquiv1 dot_S512x384_S384x10_S512x10_1_0_0_1_n_n 384 rfl rfl).symm k) = ix2 k q := funext fun d => Fin.ext (by
    match d with
    | ⟨0, _⟩ => exact (dot_S512x384_S384x10_S512x10_1_0_0_1_n_n.rhsIdx_val_of_single rfl _ _).trans hk
    | ⟨1, _⟩ => exact mm_head2_rhs1 _ _)
  rw [el, er]

/-! ### Layer kernel 0 -/

/-- The hidden activation layer kernel 0 keeps, at (p,k): the first affine map of h + agg, the batch-norm with the
    factor gamma · (var + eps)^(-1/2), and the clamp at zero. -/
theorem hid0 (x0 x1 : Vec Ideal S5000x128 .f32) (x2 : Vec Ideal S128x128 .f32) (x3 x4 x5 x6 x7 : Vec Ideal S1x128 .f32)
    (p : Fin 5000) (k : Fin 128) :
    k0_pay2 (F := Ideal) x0 x1 x2 x3 x4 x5 x6 x7 (ix2 p k)
      = hid 5000 x0 x1 x2 (fun k => x3 (ix2 0 k)) (fun k => x4 (ix2 0 k) * Ideal.rsqrt (x7 (ix2 0 k) + eps))
          (fun k => x5 (ix2 0 k)) (fun k => x6 (ix2 0 k)) p k := by
  unfold k0_pay2 hid
  simp only [shapeCast_self, maximumf_apply, addf_apply, subf_apply, mulf_apply, broadcast_apply, truncf_apply,
    broadcastTo_1b_ab_apply, mm_layer]
  rfl

/-- What layer kernel 0 stores, at (p,q): the layer of the specification on the block's rows. -/
theorem pay0 (x0 x1 : Vec Ideal S5000x128 .f32) (x2 : Vec Ideal S128x128 .f32) (x3 x4 x5 x6 x7 : Vec Ideal S1x128 .f32)
    (x8 : Vec Ideal S128x128 .f32) (x9 : Vec Ideal S1x128 .f32) (p : Fin 5000) (q : Fin 128) :
    k0_pay1 (F := Ideal) (k0_pay2 x0 x1 x2 x3 x4 x5 x6 x7) (k0_pay3 x8) x9 (ix2 p q)
      = layer 5000 x0 x1 x2 (fun k => x3 (ix2 0 k)) (fun k => x4 (ix2 0 k) * Ideal.rsqrt (x7 (ix2 0 k) + eps))
          (fun k => x5 (ix2 0 k)) (fun k => x6 (ix2 0 k)) x8 (fun k => x9 (ix2 0 k)) (ix2 p q) := by
  unfold k0_pay1 k0_pay3 layer
  simp only [shapeCast_self, maximumf_apply, addf_apply, broadcast_apply, truncf_apply, broadcastTo_1b_ab_apply, mm_layer,
    hid0]
  rfl

/-! ### Layer kernel 1 -/

/-- The hidden activation layer kernel 1 keeps, at (p,k): the first affine map of h + agg, the batch-norm with the
    factor gamma · (var + eps)^(-1/2), and the clamp at zero. -/
theorem hid1 (x0 x1 : Vec Ideal S5000x128 .f32) (x2 : Vec Ideal S128x128 .f32) (x3 x4 x5 x6 x7 : Vec Ideal S1x128 .f32)
    (p : Fin 5000) (k : Fin 128) :
    k1_pay2 (F := Ideal) x0 x1 x2 x3 x4 x5 x6 x7 (ix2 p k)
      = hid 5000 x0 x1 x2 (fun k => x3 (ix2 0 k)) (fun k => x4 (ix2 0 k) * Ideal.rsqrt (x7 (ix2 0 k) + eps))
          (fun k => x5 (ix2 0 k)) (fun k => x6 (ix2 0 k)) p k := by
  unfold k1_pay2 hid
  simp only [shapeCast_self, maximumf_apply, addf_apply, subf_apply, mulf_apply, broadcast_apply, truncf_apply,
    broadcastTo_1b_ab_apply, mm_layer]
  rfl

/-- What layer kernel 1 stores, at (p,q): the layer of the specification on the block's rows. -/
theorem pay1 (x0 x1 : Vec Ideal S5000x128 .f32) (x2 : Vec Ideal S128x128 .f32) (x3 x4 x5 x6 x7 : Vec Ideal S1x128 .f32)
    (x8 : Vec Ideal S128x128 .f32) (x9 : Vec Ideal S1x128 .f32) (p : Fin 5000) (q : Fin 128) :
    k1_pay1 (F := Ideal) (k1_pay2 x0 x1 x2 x3 x4 x5 x6 x7) (k1_pay3 x8) x9 (ix2 p q)
      = layer 5000 x0 x1 x2 (fun k => x3 (ix2 0 k)) (fun k => x4 (ix2 0 k) * Ideal.rsqrt (x7 (ix2 0 k) + eps))
          (fun k => x5 (ix2 0 k)) (fun k => x6 (ix2 0 k)) x8 (fun k => x9 (ix2 0 k)) (ix2 p q) := by
  unfold k1_pay1 k1_pay3 layer
  simp only [shapeCast_self, maximumf_apply, addf_apply, broadcast_apply, truncf_apply, broadcastTo_1b_ab_apply, mm_layer,
    hid1]
  rfl

/-! ### Layer kernel 2 -/

/-- The hidden activation layer kernel 2 keeps, at (p,k): the first affine map of h + agg, the batch-norm with the
    factor gamma · (var + eps)^(-1/2), and the clamp at zero. -/
theorem hid2 (x0 x1 : Vec Ideal S5000x128 .f32) (x2 : Vec Ideal S128x128 .f32) (x3 x4 x5 x6 x7 : Vec Ideal S1x128 .f32)
    (p : Fin 5000) (k : Fin 128) :
    k2_pay2 (F := Ideal) x0 x1 x2 x3 x4 x5 x6 x7 (ix2 p k)
      = hid 5000 x0 x1 x2 (fun k => x3 (ix2 0 k)) (fun k => x4 (ix2 0 k) * Ideal.rsqrt (x7 (ix2 0 k) + eps))
          (fun k => x5 (ix2 0 k)) (fun k => x6 (ix2 0 k)) p k := by
  unfold k2_pay2 hid
  simp only [shapeCast_self, maximumf_apply, addf_apply, subf_apply, mulf_apply, broadcast_apply, truncf_apply,
    broadcastTo_1b_ab_apply, mm_layer]
  rfl

/-- What layer kernel 2 stores, at (p,q): the layer of the specification on the block's rows. -/
theorem pay2 (x0 x1 : Vec Ideal S5000x128 .f32) (x2 : Vec Ideal S128x128 .f32) (x3 x4 x5 x6 x7 : Vec Ideal S1x128 .f32)
    (x8 : Vec Ideal S128x128 .f32) (x9 : Vec Ideal S1x128 .f32) (p : Fin 5000) (q : Fin 128) :
    k2_pay1 (F := Ideal) (k2_pay2 x0 x1 x2 x3 x4 x5 x6 x7) (k2_pay3 x8) x9 (ix2 p q)
      = layer 5000 x0 x1 x2 (fun k => x3 (ix2 0 k)) (fun k => x4 (ix2 0 k) * Ideal.rsqrt (x7 (ix2 0 k) + eps))
          (fun k => x5 (ix2 0 k)) (fun k => x6 (ix2 0 k)) x8 (fun k => x9 (ix2 0 k)) (ix2 p q) := by
  unfold k2_pay1 k2_pay3 layer
  simp only [shapeCast_self, maximumf_apply, addf_apply, broadcast_apply, truncf_apply, broadcastTo_1b_ab_apply, mm_layer,
    hid2]
  rfl

/-! ### The head kernel -/

/-- What the head kernel stores, at (p,q): the head of the specification on the pooled features. -/
theorem pay3 (v0 : Vec Ideal S512x384 .f32) (v2 : Vec Ideal S384x384 .f32) (v3 : Vec Ideal S1x384 .f32)
    (v12 : Vec Ideal S384x10 .f32) (v13 : Vec Ideal S1x10 .f32) (p : Fin 512) (q : Fin 10) :
    k3_pay1 (F := Ideal) v0 v2 v3 v12 v13 (ix2 p q)
      = head v0 v2 (fun k => v3 (ix2 0 k)) v12 (fun k => v13 (ix2 0 k)) (ix2 p q) := by
  unfold k3_pay1 head
  simp only [shapeCast_self, maximumf_apply, addf_apply, broadcast_apply, truncf_apply, broadcastTo_1b_ab_apply, mm_head1,
    mm_head2]
  rfl

end Cert.KernelIdeal.Pay

end
-- ==== Proof.KI.Finals.lean ====
/-
  From the blocks to the arrays: what each kernel's output array holds when its region ends.

  Every grid point of a layer kernel reads one block of 5000 rows of h and of agg and the weights whole, and
  writes back the same rows of its output; row r of the layer depends on row r of h and agg only, so the block
  written at point t is block t of the layer of the whole arrays, and the ten blocks cover the 50000 rows. The
  head kernel has one point and whole arrays.
-/
import proofs.«149891_j64046552318029_1_alg».proof.Proof.Spec
import proofs.«149891_j64046552318029_1_alg».proof.Proof.PayLayer
import proofs.«149891_j64046552318029_1_alg».proof.Proof.KI.Region0
import proofs.«149891_j64046552318029_1_alg».proof.Proof.KI.Region1
import proofs.«149891_j64046552318029_1_alg».proof.Proof.KI.Region2
import proofs.«149891_j64046552318029_1_alg».proof.Proof.KI.Region3
import Idealize.ShloMosaic.Lib.Pipeline.Value
import Idealize.ShloMosaic.Lib.ValueIdx

set_option maxRecDepth 16384

noncomputable section

open scoped BigOperators

namespace Cert.KernelIdeal.Frame

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Pay Cert.Gin

-- the buffer contents of core c when a region is entered
variable (V : (c : Dev nD) → (b : Ref sig .tc) → Buf (Elt Ideal) ((c : Thread nD τ).loc b))

/-- The zero offsets of a whole-buffer access, as a constant function. -/
theorem hzero2 : (![0, 0] : Fin 2 → Nat) = fun _ => 0 := funext fun a => by fin_cases a <;> rfl

/-! ## Rows of parameters

A [1,128] array holds one value per channel; the batch-norm factor of a channel is gamma · (var + eps)^(-1/2). -/

/-- The one row of a [1,128] array, as a function of the channel. -/
abbrev row128 (x : S1x128.Idx → EReal) : Fin 128 → EReal := fun k => x (ix2 0 k)

/-- The batch-norm factor per channel, from the gamma row and the running-variance row. -/
abbrev bnScale (g v : S1x128.Idx → EReal) : Fin 128 → EReal := fun k => g (ix2 0 k) * Ideal.rsqrt (v (ix2 0 k) + eps)

/-! ## A block of rows of a layer

Row r of a layer reads row r of h and of agg only: on a block whose row p is row r of the arrays, the layer of the
block at (p,q) is the layer of the arrays at (r,q). -/

theorem layer_rows (H A : S50000x128.Idx → EReal) (h a : S5000x128.Idx → EReal) (W1 : S128x128.Idx → EReal)
    (b1 sc be rm : Fin 128 → EReal) (W2 : S128x128.Idx → EReal) (b2 : Fin 128 → EReal)
    (r : Fin 50000) (p : Fin 5000) (q : Fin 128)
    (hh : ∀ j : Fin 128, h (ix2 p j) = H (ix2 r j)) (ha : ∀ j : Fin 128, a (ix2 p j) = A (ix2 r j)) :
    layer 5000 h a W1 b1 sc be rm W2 b2 (ix2 p q) = layer 50000 H A W1 b1 sc be rm W2 b2 (ix2 r q) := by
  have hrow : ∀ k : Fin 128, hid 5000 h a W1 b1 sc be rm p k = hid 50000 H A W1 b1 sc be rm r k := fun k => by
    unfold hid; simp only [hh, ha]
  show max ((∑ k : Fin 128, hid 5000 h a W1 b1 sc be rm p k * W2 (ix2 k q)) + b2 q) zero
    = max ((∑ k : Fin 128, hid 50000 H A W1 b1 sc be rm r k * W2 (ix2 k q)) + b2 q) zero
  simp only [hrow]

/-! ## Layer kernel 0 -/

/-- The index maps over the grid: h, agg and the output move with the point along the rows; the weights and the
    rows of parameters stay at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Window 2's block is its whole array at every point. -/
theorem iblk0_2_eq (c : Dev nD) (t : Fin cfg0.N) : (iblk0 V c 2 t : S128x128.Idx → EReal) = (V c main_v15 : S128x128.Idx → EReal) := by
  have hf := idx_facts0 t
  funext x
  unfold iblk0
  rw [View.read_apply]
  show (V c main_v15 : S128x128.Idx → EReal) _ = _
  congr 1
  funext a; apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

/-- Window 3's block is its whole array at every point. -/
theorem iblk0_3_eq (c : Dev nD) (t : Fin cfg0.N) : (iblk0 V c 3 t : S1x128.Idx → EReal) = (V c main_v30 : S1x128.Idx → EReal) := by
  have hf := idx_facts0 t
  funext x
  unfold iblk0
  rw [View.read_apply]
  show (V c main_v30 : S1x128.Idx → EReal) _ = _
  congr 1
  funext a; apply Fin.ext
  match a with
  | ⟨0, _⟩ => show win0_3.index t (0 : Fin 2) * 1 + 1 * (x 0).val = (x 0).val; omega
  | ⟨1, _⟩ => show win0_3.index t (1 : Fin 2) * 128 + 1 * (x 1).val = (x 1).val; omega

/-- Window 4's block is its whole array at every point. -/
theorem iblk0_4_eq (c : Dev nD) (t : Fin cfg0.N) : (iblk0 V c 4 t : S1x128.Idx → EReal) = (V c main_v31 : S1x128.Idx → EReal) := by
  have hf := idx_facts0 t
  funext x
  unfold iblk0
  rw [View.read_apply]
  show (V c main_v31 : S1x128.Idx → EReal) _ = _
  congr 1
  funext a; apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

/-- Window 5's block is its whole array at every point. -/
theorem iblk0_5_eq (c : Dev nD) (t : Fin cfg0.N) : (iblk0 V c 5 t : S1x128.Idx → EReal) = (V c main_v32 : S1x128.Idx → EReal) := by
  have hf := idx_facts0 t
  funext x
  unfold iblk0
  rw [View.read_apply]
  show (V c main_v32 : S1x128.Idx → EReal) _ = _
  congr 1
  funext a; apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

/-- Window 6's block is its whole array at every point. -/
theorem iblk0_6_eq (c : Dev nD) (t : Fin cfg0.N) : (iblk0 V c 6 t : S1x128.Idx → EReal) = (V c main_v33 : S1x128.Idx → EReal) := by
  have hf := idx_facts0 t
  funext x
  unfold iblk0
  rw [View.read_apply]
  show (V c main_v33 : S1x128.Idx → EReal) _ = _
  congr 1
  funext a; apply Fin.ext
  match a with
  | ⟨0, _⟩ => show win0_6.index t (0 : Fin 2) * 1 + 1 * (x 0).val = (x 0).val; omega
  | ⟨1, _⟩ => show win0_6.index t (1 : Fin 2) * 128 + 1 * (x 1).val = (x 1).val; omega

/-- Window 7's block is its whole array at every point. -/
theorem iblk0_7_eq (c : Dev nD) (t : Fin cfg0.N) : (iblk0 V c 7 t : S1x128.Idx → EReal) = (V c main_v34 : S1x128.Idx → EReal) := by
  have hf := idx_facts0 t
  funext x
  unfold iblk0
  rw [View.read_apply]
  show (V c main_v34 : S1x128.Idx → EReal) _ = _
  congr 1
  funext a; apply Fin.ext
  match a with
  | ⟨0, _⟩ => show win0_7.index t (0 : Fin 2) * 1 + 1 * (x 0).val = (x 0).val; omega
  | ⟨1, _⟩ => show win0_7.index t (1 : Fin 2) * 128 + 1 * (x 1).val = (x 1).val; omega

/-- Window 8's block is its whole array at every point. -/
theorem iblk0_8_eq (c : Dev nD) (t : Fin cfg0.N) : (iblk0 V c 8 t : S128x128.Idx → EReal) = (V c main_v27 : S128x128.Idx → EReal) := by
  have hf := idx_facts0 t
  funext x
  unfold iblk0
  rw [View.read_apply]
  show (V c main_v27 : S128x128.Idx → EReal) _ = _
  congr 1
  funext a; apply Fin.ext
  match a with
  | ⟨0, _⟩ => show win0_8.index t (0 : Fin 2) * 128 + 1 * (x 0).val = (x 0).val; omega
  | ⟨1, _⟩ => show win0_8.index t (1 : Fin 2) * 128 + 1 * (x 1).val = (x 1).val; omega

/-- Window 9's block is its whole array at every point. -/
theorem iblk0_9_eq (c : Dev nD) (t : Fin cfg0.N) : (iblk0 V c 9 t : S1x128.Idx → EReal) = (V c main_v35 : S1x128.Idx → EReal) := by
  have hf := idx_facts0 t
  funext x
  unfold iblk0
  rw [View.read_apply]
  show (V c main_v35 : S1x128.Idx → EReal) _ = _
  congr 1
  funext a; apply Fin.ext
  match a with
  | ⟨0, _⟩ => show win0_9.index t (0 : Fin 2) * 1 + 1 * (x 0).val = (x 0).val; omega
  | ⟨1, _⟩ => show win0_9.index t (1 : Fin 2) * 128 + 1 * (x 1).val = (x 1).val; omega

/-- Window 0's block at point t is rows 5000·t … 5000·t + 4999 of its array. -/
theorem iblk0_0_apply (c : Dev nD) (t : Fin cfg0.N) (p : Fin 5000) (j : Fin 128) (r : Fin 50000) (hr : r.val = t.val * 5000 + p.val) :
    (iblk0 V c 0 t : S5000x128.Idx → EReal) (ix2 p j) = (V c main_arg0 : S50000x128.Idx → EReal) (ix2 r j) := by
  have hf := idx_facts0 t
  unfold iblk0
  rw [View.read_apply]
  show (V c main_arg0 : S50000x128.Idx → EReal) _ = _
  congr 1
  funext a; apply Fin.ext
  match a with
  | ⟨0, _⟩ => show win0_0.index t (0 : Fin 2) * 5000 + 1 * p.val = r.val; omega
  | ⟨1, _⟩ => show win0_0.index t (1 : Fin 2) * 128 + 1 * j.val = j.val; omega

/-- Window 1's block at point t is rows 5000·t … 5000·t + 4999 of its array. -/
theorem iblk0_1_apply (c : Dev nD) (t : Fin cfg0.N) (p : Fin 5000) (j : Fin 128) (r : Fin 50000) (hr : r.val = t.val * 5000 + p.val) :
    (iblk0 V c 1 t : S5000x128.Idx → EReal) (ix2 p j) = (V c main_v13 : S50000x128.Idx → EReal) (ix2 r j) := by
  have hf := idx_facts0 t
  unfold iblk0
  rw [View.read_apply]
  show (V c main_v13 : S50000x128.Idx → EReal) _ = _
  congr 1
  funext a; apply Fin.ext
  match a with
  | ⟨0, _⟩ => show win0_1.index t (0 : Fin 2) * 5000 + 1 * p.val = r.val; omega
  | ⟨1, _⟩ => show win0_1.index t (1 : Fin 2) * 128 + 1 * j.val = j.val; omega

/-- Point t writes back block t of the layer of the arrays. -/
theorem flushed0_eq (c : Dev nD) (t : Fin cfg0.N) :
    (dat0 (F := Ideal) V c).flushed 10 t = ((cfg0.win 10).blk t).view.read (Elt Ideal)
        (layer 50000 (V c main_arg0) (V c main_v13) (V c main_v15) (row128 (V c main_v30)) (bnScale (V c main_v31) (V c main_v34))
          (row128 (V c main_v32)) (row128 (V c main_v33)) (V c main_v27) (row128 (V c main_v35))) := by
  show (cfg0.win 10).cut (grid0.coords t) ((dat0 V c).after 10 t) = _
  rw [after0_10]
  unfold out0_10
  rw [View.canon_unit_zero hzero2]
  simp only [View.ld_unit_zero (S := S5000x128) hzero2, View.ld_unit_zero (S := S128x128) hzero2,
    View.ld_unit_zero (S := S1x128) hzero2]
  rw [iblk0_2_eq, iblk0_3_eq, iblk0_4_eq, iblk0_5_eq, iblk0_6_eq, iblk0_7_eq, iblk0_8_eq, iblk0_9_eq]
  have hf := idx_facts0 t
  have hN : t.val < 10 := by have h := t.isLt; have e : cfg0.N = 10 := N_0; omega
  funext y
  obtain ⟨p, q, rfl⟩ : ∃ (p : Fin 5000) (q : Fin 128), y = ix2 p q := ⟨y 0, y 1, eq_ix2 y⟩
  have hp : p.val < 5000 := p.isLt
  refine (pay0 (iblk0 V c 0 t) (iblk0 V c 1 t) (V c main_v15) (V c main_v30) (V c main_v31) (V c main_v32) (V c main_v33) (V c main_v34) (V c main_v27) (V c main_v35) p q).trans ?_
  refine (layer_rows (V c main_arg0) (V c main_v13) (iblk0 V c 0 t) (iblk0 V c 1 t) (V c main_v15) _ _ _ _ (V c main_v27) _
    ⟨t.val * 5000 + p.val, by omega⟩ p q (fun j => iblk0_0_apply V c t p j _ rfl) (fun j => iblk0_1_apply V c t p j _ rfl)).trans ?_
  show (layer 50000 (V c main_arg0) (V c main_v13) (V c main_v15) (row128 (V c main_v30)) (bnScale (V c main_v31) (V c main_v34))
          (row128 (V c main_v32)) (row128 (V c main_v33)) (V c main_v27) (row128 (V c main_v35))) (ix2 ⟨t.val * 5000 + p.val, by omega⟩ q)
      = (layer 50000 (V c main_arg0) (V c main_v13) (V c main_v15) (row128 (V c main_v30)) (bnScale (V c main_v31) (V c main_v34))
          (row128 (V c main_v32)) (row128 (V c main_v33)) (V c main_v27) (row128 (V c main_v35))) (((cfg0.win 10).blk t).view.emb (ix2 p q))
  refine congrArg (layer 50000 (V c main_arg0) (V c main_v13) (V c main_v15) (row128 (V c main_v30)) (bnScale (V c main_v31) (V c main_v34))
          (row128 (V c main_v32)) (row128 (V c main_v33)) (V c main_v27) (row128 (V c main_v35))) (funext fun a => Fin.ext ?_)
  match a with
  | ⟨0, _⟩ => show t.val * 5000 + p.val = win0_10.index t (0 : Fin 2) * 5000 + 1 * p.val; omega
  | ⟨1, _⟩ => show q.val = win0_10.index t (1 : Fin 2) * 128 + 1 * q.val; omega

/-- An index of the output array is in point t's block iff each coordinate is in the block's range. -/
theorem mem_blk0 (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v36).slice (win0_10.rect t)).set ↔ _
  rw [View.set_slice_whole, Rect.mem_set_unit]
  exact Iff.rfl

/-- The output array of layer kernel 0 when its region ends: the layer of the arrays the region found; row r is
    written at point r / 5000. -/
theorem final0 (c : Dev nD) :
    (dat0 (F := Ideal) V c).arrAt 10 cfg0.N
      = (layer 50000 (V c main_arg0) (V c main_v13) (V c main_v15) (row128 (V c main_v30)) (bnScale (V c main_v31) (V c main_v34))
          (row128 (V c main_v32)) (row128 (V c main_v33)) (V c main_v27) (row128 (V c main_v35))) :=
  (dat0 V c).arrAt_eq_of_cover 10 _ (fun t _ => flushed0_eq V c t) fun i => by
    have h0 : (i 0).val < 50000 := (i 0).isLt
    have h1 : (i 1).val < 128 := (i 1).isLt
    have e : cfg0.N = 10 := N_0
    refine ⟨⟨(i 0).val / 5000, by omega⟩, flush0_10 _, ?_⟩
    rw [mem_blk0]
    have hf := idx_facts0 ⟨(i 0).val / 5000, by omega⟩
    have ht : (⟨(i 0).val / 5000, by omega⟩ : Fin cfg0.N).val = (i 0).val / 5000 := rfl
    intro a
    match a with
    | ⟨0, _⟩ => show win0_10.index ⟨(i 0).val / 5000, _⟩ (0 : Fin 2) * 5000 ≤ (i 0).val ∧ (i 0).val < win0_10.index ⟨(i 0).val / 5000, _⟩ (0 : Fin 2) * 5000 + 5000; omega
    | ⟨1, _⟩ => show win0_10.index ⟨(i 0).val / 5000, _⟩ (1 : Fin 2) * 128 ≤ (i 1).val ∧ (i 1).val < win0_10.index ⟨(i 0).val / 5000, _⟩ (1 : Fin 2) * 128 + 128; omega

/-! ## Layer kernel 1 -/

/-- The index maps over the grid: h, agg and the output move with the point along the rows; the weights and the
    rows of parameters stay at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val ∧ win1_10.index t (1 : Fin 2) = 0 :=
  (by decide +kernel : ∀ t : Fin grid1.N, _)

/-- Window 2's block is its whole array at every point. -/
theorem iblk1_2_eq (c : Dev nD) (t : Fin cfg1.N) : (iblk1 V c 2 t : S128x128.Idx → EReal) = (V c main_v51 : S128x128.Idx → EReal) := by
  have hf := idx_facts1 t
  funext x
  unfold iblk1
  rw [View.read_apply]
  show (V c main_v51 : S128x128.Idx → EReal) _ = _
  congr 1
  funext a; apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- Window 3's block is its whole array at every point. -/
theorem iblk1_3_eq (c : Dev nD) (t : Fin cfg1.N) : (iblk1 V c 3 t : S1x128.Idx → EReal) = (V c main_v66 : S1x128.Idx → EReal) := by
  have hf := idx_facts1 t
  funext x
  unfold iblk1
  rw [View.read_apply]
  show (V c main_v66 : S1x128.Idx → EReal) _ = _
  congr 1
  funext a; apply Fin.ext
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- Window 4's block is its whole array at every point. -/
theorem iblk1_4_eq (c : Dev nD) (t : Fin cfg1.N) : (iblk1 V c 4 t : S1x128.Idx → EReal) = (V c main_v67 : S1x128.Idx → EReal) := by
  have hf := idx_facts1 t
  funext x
  unfold iblk1
  rw [View.read_apply]
  show (V c main_v67 : S1x128.Idx → EReal) _ = _
  congr 1
  funext a; apply Fin.ext
  match a with
  | ⟨0, _⟩ => show win1_4.index t (0 : Fin 2) * 1 + 1 * (x 0).val = (x 0).val; omega
  | ⟨1, _⟩ => show win1_4.index t (1 : Fin 2) * 128 + 1 * (x 1).val = (x 1).val; omega

/-- Window 5's block is its whole array at every point. -/
theorem iblk1_5_eq (c : Dev nD) (t : Fin cfg1.N) : (iblk1 V c 5 t : S1x128.Idx → EReal) = (V c main_v68 : S1x128.Idx → EReal) := by
  have hf := idx_facts1 t
  funext x
  unfold iblk1
  rw [View.read_apply]
  show (V c main_v68 : S1x128.Idx → EReal) _ = _
  congr 1
  funext a; apply Fin.ext
  match a with
  | ⟨0, _⟩ => show win1_5.index t (0 : Fin 2) * 1 + 1 * (x 0).val = (x 0).val; omega
  | ⟨1, _⟩ => show win1_5.index t (1 : Fin 2) * 128 + 1 * (x 1).val = (x 1).val; omega

/-- Window 6's block is its whole array at every point. -/
theorem iblk1_6_eq (c : Dev nD) (t : Fin cfg1.N) : (iblk1 V c 6 t : S1x128.Idx → EReal) = (V c main_v69 : S1x128.Idx → EReal) := by
  have hf := idx_facts1 t
  funext x
  unfold iblk1
  rw [View.read_apply]
  show (V c main_v69 : S1x128.Idx → EReal) _ = _
  congr 1
  funext a; apply Fin.ext
  match a with
  | ⟨0, _⟩ => show win1_6.index t (0 : Fin 2) * 1 + 1 * (x 0).val = (x 0).val; omega
  | ⟨1, _⟩ => show win1_6.index t (1 : Fin 2) * 128 + 1 * (x 1).val = (x 1).val; omega

/-- Window 7's block is its whole array at every point. -/
theorem iblk1_7_eq (c : Dev nD) (t : Fin cfg1.N) : (iblk1 V c 7 t : S1x128.Idx → EReal) = (V c main_v70 : S1x128.Idx → EReal) := by
  have hf := idx_facts1 t
  funext x
  unfold iblk1
  rw [View.read_apply]
  show (V c main_v70 : S1x128.Idx → EReal) _ = _
  congr 1
  funext a; apply Fin.ext
  match a with
  | ⟨0, _⟩ => show win1_7.index t (0 : Fin 2) * 1 + 1 * (x 0).val = (x 0).val; omega
  | ⟨1, _⟩ => show win1_7.index t (1 : Fin 2) * 128 + 1 * (x 1).val = (x 1).val; omega

/-- Window 8's block is its whole array at every point. -/
theorem iblk1_8_eq (c : Dev nD) (t : Fin cfg1.N) : (iblk1 V c 8 t : S128x128.Idx → EReal) = (V c main_v63 : S128x128.Idx → EReal) := by
  have hf := idx_facts1 t
  funext x
  unfold iblk1
  rw [View.read_apply]
  show (V c main_v63 : S128x128.Idx → EReal) _ = _
  congr 1
  funext a; apply Fin.ext
  match a with
  | ⟨0, _⟩ => show win1_8.index t (0 : Fin 2) * 128 + 1 * (x 0).val = (x 0).val; omega
  | ⟨1, _⟩ => show win1_8.index t (1 : Fin 2) * 128 + 1 * (x 1).val = (x 1).val; omega

/-- Window 9's block is its whole array at every point. -/
theorem iblk1_9_eq (c : Dev nD) (t : Fin cfg1.N) : (iblk1 V c 9 t : S1x128.Idx → EReal) = (V c main_v71 : S1x128.Idx → EReal) := by
  have hf := idx_facts1 t
  funext x
  unfold iblk1
  rw [View.read_apply]
  show (V c main_v71 : S1x128.Idx → EReal) _ = _
  congr 1
  funext a; apply Fin.ext
  match a with
  | ⟨0, _⟩ => show win1_9.index t (0 : Fin 2) * 1 + 1 * (x 0).val = (x 0).val; omega
  | ⟨1, _⟩ => show win1_9.index t (1 : Fin 2) * 128 + 1 * (x 1).val = (x 1).val; omega

/-- Window 0's block at point t is rows 5000·t … 5000·t + 4999 of its array. -/
theorem iblk1_0_apply (c : Dev nD) (t : Fin cfg1.N) (p : Fin 5000) (j : Fin 128) (r : Fin 50000) (hr : r.val = t.val * 5000 + p.val) :
    (iblk1 V c 0 t : S5000x128.Idx → EReal) (ix2 p j) = (V c main_v36 : S50000x128.Idx → EReal) (ix2 r j) := by
  have hf := idx_facts1 t
  unfold iblk1
  rw [View.read_apply]
  show (V c main_v36 : S50000x128.Idx → EReal) _ = _
  congr 1
  funext a; apply Fin.ext
  match a with
  | ⟨0, _⟩ => show win1_0.index t (0 : Fin 2) * 5000 + 1 * p.val = r.val; omega
  | ⟨1, _⟩ => show win1_0.index t (1 : Fin 2) * 128 + 1 * j.val = j.val; omega

/-- Window 1's block at point t is rows 5000·t … 5000·t + 4999 of its array. -/
theorem iblk1_1_apply (c : Dev nD) (t : Fin cfg1.N) (p : Fin 5000) (j : Fin 128) (r : Fin 50000) (hr : r.val = t.val * 5000 + p.val) :
    (iblk1 V c 1 t : S5000x128.Idx → EReal) (ix2 p j) = (V c main_v49 : S50000x128.Idx → EReal) (ix2 r j) := by
  have hf := idx_facts1 t
  unfold iblk1
  rw [View.read_apply]
  show (V c main_v49 : S50000x128.Idx → EReal) _ = _
  congr 1
  funext a; apply Fin.ext
  match a with
  | ⟨0, _⟩ => show win1_1.index t (0 : Fin 2) * 5000 + 1 * p.val = r.val; omega
  | ⟨1, _⟩ => show win1_1.index t (1 : Fin 2) * 128 + 1 * j.val = j.val; omega

/-- Point t writes back block t of the layer of the arrays. -/
theorem flushed1_eq (c : Dev nD) (t : Fin cfg1.N) :
    (dat1 (F := Ideal) V c).flushed 10 t = ((cfg1.win 10).blk t).view.read (Elt Ideal)
        (layer 50000 (V c main_v36) (V c main_v49) (V c main_v51) (row128 (V c main_v66)) (bnScale (V c main_v67) (V c main_v70))
          (row128 (V c main_v68)) (row128 (V c main_v69)) (V c main_v63) (row128 (V c main_v71))) := by
  show (cfg1.win 10).cut (grid1.coords t) ((dat1 V c).after 10 t) = _
  rw [after1_10]
  unfold out1_10
  rw [View.canon_unit_zero hzero2]
  simp only [View.ld_unit_zero (S := S5000x128) hzero2, View.ld_unit_zero (S := S128x128) hzero2,
    View.ld_unit_zero (S := S1x128) hzero2]
  rw [iblk1_2_eq, iblk1_3_eq, iblk1_4_eq, iblk1_5_eq, iblk1_6_eq, iblk1_7_eq, iblk1_8_eq, iblk1_9_eq]
  have hf := idx_facts1 t
  have hN : t.val < 10 := by have h := t.isLt; have e : cfg1.N = 10 := N_1; omega
  funext y
  obtain ⟨p, q, rfl⟩ : ∃ (p : Fin 5000) (q : Fin 128), y = ix2 p q := ⟨y 0, y 1, eq_ix2 y⟩
  have hp : p.val < 5000 := p.isLt
  refine (pay1 (iblk1 V c 0 t) (iblk1 V c 1 t) (V c main_v51) (V c main_v66) (V c main_v67) (V c main_v68) (V c main_v69) (V c main_v70) (V c main_v63) (V c main_v71) p q).trans ?_
  refine (layer_rows (V c main_v36) (V c main_v49) (iblk1 V c 0 t) (iblk1 V c 1 t) (V c main_v51) _ _ _ _ (V c main_v63) _
    ⟨t.val * 5000 + p.val, by omega⟩ p q (fun j => iblk1_0_apply V c t p j _ rfl) (fun j => iblk1_1_apply V c t p j _ rfl)).trans ?_
  show (layer 50000 (V c main_v36) (V c main_v49) (V c main_v51) (row128 (V c main_v66)) (bnScale (V c main_v67) (V c main_v70))
          (row128 (V c main_v68)) (row128 (V c main_v69)) (V c main_v63) (row128 (V c main_v71))) (ix2 ⟨t.val * 5000 + p.val, by omega⟩ q)
      = (layer 50000 (V c main_v36) (V c main_v49) (V c main_v51) (row128 (V c main_v66)) (bnScale (V c main_v67) (V c main_v70))
          (row128 (V c main_v68)) (row128 (V c main_v69)) (V c main_v63) (row128 (V c main_v71))) (((cfg1.win 10).blk t).view.emb (ix2 p q))
  refine congrArg (layer 50000 (V c main_v36) (V c main_v49) (V c main_v51) (row128 (V c main_v66)) (bnScale (V c main_v67) (V c main_v70))
          (row128 (V c main_v68)) (row128 (V c main_v69)) (V c main_v63) (row128 (V c main_v71))) (funext fun a => Fin.ext ?_)
  match a with
  | ⟨0, _⟩ => show t.val * 5000 + p.val = win1_10.index t (0 : Fin 2) * 5000 + 1 * p.val; omega
  | ⟨1, _⟩ => show q.val = win1_10.index t (1 : Fin 2) * 128 + 1 * q.val; omega

/-- An index of the output array is in point t's block iff each coordinate is in the block's range. -/
theorem mem_blk1 (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v72).slice (win1_10.rect t)).set ↔ _
  rw [View.set_slice_whole, Rect.mem_set_unit]
  exact Iff.rfl

/-- The output array of layer kernel 1 when its region ends: the layer of the arrays the region found; row r is
    written at point r / 5000. -/
theorem final1 (c : Dev nD) :
    (dat1 (F := Ideal) V c).arrAt 10 cfg1.N
      = (layer 50000 (V c main_v36) (V c main_v49) (V c main_v51) (row128 (V c main_v66)) (bnScale (V c main_v67) (V c main_v70))
          (row128 (V c main_v68)) (row128 (V c main_v69)) (V c main_v63) (row128 (V c main_v71))) :=
  (dat1 V c).arrAt_eq_of_cover 10 _ (fun t _ => flushed1_eq V c t) fun i => by
    have h0 : (i 0).val < 50000 := (i 0).isLt
    have h1 : (i 1).val < 128 := (i 1).isLt
    have e : cfg1.N = 10 := N_1
    refine ⟨⟨(i 0).val / 5000, by omega⟩, flush1_10 _, ?_⟩
    rw [mem_blk1]
    have hf := idx_facts1 ⟨(i 0).val / 5000, by omega⟩
    have ht : (⟨(i 0).val / 5000, by omega⟩ : Fin cfg1.N).val = (i 0).val / 5000 := rfl
    intro a
    match a with
    | ⟨0, _⟩ => show win1_10.index ⟨(i 0).val / 5000, _⟩ (0 : Fin 2) * 5000 ≤ (i 0).val ∧ (i 0).val < win1_10.index ⟨(i 0).val / 5000, _⟩ (0 : Fin 2) * 5000 + 5000; omega
    | ⟨1, _⟩ => show win1_10.index ⟨(i 0).val / 5000, _⟩ (1 : Fin 2) * 128 ≤ (i 1).val ∧ (i 1).val < win1_10.index ⟨(i 0).val / 5000, _⟩ (1 : Fin 2) * 128 + 128; omega

/-! ## Layer kernel 2 -/

/-- The index maps over the grid: h, agg and the output move with the point along the rows; the weights and the
    rows of parameters stay at block (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = t.val ∧ win2_10.index t (1 : Fin 2) = 0 :=
  (by decide +kernel : ∀ t : Fin grid2.N, _)

/-- Window 2's block is its whole array at every point. -/
theorem iblk2_2_eq (c : Dev nD) (t : Fin cfg2.N) : (iblk2 V c 2 t : S128x128.Idx → EReal) = (V c main_v87 : S128x128.Idx → EReal) := by
  have hf := idx_facts2 t
  funext x
  unfold iblk2
  rw [View.read_apply]
  show (V c main_v87 : S128x128.Idx → EReal) _ = _
  congr 1
  funext a; apply Fin.ext
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- Window 3's block is its whole array at every point. -/
theorem iblk2_3_eq (c : Dev nD) (t : Fin cfg2.N) : (iblk2 V c 3 t : S1x128.Idx → EReal) = (V c main_v102 : S1x128.Idx → EReal) := by
  have hf := idx_facts2 t
  funext x
  unfold iblk2
  rw [View.read_apply]
  show (V c main_v102 : S1x128.Idx → EReal) _ = _
  congr 1
  funext a; apply Fin.ext
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- Window 4's block is its whole array at every point. -/
theorem iblk2_4_eq (c : Dev nD) (t : Fin cfg2.N) : (iblk2 V c 4 t : S1x128.Idx → EReal) = (V c main_v103 : S1x128.Idx → EReal) := by
  have hf := idx_facts2 t
  funext x
  unfold iblk2
  rw [View.read_apply]
  show (V c main_v103 : S1x128.Idx → EReal) _ = _
  congr 1
  funext a; apply Fin.ext
  match a with
  | ⟨0, _⟩ => show win2_4.index t (0 : Fin 2) * 1 + 1 * (x 0).val = (x 0).val; omega
  | ⟨1, _⟩ => show win2_4.index t (1 : Fin 2) * 128 + 1 * (x 1).val = (x 1).val; omega

/-- Window 5's block is its whole array at every point. -/
theorem iblk2_5_eq (c : Dev nD) (t : Fin cfg2.N) : (iblk2 V c 5 t : S1x128.Idx → EReal) = (V c main_v104 : S1x128.Idx → EReal) := by
  have hf := idx_facts2 t
  funext x
  unfold iblk2
  rw [View.read_apply]
  show (V c main_v104 : S1x128.Idx → EReal) _ = _
  congr 1
  funext a; apply Fin.ext
  match a with
  | ⟨0, _⟩ => show win2_5.index t (0 : Fin 2) * 1 + 1 * (x 0).val = (x 0).val; omega
  | ⟨1, _⟩ => show win2_5.index t (1 : Fin 2) * 128 + 1 * (x 1).val = (x 1).val; omega

/-- Window 6's block is its whole array at every point. -/
theorem iblk2_6_eq (c : Dev nD) (t : Fin cfg2.N) : (iblk2 V c 6 t : S1x128.Idx → EReal) = (V c main_v105 : S1x128.Idx → EReal) := by
  have hf := idx_facts2 t
  funext x
  unfold iblk2
  rw [View.read_apply]
  show (V c main_v105 : S1x128.Idx → EReal) _ = _
  congr 1
  funext a; apply Fin.ext
  match a with
  | ⟨0, _⟩ => show win2_6.index t (0 : Fin 2) * 1 + 1 * (x 0).val = (x 0).val; omega
  | ⟨1, _⟩ => show win2_6.index t (1 : Fin 2) * 128 + 1 * (x 1).val = (x 1).val; omega

/-- Window 7's block is its whole array at every point. -/
theorem iblk2_7_eq (c : Dev nD) (t : Fin cfg2.N) : (iblk2 V c 7 t : S1x128.Idx → EReal) = (V c main_v106 : S1x128.Idx → EReal) := by
  have hf := idx_facts2 t
  funext x
  unfold iblk2
  rw [View.read_apply]
  show (V c main_v106 : S1x128.Idx → EReal) _ = _
  congr 1
  funext a; apply Fin.ext
  match a with
  | ⟨0, _⟩ => show win2_7.index t (0 : Fin 2) * 1 + 1 * (x 0).val = (x 0).val; omega
  | ⟨1, _⟩ => show win2_7.index t (1 : Fin 2) * 128 + 1 * (x 1).val = (x 1).val; omega

/-- Window 8's block is its whole array at every point. -/
theorem iblk2_8_eq (c : Dev nD) (t : Fin cfg2.N) : (iblk2 V c 8 t : S128x128.Idx → EReal) = (V c main_v99 : S128x128.Idx → EReal) := by
  have hf := idx_facts2 t
  funext x
  unfold iblk2
  rw [View.read_apply]
  show (V c main_v99 : S128x128.Idx → EReal) _ = _
  congr 1
  funext a; apply Fin.ext
  match a with
  | ⟨0, _⟩ => show win2_8.index t (0 : Fin 2) * 128 + 1 * (x 0).val = (x 0).val; omega
  | ⟨1, _⟩ => show win2_8.index t (1 : Fin 2) * 128 + 1 * (x 1).val = (x 1).val; omega

/-- Window 9's block is its whole array at every point. -/
theorem iblk2_9_eq (c : Dev nD) (t : Fin cfg2.N) : (iblk2 V c 9 t : S1x128.Idx → EReal) = (V c main_v107 : S1x128.Idx → EReal) := by
  have hf := idx_facts2 t
  funext x
  unfold iblk2
  rw [View.read_apply]
  show (V c main_v107 : S1x128.Idx → EReal) _ = _
  congr 1
  funext a; apply Fin.ext
  match a with
  | ⟨0, _⟩ => show win2_9.index t (0 : Fin 2) * 1 + 1 * (x 0).val = (x 0).val; omega
  | ⟨1, _⟩ => show win2_9.index t (1 : Fin 2) * 128 + 1 * (x 1).val = (x 1).val; omega

/-- Window 0's block at point t is rows 5000·t … 5000·t + 4999 of its array. -/
theorem iblk2_0_apply (c : Dev nD) (t : Fin cfg2.N) (p : Fin 5000) (j : Fin 128) (r : Fin 50000) (hr : r.val = t.val * 5000 + p.val) :
    (iblk2 V c 0 t : S5000x128.Idx → EReal) (ix2 p j) = (V c main_v72 : S50000x128.Idx → EReal) (ix2 r j) := by
  have hf := idx_facts2 t
  unfold iblk2
  rw [View.read_apply]
  show (V c main_v72 : S50000x128.Idx → EReal) _ = _
  congr 1
  funext a; apply Fin.ext
  match a with
  | ⟨0, _⟩ => show win2_0.index t (0 : Fin 2) * 5000 + 1 * p.val = r.val; omega
  | ⟨1, _⟩ => show win2_0.index t (1 : Fin 2) * 128 + 1 * j.val = j.val; omega

/-- Window 1's block at point t is rows 5000·t … 5000·t + 4999 of its array. -/
theorem iblk2_1_apply (c : Dev nD) (t : Fin cfg2.N) (p : Fin 5000) (j : Fin 128) (r : Fin 50000) (hr : r.val = t.val * 5000 + p.val) :
    (iblk2 V c 1 t : S5000x128.Idx → EReal) (ix2 p j) = (V c main_v85 : S50000x128.Idx → EReal) (ix2 r j) := by
  have hf := idx_facts2 t
  unfold iblk2
  rw [View.read_apply]
  show (V c main_v85 : S50000x128.Idx → EReal) _ = _
  congr 1
  funext a; apply Fin.ext
  match a with
  | ⟨0, _⟩ => show win2_1.index t (0 : Fin 2) * 5000 + 1 * p.val = r.val; omega
  | ⟨1, _⟩ => show win2_1.index t (1 : Fin 2) * 128 + 1 * j.val = j.val; omega

/-- Point t writes back block t of the layer of the arrays. -/
theorem flushed2_eq (c : Dev nD) (t : Fin cfg2.N) :
    (dat2 (F := Ideal) V c).flushed 10 t = ((cfg2.win 10).blk t).view.read (Elt Ideal)
        (layer 50000 (V c main_v72) (V c main_v85) (V c main_v87) (row128 (V c main_v102)) (bnScale (V c main_v103) (V c main_v106))
          (row128 (V c main_v104)) (row128 (V c main_v105)) (V c main_v99) (row128 (V c main_v107))) := by
  show (cfg2.win 10).cut (grid2.coords t) ((dat2 V c).after 10 t) = _
  rw [after2_10]
  unfold out2_10
  rw [View.canon_unit_zero hzero2]
  simp only [View.ld_unit_zero (S := S5000x128) hzero2, View.ld_unit_zero (S := S128x128) hzero2,
    View.ld_unit_zero (S := S1x128) hzero2]
  rw [iblk2_2_eq, iblk2_3_eq, iblk2_4_eq, iblk2_5_eq, iblk2_6_eq, iblk2_7_eq, iblk2_8_eq, iblk2_9_eq]
  have hf := idx_facts2 t
  have hN : t.val < 10 := by have h := t.isLt; have e : cfg2.N = 10 := N_2; omega
  funext y
  obtain ⟨p, q, rfl⟩ : ∃ (p : Fin 5000) (q : Fin 128), y = ix2 p q := ⟨y 0, y 1, eq_ix2 y⟩
  have hp : p.val < 5000 := p.isLt
  refine (pay2 (iblk2 V c 0 t) (iblk2 V c 1 t) (V c main_v87) (V c main_v102) (V c main_v103) (V c main_v104) (V c main_v105) (V c main_v106) (V c main_v99) (V c main_v107) p q).trans ?_
  refine (layer_rows (V c main_v72) (V c main_v85) (iblk2 V c 0 t) (iblk2 V c 1 t) (V c main_v87) _ _ _ _ (V c main_v99) _
    ⟨t.val * 5000 + p.val, by omega⟩ p q (fun j => iblk2_0_apply V c t p j _ rfl) (fun j => iblk2_1_apply V c t p j _ rfl)).trans ?_
  show (layer 50000 (V c main_v72) (V c main_v85) (V c main_v87) (row128 (V c main_v102)) (bnScale (V c main_v103) (V c main_v106))
          (row128 (V c main_v104)) (row128 (V c main_v105)) (V c main_v99) (row128 (V c main_v107))) (ix2 ⟨t.val * 5000 + p.val, by omega⟩ q)
      = (layer 50000 (V c main_v72) (V c main_v85) (V c main_v87) (row128 (V c main_v102)) (bnScale (V c main_v103) (V c main_v106))
          (row128 (V c main_v104)) (row128 (V c main_v105)) (V c main_v99) (row128 (V c main_v107))) (((cfg2.win 10).blk t).view.emb (ix2 p q))
  refine congrArg (layer 50000 (V c main_v72) (V c main_v85) (V c main_v87) (row128 (V c main_v102)) (bnScale (V c main_v103) (V c main_v106))
          (row128 (V c main_v104)) (row128 (V c main_v105)) (V c main_v99) (row128 (V c main_v107))) (funext fun a => Fin.ext ?_)
  match a with
  | ⟨0, _⟩ => show t.val * 5000 + p.val = win2_10.index t (0 : Fin 2) * 5000 + 1 * p.val; omega
  | ⟨1, _⟩ => show q.val = win2_10.index t (1 : Fin 2) * 128 + 1 * q.val; omega

/-- An index of the output array is in point t's block iff each coordinate is in the block's range. -/
theorem mem_blk2 (t : Fin cfg2.N) (i : S50000x128.Idx) :
    i ∈ ((cfg2.win 10).blk t).view.set ↔ ∀ a : Fin 2, win2_10.index t a * S5000x128.size a ≤ (i a).val ∧ (i a).val < win2_10.index t a * S5000x128.size a + S5000x128.size a := by
  show i ∈ ((View.whole main_v108).slice (win2_10.rect t)).set ↔ _
  rw [View.set_slice_whole, Rect.mem_set_unit]
  exact Iff.rfl

/-- The output array of layer kernel 2 when its region ends: the layer of the arrays the region found; row r is
    written at point r / 5000. -/
theorem final2 (c : Dev nD) :
    (dat2 (F := Ideal) V c).arrAt 10 cfg2.N
      = (layer 50000 (V c main_v72) (V c main_v85) (V c main_v87) (row128 (V c main_v102)) (bnScale (V c main_v103) (V c main_v106))
          (row128 (V c main_v104)) (row128 (V c main_v105)) (V c main_v99) (row128 (V c main_v107))) :=
  (dat2 V c).arrAt_eq_of_cover 10 _ (fun t _ => flushed2_eq V c t) fun i => by
    have h0 : (i 0).val < 50000 := (i 0).isLt
    have h1 : (i 1).val < 128 := (i 1).isLt
    have e : cfg2.N = 10 := N_2
    refine ⟨⟨(i 0).val / 5000, by omega⟩, flush2_10 _, ?_⟩
    rw [mem_blk2]
    have hf := idx_facts2 ⟨(i 0).val / 5000, by omega⟩
    have ht : (⟨(i 0).val / 5000, by omega⟩ : Fin cfg2.N).val = (i 0).val / 5000 := rfl
    intro a
    match a with
    | ⟨0, _⟩ => show win2_10.index ⟨(i 0).val / 5000, _⟩ (0 : Fin 2) * 5000 ≤ (i 0).val ∧ (i 0).val < win2_10.index ⟨(i 0).val / 5000, _⟩ (0 : Fin 2) * 5000 + 5000; omega
    | ⟨1, _⟩ => show win2_10.index ⟨(i 0).val / 5000, _⟩ (1 : Fin 2) * 128 ≤ (i 1).val ∧ (i 1).val < win2_10.index ⟨(i 0).val / 5000, _⟩ (1 : Fin 2) * 128 + 128; omega

/-! ## The head kernel -/

/-- The head's one point reads and writes block (0, 0) of every window. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Window 0's block is its whole array. -/
theorem iblk3_0_eq (c : Dev nD) (t : Fin cfg3.N) : (iblk3 V c 0 t : S512x384.Idx → EReal) = (V c main_v112 : S512x384.Idx → EReal) := by
  have hf := idx_facts3 t
  funext x
  unfold iblk3
  rw [View.read_apply]
  show (V c main_v112 : S512x384.Idx → EReal) _ = _
  congr 1
  funext a; apply Fin.ext
  match a with
  | ⟨0, _⟩ => show win3_0.index t (0 : Fin 2) * 512 + 1 * (x 0).val = (x 0).val; omega
  | ⟨1, _⟩ => show win3_0.index t (1 : Fin 2) * 384 + 1 * (x 1).val = (x 1).val; omega

/-- Window 1's block is its whole array. -/
theorem iblk3_1_eq (c : Dev nD) (t : Fin cfg3.N) : (iblk3 V c 1 t : S384x384.Idx → EReal) = (V c main_arg11 : S384x384.Idx → EReal) := by
  have hf := idx_facts3 t
  funext x
  unfold iblk3
  rw [View.read_apply]
  show (V c main_arg11 : S384x384.Idx → EReal) _ = _
  congr 1
  funext a; apply Fin.ext
  match a with
  | ⟨0, _⟩ => show win3_1.index t (0 : Fin 2) * 384 + 1 * (x 0).val = (x 0).val; omega
  | ⟨1, _⟩ => show win3_1.index t (1 : Fin 2) * 384 + 1 * (x 1).val = (x 1).val; omega

/-- Window 2's block is its whole array. -/
theorem iblk3_2_eq (c : Dev nD) (t : Fin cfg3.N) : (iblk3 V c 2 t : S1x384.Idx → EReal) = (V c main_v113 : S1x384.Idx → EReal) := by
  have hf := idx_facts3 t
  funext x
  unfold iblk3
  rw [View.read_apply]
  show (V c main_v113 : S1x384.Idx → EReal) _ = _
  congr 1
  funext a; apply Fin.ext
  match a with
  | ⟨0, _⟩ => show win3_2.index t (0 : Fin 2) * 1 + 1 * (x 0).val = (x 0).val; omega
  | ⟨1, _⟩ => show win3_2.index t (1 : Fin 2) * 384 + 1 * (x 1).val = (x 1).val; omega

/-- Window 3's block is its whole array. -/
theorem iblk3_3_eq (c : Dev nD) (t : Fin cfg3.N) : (iblk3 V c 3 t : S384x10.Idx → EReal) = (V c main_arg13 : S384x10.Idx → EReal) := by
  have hf := idx_facts3 t
  funext x
  unfold iblk3
  rw [View.read_apply]
  show (V c main_arg13 : S384x10.Idx → EReal) _ = _
  congr 1
  funext a; apply Fin.ext
  match a with
  | ⟨0, _⟩ => show win3_3.index t (0 : Fin 2) * 384 + 1 * (x 0).val = (x 0).val; omega
  | ⟨1, _⟩ => show win3_3.index t (1 : Fin 2) * 10 + 1 * (x 1).val = (x 1).val; omega

/-- Window 4's block is its whole array. -/
theorem iblk3_4_eq (c : Dev nD) (t : Fin cfg3.N) : (iblk3 V c 4 t : S1x10.Idx → EReal) = (V c main_v114 : S1x10.Idx → EReal) := by
  have hf := idx_facts3 t
  funext x
  unfold iblk3
  rw [View.read_apply]
  show (V c main_v114 : S1x10.Idx → EReal) _ = _
  congr 1
  funext a; apply Fin.ext
  match a with
  | ⟨0, _⟩ => show win3_4.index t (0 : Fin 2) * 1 + 1 * (x 0).val = (x 0).val; omega
  | ⟨1, _⟩ => show win3_4.index t (1 : Fin 2) * 10 + 1 * (x 1).val = (x 1).val; omega

/-- The head's point writes back block (0, 0) — the whole — of the head of the arrays. -/
theorem flushed3_eq (c : Dev nD) (t : Fin cfg3.N) :
    (dat3 (F := Ideal) V c).flushed 5 t = ((cfg3.win 5).blk t).view.read (Elt Ideal)
        (head (V c main_v112) (V c main_arg11) (fun k => (V c main_v113 : S1x384.Idx → EReal) (ix2 0 k)) (V c main_arg13)
          (fun k => (V c main_v114 : S1x10.Idx → EReal) (ix2 0 k))) := by
  show (cfg3.win 5).cut (grid3.coords t) ((dat3 V c).after 5 t) = _
  rw [after3_5]
  unfold out3_5
  rw [View.canon_unit_zero hzero2]
  simp only [View.ld_unit_zero (S := S512x384) hzero2, View.ld_unit_zero (S := S384x384) hzero2,
    View.ld_unit_zero (S := S1x384) hzero2, View.ld_unit_zero (S := S384x10) hzero2, View.ld_unit_zero (S := S1x10) hzero2]
  rw [iblk3_0_eq, iblk3_1_eq, iblk3_2_eq, iblk3_3_eq, iblk3_4_eq]
  have hf := idx_facts3 t
  funext j
  obtain ⟨p, q, rfl⟩ : ∃ (p : Fin 512) (q : Fin 10), j = ix2 p q := ⟨j 0, j 1, eq_ix2 j⟩
  refine (pay3 (V c main_v112) (V c main_arg11) (V c main_v113) (V c main_arg13) (V c main_v114) p q).trans ?_
  show (head (V c main_v112) (V c main_arg11) (fun k => (V c main_v113 : S1x384.Idx → EReal) (ix2 0 k)) (V c main_arg13)
          (fun k => (V c main_v114 : S1x10.Idx → EReal) (ix2 0 k))) (ix2 p q)
      = (head (V c main_v112) (V c main_arg11) (fun k => (V c main_v113 : S1x384.Idx → EReal) (ix2 0 k)) (V c main_arg13)
          (fun k => (V c main_v114 : S1x10.Idx → EReal) (ix2 0 k))) (((cfg3.win 5).blk t).view.emb (ix2 p q))
  refine congrArg (head (V c main_v112) (V c main_arg11) (fun k => (V c main_v113 : S1x384.Idx → EReal) (ix2 0 k)) (V c main_arg13)
          (fun k => (V c main_v114 : S1x10.Idx → EReal) (ix2 0 k))) (funext fun a => Fin.ext ?_)
  match a with
  | ⟨0, _⟩ => show p.val = win3_5.index t (0 : Fin 2) * 512 + 1 * p.val; omega
  | ⟨1, _⟩ => show q.val = win3_5.index t (1 : Fin 2) * 10 + 1 * q.val; omega

/-- An index of the head's output array is in the point's block iff each coordinate is in the block's range. -/
theorem mem_blk3 (t : Fin cfg3.N) (i : S512x10.Idx) :
    i ∈ ((cfg3.win 5).blk t).view.set ↔ ∀ a : Fin 2, win3_5.index t a * S512x10.size a ≤ (i a).val ∧ (i a).val < win3_5.index t a * S512x10.size a + S512x10.size a := by
  show i ∈ ((View.whole main_v115).slice (win3_5.rect t)).set ↔ _
  rw [View.set_slice_whole, Rect.mem_set_unit]
  exact Iff.rfl

/-- The head's output array when its region ends: the head of the arrays the region found. -/
theorem final3 (c : Dev nD) :
    (dat3 (F := Ideal) V c).arrAt 5 cfg3.N
      = (head (V c main_v112) (V c main_arg11) (fun k => (V c main_v113 : S1x384.Idx → EReal) (ix2 0 k)) (V c main_arg13)
          (fun k => (V c main_v114 : S1x10.Idx → EReal) (ix2 0 k))) :=
  (dat3 V c).arrAt_eq_of_cover 5 _ (fun t _ => flushed3_eq V c t) fun i =>
    ⟨t3_0, flush3_5 t3_0, by
      rw [mem_blk3]
      have hf := idx_facts3 t3_0
      have h0 : (i 0).val < 512 := (i 0).isLt
      have h1 : (i 1).val < 10 := (i 1).isLt
      intro a
      match a with
      | ⟨0, _⟩ => show win3_5.index t3_0 (0 : Fin 2) * 512 ≤ (i 0).val ∧ (i 0).val < win3_5.index t3_0 (0 : Fin 2) * 512 + 512; omega
      | ⟨1, _⟩ => show win3_5.index t3_0 (1 : Fin 2) * 10 ≤ (i 1).val ∧ (i 1).val < win3_5.index t3_0 (1 : Fin 2) * 10 + 10; omega⟩

end Cert.KernelIdeal.Frame

end
-- ==== Proof.KLayout.lean ====
/-
  The kernel program's host operations between its four device calls, as named functions of the program's
  arguments, and what the layout-only ones read at an index.

  Edge endpoints: row 0 of the [2,800000] edge list is the sources, row 1 the destinations. As gather indices a
  negative source is wrapped by adding the node count (as an array index is); each becomes an [800000,1] column.
  Neighbour sum: the rows of h gathered at the sources and scatter-added at the destinations into zeros.
  Pooling: the rows of h scatter-added into 512 zero rows at the graph number of each node.
  Per layer i: the i-th [128,128] matrix of a [3,128,128] stack and the i-th row of a [3,128] table as a [1,128]
  block; the three pooled blocks side by side; and the head's two bias vectors as one-row blocks.
  Each slice / reshape reads one element of its operand: matK i at (j,k) is W at (i,j,k), rowK i at (0,k) is b at
  (i,k), a bias row at (0,k) is the vector at k.
-/
import proofs.«149891_j64046552318029_1_alg».proof.KernelIdeal
import proofs.«149891_j64046552318029_1_alg».proof.Proof.Spec
import Idealize.ShloMosaic.Lib.ValueIdx
import Idealize.ShloMosaic.Lib.ValueLayout
import Idealize.ShloMosaic.Lib.Pipeline.Value

noncomputable section

namespace Cert.KernelIdeal.Lay

open Idealize.ShloMosaic Idealize.ShloMosaic.ValueIdx Cert.KernelIdeal

variable [Facts]
open Facts₀ Facts

/-! ## The host operations as functions of the arguments -/

/-- The edges' source nodes: row 0 of the edge list, flattened. -/
def srcVec (ei : IVec S2x800000 32) : IVec S800000 32 :=
  shapeCast S800000 (extractStridedSlice S1x800000 ![0, 0] ei slices_S2x800000_S1x800000_0_0) shapeCasts_S1x800000_S800000

/-- The edges' destination nodes: row 1 of the edge list, flattened. -/
def dstVec (ei : IVec S2x800000 32) : IVec S800000 32 :=
  shapeCast S800000 (extractStridedSlice S1x800000 ![1, 0] ei slices_S2x800000_S1x800000_1_0) shapeCasts_S1x800000_S800000

/-- The neighbour sums from the two endpoint vectors: h's rows at the sources (a negative source wrapped by the node
    count), added into zeros at the destinations. -/
def aggK2 (h : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select
          (cmpi .slt src (broadcastInDim S800000 ![] bcast_S_S800000 (constantI S_ 32 0#32)))
          (addi src (broadcastInDim S800000 ![] bcast_S_S800000 (constantI S_ 32 50000#32)))
          src)))

/-- The edges' source nodes as gather indices: a negative entry wrapped by the node count, as an [800000,1] column. -/
def srcIdxK (ei : IVec S2x800000 32) : IVec S800000x1 32 :=
  broadcastInDim S800000x1 ![0] bcast_S800000_S800000x1_0
    (select
      (cmpi .slt (srcVec ei) (broadcastInDim S800000 ![] bcast_S_S800000 (constantI S_ 32 0#32)))
      (addi (srcVec ei) (broadcastInDim S800000 ![] bcast_S_S800000 (constantI S_ 32 50000#32)))
      (srcVec ei))

/-- The edges' destination nodes as scatter indices: an [800000,1] column. -/
def dstIdxK (ei : IVec S2x800000 32) : IVec S800000x1 32 :=
  broadcastInDim S800000x1 ![0] bcast_S800000_S800000x1_0 (dstVec ei)

/-- The neighbour sums from the edge list. -/
def aggK (h : FVec Ideal S50000x128 .f32) (ei : IVec S2x800000 32) : FVec Ideal S50000x128 .f32 :=
  aggK2 h (srcVec ei) (dstVec ei)

/-- The neighbour sums from the edge list are those of its two endpoint vectors. -/
theorem aggK_eq (h : FVec Ideal S50000x128 .f32) (ei : IVec S2x800000 32) : aggK h ei = aggK2 h (srcVec ei) (dstVec ei) := rfl

/-- The neighbour sums as one gather at the source column and one scatter-add at the destination column. -/
theorem aggK_eq_scatter (h : FVec Ideal S50000x128 .f32) (ei : IVec S2x800000 32) :
    aggK h ei = Host.scatterAdd scatter_S50000x128_S800000x1_S800000x128_1_0_0_1
      (broadcastInDim S50000x128 ![] bcast_S_S50000x128 (constant (F := Ideal) S_ .f32 0x00000000#32))
      (dstIdxK ei)
      (Host.gather gather_S50000x128_S800000x1_S800000x128_1_0_n_n_0_1_1128 h (srcIdxK ei)) := rfl

/-- The pooled features: h's rows added into 512 zero rows at each node's graph number. -/
def poolK (h : FVec Ideal S50000x128 .f32) (batch : IVec S50000 32) : FVec Ideal S512x128 .f32 :=
  Host.scatterAdd scatter_S512x128_S50000x1_S50000x128_1_0_0_1
    (broadcastInDim S512x128 ![] bcast_S_S512x128 (constant (F := Ideal) S_ .f32 0x00000000#32))
    (broadcastInDim S50000x1 ![0] bcast_S50000_S50000x1_0 batch)
    h

/-- Layer 0's [128,128] matrix out of a [3,128,128] stack: the slice at 0 on the leading axis, the unit axis dropped. -/
def matK0 (W : FVec Ideal S3x128x128 .f32) : FVec Ideal S128x128 .f32 :=
  shapeCast S128x128 (extractStridedSlice S1x128x128 ![0, 0, 0] W slices_S3x128x128_S1x128x128_0_0_0) shapeCasts_S1x128x128_S128x128

/-- Layer 0's row out of a [3,128] table as a [1,128] block: the slice at 0, flattened to [128], then given a unit
    leading axis. -/
def rowK0 (b : FVec Ideal S3x128 .f32) : FVec Ideal S1x128 .f32 :=
  shapeCast S1x128 (shapeCast S128 (extractStridedSlice S1x128 ![0, 0] b slices_S3x128_S1x128_0_0) shapeCasts_S1x128_S128) shapeCasts_S128_S1x128

/-- Layer 1's [128,128] matrix out of a [3,128,128] stack: the slice at 1 on the leading axis, the unit axis dropped. -/
def matK1 (W : FVec Ideal S3x128x128 .f32) : FVec Ideal S128x128 .f32 :=
  shapeCast S128x128 (extractStridedSlice S1x128x128 ![1, 0, 0] W slices_S3x128x128_S1x128x128_1_0_0) shapeCasts_S1x128x128_S128x128

/-- Layer 1's row out of a [3,128] table as a [1,128] block: the slice at 1, flattened to [128], then given a unit
    leading axis. -/
def rowK1 (b : FVec Ideal S3x128 .f32) : FVec Ideal S1x128 .f32 :=
  shapeCast S1x128 (shapeCast S128 (extractStridedSlice S1x128 ![1, 0] b slices_S3x128_S1x128_1_0) shapeCasts_S1x128_S128) shapeCasts_S128_S1x128

/-- Layer 2's [128,128] matrix out of a [3,128,128] stack: the slice at 2 on the leading axis, the unit axis dropped. -/
def matK2 (W : FVec Ideal S3x128x128 .f32) : FVec Ideal S128x128 .f32 :=
  shapeCast S128x128 (extractStridedSlice S1x128x128 ![2, 0, 0] W slices_S3x128x128_S1x128x128_2_0_0) shapeCasts_S1x128x128_S128x128

/-- Layer 2's row out of a [3,128] table as a [1,128] block: the slice at 2, flattened to [128], then given a unit
    leading axis. -/
def rowK2 (b : FVec Ideal S3x128 .f32) : FVec Ideal S1x128 .f32 :=
  shapeCast S1x128 (shapeCast S128 (extractStridedSlice S1x128 ![2, 0] b slices_S3x128_S1x128_2_0) shapeCasts_S1x128_S128) shapeCasts_S128_S1x128

/-- The three pooled blocks side by side: [512,128] three times along the columns. -/
def catK (p0 p1 p2 : FVec Ideal S512x128 .f32) : FVec Ideal S512x384 .f32 :=
  concatenate S512x384 1 [⟨S512x128, p0⟩, ⟨S512x128, p1⟩, ⟨S512x128, p2⟩] concatenates_S512x128_S512x128_S512x128_S512x384_d1

/-- The head's first bias as a one-row block. -/
def l1bRow (b : FVec Ideal S384 .f32) : FVec Ideal S1x384 .f32 := shapeCast S1x384 b shapeCasts_S384_S1x384

/-- The head's second bias as a one-row block. -/
def l2bRow (b : FVec Ideal S10 .f32) : FVec Ideal S1x10 .f32 := shapeCast S1x10 b shapeCasts_S10_S1x10

/-! ## The layout-only ones read at an index -/

/-- Layer 0's row read at channel k is the table at (0, k). -/
theorem rowK0_apply (b : FVec Ideal S3x128 .f32) (k : Fin 128) :
    rowK0 b (ix2 (0 : Fin 1) k) = b (ix2 (0 : Fin 3) k) := by
  unfold rowK0
  refine (shapeCast_a_1a_apply _ _ (0 : Fin 1) k).trans ?_
  refine (shapeCast_1a_a_apply _ _ k).trans ?_
  exact slice2_axis0_apply 0 b _ (0 : Fin 1) k (0 : Fin 3) rfl

/-- Layer 0's matrix read at (j, k) is the stack at (0, j, k). -/
theorem matK0_apply (W : FVec Ideal S3x128x128 .f32) (j k : Fin 128) :
    matK0 W (ix2 j k) = W (ix3 (0 : Fin 3) j k) := by
  unfold matK0
  refine (shapeCast_1ab_ab_apply _ _ j k).trans ?_
  exact extractStridedSlice_apply _ W _ (ix3 (0 : Fin 1) j k) (ix3 (0 : Fin 3) j k) (fun ax => by
    match ax with
    | ⟨0, _⟩ => rfl
    | ⟨1, _⟩ => exact (Nat.zero_add _).symm
    | ⟨2, _⟩ => exact (Nat.zero_add _).symm)

/-- Layer 1's row read at channel k is the table at (1, k). -/
theorem rowK1_apply (b : FVec Ideal S3x128 .f32) (k : Fin 128) :
    rowK1 b (ix2 (0 : Fin 1) k) = b (ix2 (1 : Fin 3) k) := by
  unfold rowK1
  refine (shapeCast_a_1a_apply _ _ (0 : Fin 1) k).trans ?_
  refine (shapeCast_1a_a_apply _ _ k).trans ?_
  exact slice2_axis0_apply 1 b _ (0 : Fin 1) k (1 : Fin 3) rfl

/-- Layer 1's matrix read at (j, k) is the stack at (1, j, k). -/
theorem matK1_apply (W : FVec Ideal S3x128x128 .f32) (j k : Fin 128) :
    matK1 W (ix2 j k) = W (ix3 (1 : Fin 3) j k) := by
  unfold matK1
  refine (shapeCast_1ab_ab_apply _ _ j k).trans ?_
  exact extractStridedSlice_apply _ W _ (ix3 (0 : Fin 1) j k) (ix3 (1 : Fin 3) j k) (fun ax => by
    match ax with
    | ⟨0, _⟩ => rfl
    | ⟨1, _⟩ => exact (Nat.zero_add _).symm
    | ⟨2, _⟩ => exact (Nat.zero_add _).symm)

/-- Layer 2's row read at channel k is the table at (2, k). -/
theorem rowK2_apply (b : FVec Ideal S3x128 .f32) (k : Fin 128) :
    rowK2 b (ix2 (0 : Fin 1) k) = b (ix2 (2 : Fin 3) k) := by
  unfold rowK2
  refine (shapeCast_a_1a_apply _ _ (0 : Fin 1) k).trans ?_
  refine (shapeCast_1a_a_apply _ _ k).trans ?_
  exact slice2_axis0_apply 2 b _ (0 : Fin 1) k (2 : Fin 3) rfl

/-- Layer 2's matrix read at (j, k) is the stack at (2, j, k). -/
theorem matK2_apply (W : FVec Ideal S3x128x128 .f32) (j k : Fin 128) :
    matK2 W (ix2 j k) = W (ix3 (2 : Fin 3) j k) := by
  unfold matK2
  refine (shapeCast_1ab_ab_apply _ _ j k).trans ?_
  exact extractStridedSlice_apply _ W _ (ix3 (0 : Fin 1) j k) (ix3 (2 : Fin 3) j k) (fun ax => by
    match ax with
    | ⟨0, _⟩ => rfl
    | ⟨1, _⟩ => exact (Nat.zero_add _).symm
    | ⟨2, _⟩ => exact (Nat.zero_add _).symm)

/-- The head's first bias row read at k is the bias at k. -/
theorem l1bRow_apply (b : FVec Ideal S384 .f32) (k : Fin 384) : l1bRow b (ix2 (0 : Fin 1) k) = b (ix1 k) :=
  shapeCast_a_1a_apply b _ (0 : Fin 1) k

/-- The head's second bias row read at k is the bias at k. -/
theorem l2bRow_apply (b : FVec Ideal S10 .f32) (k : Fin 10) : l2bRow b (ix2 (0 : Fin 1) k) = b (ix1 k) :=
  shapeCast_a_1a_apply b _ (0 : Fin 1) k

end Cert.KernelIdeal.Lay

end
-- ==== Proof.KHost.lean ====
/-
  The kernel program's four stretches of host operations, read as the named functions of what the buffers held
  before the stretch: for any contents X of the device's buffers, the buffer a later device call reads holds, after
  the stretch, the named function of X at the stretch's inputs. Each is the stretch's operations composed, nothing
  more: the equation holds by unfolding.
-/
import proofs.«149891_j64046552318029_1_alg».proof.Proof.KLayout
import proofs.«149891_j64046552318029_1_alg».proof.Proof.Gen.KernelIdeal.Launch
import Idealize.ShloMosaic.Lib.StableHlo.Run

set_option maxRecDepth 16384

noncomputable section

namespace Cert.KernelIdeal.Lay

open Idealize.ShloMosaic Idealize.ShloMosaic.TcCoe Idealize.ShloMosaic.StableHlo Idealize.SL.Sem Cert.KernelIdeal Cert.KernelIdeal.Gen

/-- After the first stretch buffer 1 holds the edges' sources. -/
theorem h0_v1 (X : Valuation τ sig (Elt Ideal)) :
    (StableHlo.after (hostOps0 (F := Ideal)) X (Proc.devRef .tc main_v1) : IVec S800000 32) = srcVec (X (Proc.devRef .tc main_arg1)) := by
  after_results; rfl

/-- After the first stretch buffer 3 holds the edges' destinations. -/
theorem h0_v3 (X : Valuation τ sig (Elt Ideal)) :
    (StableHlo.after (hostOps0 (F := Ideal)) X (Proc.devRef .tc main_v3) : IVec S800000 32) = dstVec (X (Proc.devRef .tc main_arg1)) := by
  after_results; rfl

/-- After the first stretch buffer 13 holds the neighbour sums of the input features. -/
theorem h0_v13 (X : Valuation τ sig (Elt Ideal)) :
    (StableHlo.after (hostOps0 (F := Ideal)) X (Proc.devRef .tc main_v13) : FVec Ideal S50000x128 .f32) = aggK (X (Proc.devRef .tc main_arg0)) (X (Proc.devRef .tc main_arg1)) := by
  after_results; rfl

/-- Layer 0's first weight matrix. -/
theorem h0_v15 (X : Valuation τ sig (Elt Ideal)) :
    (StableHlo.after (hostOps0 (F := Ideal)) X (Proc.devRef .tc main_v15) : FVec Ideal S128x128 .f32) = matK0 (X (Proc.devRef .tc main_arg3)) := by
  after_results; rfl

/-- Layer 0's second weight matrix. -/
theorem h0_v27 (X : Valuation τ sig (Elt Ideal)) :
    (StableHlo.after (hostOps0 (F := Ideal)) X (Proc.devRef .tc main_v27) : FVec Ideal S128x128 .f32) = matK0 (X (Proc.devRef .tc main_arg9)) := by
  after_results; rfl

/-- Layer 0's row of argument 4. -/
theorem h0_v30 (X : Valuation τ sig (Elt Ideal)) :
    (StableHlo.after (hostOps0 (F := Ideal)) X (Proc.devRef .tc main_v30) : FVec Ideal S1x128 .f32) = rowK0 (X (Proc.devRef .tc main_arg4)) := by
  after_results; rfl

/-- Layer 0's row of argument 5. -/
theorem h0_v31 (X : Valuation τ sig (Elt Ideal)) :
    (StableHlo.after (hostOps0 (F := Ideal)) X (Proc.devRef .tc main_v31) : FVec Ideal S1x128 .f32) = rowK0 (X (Proc.devRef .tc main_arg5)) := by
  after_results; rfl

/-- Layer 0's row of argument 6. -/
theorem h0_v32 (X : Valuation τ sig (Elt Ideal)) :
    (StableHlo.after (hostOps0 (F := Ideal)) X (Proc.devRef .tc main_v32) : FVec Ideal S1x128 .f32) = rowK0 (X (Proc.devRef .tc main_arg6)) := by
  after_results; rfl

/-- Layer 0's row of argument 7. -/
theorem h0_v33 (X : Valuation τ sig (Elt Ideal)) :
    (StableHlo.after (hostOps0 (F := Ideal)) X (Proc.devRef .tc main_v33) : FVec Ideal S1x128 .f32) = rowK0 (X (Proc.devRef .tc main_arg7)) := by
  after_results; rfl

/-- Layer 0's row of argument 8. -/
theorem h0_v34 (X : Valuation τ sig (Elt Ideal)) :
    (StableHlo.after (hostOps0 (F := Ideal)) X (Proc.devRef .tc main_v34) : FVec Ideal S1x128 .f32) = rowK0 (X (Proc.devRef .tc main_arg8)) := by
  after_results; rfl

/-- Layer 0's row of argument 10. -/
theorem h0_v35 (X : Valuation τ sig (Elt Ideal)) :
    (StableHlo.after (hostOps0 (F := Ideal)) X (Proc.devRef .tc main_v35) : FVec Ideal S1x128 .f32) = rowK0 (X (Proc.devRef .tc main_arg10)) := by
  after_results; rfl

/-- After the second stretch buffer 39 holds layer 0's output pooled. -/
theorem h1_v39 (X : Valuation τ sig (Elt Ideal)) :
    (StableHlo.after (hostOps1 (F := Ideal)) X (Proc.devRef .tc main_v39) : FVec Ideal S512x128 .f32) = poolK (X (Proc.devRef .tc main_v36)) (X (Proc.devRef .tc main_arg2)) := by
  after_results; rfl

/-- After the second stretch buffer 49 holds the neighbour sums of layer 0's output. -/
theorem h1_v49 (X : Valuation τ sig (Elt Ideal)) :
    (StableHlo.after (hostOps1 (F := Ideal)) X (Proc.devRef .tc main_v49) : FVec Ideal S50000x128 .f32) = aggK2 (X (Proc.devRef .tc main_v36)) (X (Proc.devRef .tc main_v1)) (X (Proc.devRef .tc main_v3)) := by
  after_results_simp; rfl

/-- Layer 1's first weight matrix. -/
theorem h1_v51 (X : Valuation τ sig (Elt Ideal)) :
    (StableHlo.after (hostOps1 (F := Ideal)) X (Proc.devRef .tc main_v51) : FVec Ideal S128x128 .f32) = matK1 (X (Proc.devRef .tc main_arg3)) := by
  after_results; rfl

/-- Layer 1's second weight matrix. -/
theorem h1_v63 (X : Valuation τ sig (Elt Ideal)) :
    (StableHlo.after (hostOps1 (F := Ideal)) X (Proc.devRef .tc main_v63) : FVec Ideal S128x128 .f32) = matK1 (X (Proc.devRef .tc main_arg9)) := by
  after_results; rfl

/-- Layer 1's row of argument 4. -/
theorem h1_v66 (X : Valuation τ sig (Elt Ideal)) :
    (StableHlo.after (hostOps1 (F := Ideal)) X (Proc.devRef .tc main_v66) : FVec Ideal S1x128 .f32) = rowK1 (X (Proc.devRef .tc main_arg4)) := by
  after_results; rfl

/-- Layer 1's row of argument 5. -/
theorem h1_v67 (X : Valuation τ sig (Elt Ideal)) :
    (StableHlo.after (hostOps1 (F := Ideal)) X (Proc.devRef .tc main_v67) : FVec Ideal S1x128 .f32) = rowK1 (X (Proc.devRef .tc main_arg5)) := by
  after_results; rfl

/-- Layer 1's row of argument 6. -/
theorem h1_v68 (X : Valuation τ sig (Elt Ideal)) :
    (StableHlo.after (hostOps1 (F := Ideal)) X (Proc.devRef .tc main_v68) : FVec Ideal S1x128 .f32) = rowK1 (X (Proc.devRef .tc main_arg6)) := by
  after_results; rfl

/-- Layer 1's row of argument 7. -/
theorem h1_v69 (X : Valuation τ sig (Elt Ideal)) :
    (StableHlo.after (hostOps1 (F := Ideal)) X (Proc.devRef .tc main_v69) : FVec Ideal S1x128 .f32) = rowK1 (X (Proc.devRef .tc main_arg7)) := by
  after_results; rfl

/-- Layer 1's row of argument 8. -/
theorem h1_v70 (X : Valuation τ sig (Elt Ideal)) :
    (StableHlo.after (hostOps1 (F := Ideal)) X (Proc.devRef .tc main_v70) : FVec Ideal S1x128 .f32) = rowK1 (X (Proc.devRef .tc main_arg8)) := by
  after_results; rfl

/-- Layer 1's row of argument 10. -/
theorem h1_v71 (X : Valuation τ sig (Elt Ideal)) :
    (StableHlo.after (hostOps1 (F := Ideal)) X (Proc.devRef .tc main_v71) : FVec Ideal S1x128 .f32) = rowK1 (X (Proc.devRef .tc main_arg10)) := by
  after_results; rfl

/-- After the third stretch buffer 75 holds layer 1's output pooled. -/
theorem h2_v75 (X : Valuation τ sig (Elt Ideal)) :
    (StableHlo.after (hostOps2 (F := Ideal)) X (Proc.devRef .tc main_v75) : FVec Ideal S512x128 .f32) = poolK (X (Proc.devRef .tc main_v72)) (X (Proc.devRef .tc main_arg2)) := by
  after_results; rfl

/-- After the third stretch buffer 85 holds the neighbour sums of layer 1's output. -/
theorem h2_v85 (X : Valuation τ sig (Elt Ideal)) :
    (StableHlo.after (hostOps2 (F := Ideal)) X (Proc.devRef .tc main_v85) : FVec Ideal S50000x128 .f32) = aggK2 (X (Proc.devRef .tc main_v72)) (X (Proc.devRef .tc main_v1)) (X (Proc.devRef .tc main_v3)) := by
  after_results_simp; rfl

/-- Layer 2's first weight matrix. -/
theorem h2_v87 (X : Valuation τ sig (Elt Ideal)) :
    (StableHlo.after (hostOps2 (F := Ideal)) X (Proc.devRef .tc main_v87) : FVec Ideal S128x128 .f32) = matK2 (X (Proc.devRef .tc main_arg3)) := by
  after_results; rfl

/-- Layer 2's second weight matrix. -/
theorem h2_v99 (X : Valuation τ sig (Elt Ideal)) :
    (StableHlo.after (hostOps2 (F := Ideal)) X (Proc.devRef .tc main_v99) : FVec Ideal S128x128 .f32) = matK2 (X (Proc.devRef .tc main_arg9)) := by
  after_results; rfl

/-- Layer 2's row of argument 4. -/
theorem h2_v102 (X : Valuation τ sig (Elt Ideal)) :
    (StableHlo.after (hostOps2 (F := Ideal)) X (Proc.devRef .tc main_v102) : FVec Ideal S1x128 .f32) = rowK2 (X (Proc.devRef .tc main_arg4)) := by
  after_results; rfl

/-- Layer 2's row of argument 5. -/
theorem h2_v103 (X : Valuation τ sig (Elt Ideal)) :
    (StableHlo.after (hostOps2 (F := Ideal)) X (Proc.devRef .tc main_v103) : FVec Ideal S1x128 .f32) = rowK2 (X (Proc.devRef .tc main_arg5)) := by
  after_results; rfl

/-- Layer 2's row of argument 6. -/
theorem h2_v104 (X : Valuation τ sig (Elt Ideal)) :
    (StableHlo.after (hostOps2 (F := Ideal)) X (Proc.devRef .tc main_v104) : FVec Ideal S1x128 .f32) = rowK2 (X (Proc.devRef .tc main_arg6)) := by
  after_results; rfl

/-- Layer 2's row of argument 7. -/
theorem h2_v105 (X : Valuation τ sig (Elt Ideal)) :
    (StableHlo.after (hostOps2 (F := Ideal)) X (Proc.devRef .tc main_v105) : FVec Ideal S1x128 .f32) = rowK2 (X (Proc.devRef .tc main_arg7)) := by
  after_results; rfl

/-- Layer 2's row of argument 8. -/
theorem h2_v106 (X : Valuation τ sig (Elt Ideal)) :
    (StableHlo.after (hostOps2 (F := Ideal)) X (Proc.devRef .tc main_v106) : FVec Ideal S1x128 .f32) = rowK2 (X (Proc.devRef .tc main_arg8)) := by
  after_results; rfl

/-- Layer 2's row of argument 10. -/
theorem h2_v107 (X : Valuation τ sig (Elt Ideal)) :
    (StableHlo.after (hostOps2 (F := Ideal)) X (Proc.devRef .tc main_v107) : FVec Ideal S1x128 .f32) = rowK2 (X (Proc.devRef .tc main_arg10)) := by
  after_results; rfl

/-- After the last stretch buffer 112 holds the three pooled blocks side by side, the third pooled here. -/
theorem h3_v112 (X : Valuation τ sig (Elt Ideal)) :
    (StableHlo.after (hostOps3 (F := Ideal)) X (Proc.devRef .tc main_v112) : FVec Ideal S512x384 .f32) = catK (X (Proc.devRef .tc main_v39)) (X (Proc.devRef .tc main_v75)) (poolK (X (Proc.devRef .tc main_v108)) (X (Proc.devRef .tc main_arg2))) := by
  after_results; rfl

/-- The head's first bias as a row. -/
theorem h3_v113 (X : Valuation τ sig (Elt Ideal)) :
    (StableHlo.after (hostOps3 (F := Ideal)) X (Proc.devRef .tc main_v113) : FVec Ideal S1x384 .f32) = l1bRow (X (Proc.devRef .tc main_arg12)) := by
  after_results; rfl

/-- The head's second bias as a row. -/
theorem h3_v114 (X : Valuation τ sig (Elt Ideal)) :
    (StableHlo.after (hostOps3 (F := Ideal)) X (Proc.devRef .tc main_v114) : FVec Ideal S1x10 .f32) = l2bRow (X (Proc.devRef .tc main_arg14)) := by
  after_results; rfl

end Cert.KernelIdeal.Lay

end
-- ==== Proof.RefSide.lean ====
import proofs.«149891_j64046552318029_1_alg».proof.Proof.Gen.ReferenceIdeal.Run
import proofs.«149891_j64046552318029_1_alg».proof.Proof.Spec
import Idealize.ShloMosaic.Lib.IdealHost
import Idealize.ShloMosaic.Lib.Pipeline.Value
import Idealize.ShloMosaic.PureOps.Ideal.Laws
/-
  The reference network as named stages. Each stage is the sub-term of the reference's result that computes it,
  with its inputs as variables: the edge endpoints, the neighbour sum (gather the source rows, scatter-add them
  at the destinations), the per-graph pooling sum, one layer (two affine maps with a batch-norm in evaluation
  mode and a relu between them, a relu after), the concatenation of the three pooled arrays, and the head.
  The network is their composition, and the reference's result is the network at the launch arguments.
  Then each dense stage is read index by index: a layer is the specification's `layer` with the channel scale
  gamma k · (rv k + eps)^(-1/2), and the head is the specification's `head`.
-/

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.Gin

/-- The source endpoint of every edge as a column: row 0 of the edge array, a negative entry wrapped by the number of nodes. -/
def srcIdx (ei : IVec S2x800000 32) : IVec S800000x1 32 :=
  broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))

/-- The destination endpoint of every edge as a column: row 1 of the edge array. -/
def dstIdx (ei : IVec S2x800000 32) : IVec S800000x1 32 :=
  broadcastInDim S800000x1 ![0] bcast_S800000_S800000x1_0 (shapeCast _ (extractStridedSlice S1x800000 ![1, 0] ei slices_S2x800000_S1x800000_1_0) shapeCasts_S1x800000_S800000)

/-- The neighbour sum: the rows of `h` at the edges' sources, added into a zero array at the edges' destinations. -/
def aggR (h : FVec Ideal S50000x128 .f32) (ei : IVec S2x800000 32) : FVec Ideal S50000x128 .f32 :=
  Host.scatterAdd scatter_S50000x128_S800000x1_S800000x128_1_0_0_1 (broadcastInDim S50000x128 ![] bcast_S_S50000x128 (constant S_ .f32 0x00000000#32)) (dstIdx ei) (Host.gather gather_S50000x128_S800000x1_S800000x128_1_0_n_n_0_1_1128 h (srcIdx ei))

/-- The pooling sum: the rows of `h` added into a zero [512,128] array at each node's graph number. -/
def poolR (h : FVec Ideal S50000x128 .f32) (batch : IVec S50000 32) : FVec Ideal S512x128 .f32 :=
  Host.scatterAdd scatter_S512x128_S50000x1_S50000x128_1_0_0_1 (broadcastInDim S512x128 ![] bcast_S_S512x128 (constant S_ .f32 0x00000000#32)) (broadcastInDim S50000x1 ![0] bcast_S50000_S50000x1_0 batch) h

/-- Layer 0's matrix out of a stack of three. -/
def matOf0 (W : FVec Ideal S3x128x128 .f32) : FVec Ideal S128x128 .f32 :=
  shapeCast _ (extractStridedSlice S1x128x128 ![0, 0, 0] W slices_S3x128x128_S1x128x128_0_0_0) shapeCasts_S1x128x128_S128x128
/-- Layer 0's vector out of a stack of three. -/
def vecOf0 (b : FVec Ideal S3x128 .f32) : FVec Ideal S128 .f32 :=
  shapeCast _ (extractStridedSlice S1x128 ![0, 0] b slices_S3x128_S1x128_0_0) shapeCasts_S1x128_S128

/-- Layer 1's matrix out of a stack of three. -/
def matOf1 (W : FVec Ideal S3x128x128 .f32) : FVec Ideal S128x128 .f32 :=
  shapeCast _ (extractStridedSlice S1x128x128 ![1, 0, 0] W slices_S3x128x128_S1x128x128_1_0_0) shapeCasts_S1x128x128_S128x128
/-- Layer 1's vector out of a stack of three. -/
def vecOf1 (b : FVec Ideal S3x128 .f32) : FVec Ideal S128 .f32 :=
  shapeCast _ (extractStridedSlice S1x128 ![1, 0] b slices_S3x128_S1x128_1_0) shapeCasts_S1x128_S128

/-- Layer 2's matrix out of a stack of three. -/
def matOf2 (W : FVec Ideal S3x128x128 .f32) : FVec Ideal S128x128 .f32 :=
  shapeCast _ (extractStridedSlice S1x128x128 ![2, 0, 0] W slices_S3x128x128_S1x128x128_2_0_0) shapeCasts_S1x128x128_S128x128
/-- Layer 2's vector out of a stack of three. -/
def vecOf2 (b : FVec Ideal S3x128 .f32) : FVec Ideal S128 .f32 :=
  shapeCast _ (extractStridedSlice S1x128 ![2, 0] b slices_S3x128_S1x128_2_0) shapeCasts_S1x128_S128

/-- One layer on the node features `h` and the neighbour sums `agg`. -/
def layerR (h agg : FVec Ideal S50000x128 .f32) (W1 : FVec Ideal S128x128 .f32) (b1 g be rm rv : FVec Ideal S128 .f32)
    (W2 : FVec Ideal S128x128 .f32) (b2 : FVec Ideal S128 .f32) : FVec Ideal S50000x128 .f32 :=
  maximumf (addf (Host.dotGeneral dot_S50000x128_S128x128_S50000x128_1_0_0_1_n_n none (maximumf (addf (mulf (subf (addf (Host.dotGeneral dot_S50000x128_S128x128_S50000x128_1_0_0_1_n_n none (addf h agg) W1) (broadcastInDim S50000x128 ![0, 1] bcast_S1x128_S50000x128_0_1 (broadcastInDim S1x128 ![1] bcast_S128_S1x128_1 b1))) (broadcastInDim S50000x128 ![0, 1] bcast_S1x128_S50000x128_0_1 (broadcastInDim S1x128 ![1] bcast_S128_S1x128_1 rm))) (broadcastInDim S50000x128 ![0, 1] bcast_S1x128_S50000x128_0_1 (broadcastInDim S1x128 ![1] bcast_S128_S1x128_1 (Host.divf g (Host.sqrt (addf rv (broadcastInDim S128 ![] bcast_S_S128 (constant S_ .f32 0x3727C5AC#32)))))))) (broadcastInDim S50000x128 ![0, 1] bcast_S1x128_S50000x128_0_1 (broadcastInDim S1x128 ![1] bcast_S128_S1x128_1 be))) (broadcastInDim S50000x128 ![] bcast_S_S50000x128 (constant S_ .f32 0x00000000#32))) W2) (broadcastInDim S50000x128 ![0, 1] bcast_S1x128_S50000x128_0_1 (broadcastInDim S1x128 ![1] bcast_S128_S1x128_1 b2))) (broadcastInDim S50000x128 ![] bcast_S_S50000x128 (constant S_ .f32 0x00000000#32))

/-- The three pooled arrays side by side. -/
def catR (p0 p1 p2 : FVec Ideal S512x128 .f32) : FVec Ideal S512x384 .f32 :=
  concatenate S512x384 1 [⟨S512x128, p0⟩, ⟨S512x128, p1⟩, ⟨S512x128, p2⟩] concatenates_S512x128_S512x128_S512x128_S512x384_d1

/-- The head on the pooled features. -/
def headR (g : FVec Ideal S512x384 .f32) (W1 : FVec Ideal S384x384 .f32) (b1 : FVec Ideal S384 .f32)
    (W2 : FVec Ideal S384x10 .f32) (b2 : FVec Ideal S10 .f32) : FVec Ideal S512x10 .f32 :=
  addf (Host.dotGeneral dot_S512x384_S384x10_S512x10_1_0_0_1_n_n none (maximumf (addf (Host.dotGeneral dot_S512x384_S384x384_S512x384_1_0_0_1_n_n none g W1) (broadcastInDim S512x384 ![0, 1] bcast_S1x384_S512x384_0_1 (broadcastInDim S1x384 ![1] bcast_S384_S1x384_1 b1))) (broadcastInDim S512x384 ![] bcast_S_S512x384 (constant S_ .f32 0x00000000#32))) W2) (broadcastInDim S512x10 ![0, 1] bcast_S1x10_S512x10_0_1 (broadcastInDim S1x10 ![1] bcast_S10_S1x10_1 b2))

/-- The node features after the first layer. -/
def h1R (x : FVec Ideal S50000x128 .f32) (ei : IVec S2x800000 32) (W1 : FVec Ideal S3x128x128 .f32)
    (b1 g be rm rv : FVec Ideal S3x128 .f32) (W2 : FVec Ideal S3x128x128 .f32) (b2 : FVec Ideal S3x128 .f32) : FVec Ideal S50000x128 .f32 :=
  layerR x (aggR x ei) (matOf0 W1) (vecOf0 b1) (vecOf0 g) (vecOf0 be) (vecOf0 rm) (vecOf0 rv) (matOf0 W2) (vecOf0 b2)
/-- The node features after the second layer. -/
def h2R (x : FVec Ideal S50000x128 .f32) (ei : IVec S2x800000 32) (W1 : FVec Ideal S3x128x128 .f32)
    (b1 g be rm rv : FVec Ideal S3x128 .f32) (W2 : FVec Ideal S3x128x128 .f32) (b2 : FVec Ideal S3x128 .f32) : FVec Ideal S50000x128 .f32 :=
  layerR (h1R x ei W1 b1 g be rm rv W2 b2) (aggR (h1R x ei W1 b1 g be rm rv W2 b2) ei) (matOf1 W1) (vecOf1 b1) (vecOf1 g) (vecOf1 be) (vecOf1 rm) (vecOf1 rv) (matOf1 W2) (vecOf1 b2)
/-- The node features after the third layer. -/
def h3R (x : FVec Ideal S50000x128 .f32) (ei : IVec S2x800000 32) (W1 : FVec Ideal S3x128x128 .f32)
    (b1 g be rm rv : FVec Ideal S3x128 .f32) (W2 : FVec Ideal S3x128x128 .f32) (b2 : FVec Ideal S3x128 .f32) : FVec Ideal S50000x128 .f32 :=
  layerR (h2R x ei W1 b1 g be rm rv W2 b2) (aggR (h2R x ei W1 b1 g be rm rv W2 b2) ei) (matOf2 W1) (vecOf2 b1) (vecOf2 g) (vecOf2 be) (vecOf2 rm) (vecOf2 rv) (matOf2 W2) (vecOf2 b2)

/-- The whole network: three layers, each pooled per graph, the pooled arrays joined, then the head. -/
def netR (x : FVec Ideal S50000x128 .f32) (ei : IVec S2x800000 32) (batch : IVec S50000 32) (W1 : FVec Ideal S3x128x128 .f32)
    (b1 g be rm rv : FVec Ideal S3x128 .f32) (W2 : FVec Ideal S3x128x128 .f32) (b2 : FVec Ideal S3x128 .f32)
    (l1W : FVec Ideal S384x384 .f32) (l1b : FVec Ideal S384 .f32) (l2W : FVec Ideal S384x10 .f32) (l2b : FVec Ideal S10 .f32) :
    FVec Ideal S512x10 .f32 :=
  headR (catR (poolR (h1R x ei W1 b1 g be rm rv W2 b2) batch) (poolR (h2R x ei W1 b1 g be rm rv W2 b2) batch)
    (poolR (h3R x ei W1 b1 g be rm rv W2 b2) batch)) l1W l1b l2W l2b

set_option maxRecDepth 8192 in
/-- The reference's result is the network at the launch arguments. -/
theorem res_eq (m : (ℓ : Loc nD τ sig) → Buf (Elt Ideal) ℓ) (c : Dev nD) :
    Value.res_main_v172 (F := Ideal) m c = netR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Value.res_main_v172 netR h3R h2R h1R layerR aggR poolR srcIdx dstIdx matOf0 matOf1 matOf2 vecOf0 vecOf1 vecOf2 catR headR
  rfl

/-! ## The dense operations read at an index -/

/-- The contraction [50000,128]·[128,128]: which operand elements the output element (i, q) reads. -/
theorem dg128_lhs0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dg128_lhs1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem dg128_rhs0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem dg128_rhs1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl
/-- The product [50000,128]·[128,128] at (p, q) is the sum over k of a(p,k)·b(k,q). -/
theorem dg128_apply (a : FVec Ideal S50000x128 .f32) (b : FVec Ideal S128x128 .f32) (p : Fin 50000) (q : Fin 128) :
    Host.dotGeneral (F := Ideal) dot_S50000x128_S128x128_S50000x128_1_0_0_1_n_n none a b (ix2 p q) = ∑ k : Fin 128, a (ix2 p k) * b (ix2 k q) := by
  simp only [Host.dotGeneral]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 p q) ((contrEquiv1 dot_S50000x128_S128x128_S50000x128_1_0_0_1_n_n 128 rfl rfl).symm k) = ix2 p k := funext fun a => Fin.ext (by
    match a with
    | ⟨0, _⟩ => exact dg128_lhs0 _ _
    | ⟨1, _⟩ => exact (dg128_lhs1 _ _).trans hk)
  have er : dot_S50000x128_S128x128_S50000x128_1_0_0_1_n_n.rhsIdx (ix2 p q) ((contrEquiv1 dot_S50000x128_S128x128_S50000x128_1_0_0_1_n_n 128 rfl rfl).symm k) = ix2 k q := funext fun a => Fin.ext (by
    match a with
    | ⟨0, _⟩ => exact (dg128_rhs0 _ _).trans hk
    | ⟨1, _⟩ => exact dg128_rhs1 _ _)
  rw [el, er]

/-- The contraction [512,384]·[384,384]: which operand elements the output element (i, q) reads. -/
theorem dg384_lhs0 (i : S512x384.Idx) (q : dot_S512x384_S384x384_S512x384_1_0_0_1_n_n.contr.Idx) : (dot_S512x384_S384x384_S512x384_1_0_0_1_n_n.lhsIdx i q 0).val = (i 0).val := by
  unfold DotDims.lhsIdx
  rw [dif_neg (show ¬(0 : Fin S512x384.rank) ∈ dot_S512x384_S384x384_S512x384_1_0_0_1_n_n.lhsBatch by decide), dif_pos (show (0 : Fin S512x384.rank) ∈ dot_S512x384_S384x384_S512x384_1_0_0_1_n_n.lhsNonContracting by decide)]
  rfl
theorem dg384_lhs1 (i : S512x384.Idx) (q : dot_S512x384_S384x384_S512x384_1_0_0_1_n_n.contr.Idx) : (dot_S512x384_S384x384_S512x384_1_0_0_1_n_n.lhsIdx i q 1).val = (q ⟨0, by decide⟩).val :=
  dot_S512x384_S384x384_S512x384_1_0_0_1_n_n.lhsIdx_val_of_single rfl i q
theorem dg384_rhs0 (i : S512x384.Idx) (q : dot_S512x384_S384x384_S512x384_1_0_0_1_n_n.contr.Idx) : (dot_S512x384_S384x384_S512x384_1_0_0_1_n_n.rhsIdx i q 0).val = (q ⟨0, by decide⟩).val :=
  dot_S512x384_S384x384_S512x384_1_0_0_1_n_n.rhsIdx_val_of_single rfl i q
theorem dg384_rhs1 (i : S512x384.Idx) (q : dot_S512x384_S384x384_S512x384_1_0_0_1_n_n.contr.Idx) : (dot_S512x384_S384x384_S512x384_1_0_0_1_n_n.rhsIdx i q 1).val = (i 1).val := by
  unfold DotDims.rhsIdx
  rw [dif_neg (show ¬(1 : Fin S384x384.rank) ∈ dot_S512x384_S384x384_S512x384_1_0_0_1_n_n.rhsBatch by decide), dif_pos (show (1 : Fin S384x384.rank) ∈ dot_S512x384_S384x384_S512x384_1_0_0_1_n_n.rhsNonContracting by decide)]
  rfl
/-- The product [512,384]·[384,384] at (p, q) is the sum over k of a(p,k)·b(k,q). -/
theorem dg384_apply (a : FVec Ideal S512x384 .f32) (b : FVec Ideal S384x384 .f32) (p : Fin 512) (q : Fin 384) :
    Host.dotGeneral (F := Ideal) dot_S512x384_S384x384_S512x384_1_0_0_1_n_n none a b (ix2 p q) = ∑ k : Fin 384, a (ix2 p k) * b (ix2 k q) := by
  simp only [Host.dotGeneral]
  rw [Ideal.dotGeneral_apply, ← Equiv.sum_comp (contrEquiv1 dot_S512x384_S384x384_S512x384_1_0_0_1_n_n 384 rfl rfl).symm]
  refine Finset.sum_congr rfl fun k _ => ?_
  have hk := contrEquiv1_symm_val dot_S512x384_S384x384_S512x384_1_0_0_1_n_n 384 rfl rfl k
  have el : dot_S512x384_S384x384_S512x384_1_0_0_1_n_n.lhsIdx (ix2 p q) ((contrEquiv1 dot_S512x384_S384x384_S512x384_1_0_0_1_n_n 384 rfl rfl).symm k) = ix2 p k := funext fun a => Fin.ext (by
    match a with
    | ⟨0, _⟩ => exact dg384_lhs0 _ _
    | ⟨1, _⟩ => exact (dg384_lhs1 _ _).trans hk)
  have er : dot_S512x384_S384x384_S512x384_1_0_0_1_n_n.rhsIdx (ix2 p q) ((contrEquiv1 dot_S512x384_S384x384_S512x384_1_0_0_1_n_n 384 rfl rfl).symm k) = ix2 k q := funext fun a => Fin.ext (by
    match a with
    | ⟨0, _⟩ => exact (dg384_rhs0 _ _).trans hk
    | ⟨1, _⟩ => exact dg384_rhs1 _ _)
  rw [el, er]

/-- The contraction [512,384]·[384,10]: which operand elements the output element (i, q) reads. -/
theorem dg10_lhs0 (i : S512x10.Idx) (q : dot_S512x384_S384x10_S512x10_1_0_0_1_n_n.contr.Idx) : (dot_S512x384_S384x10_S512x10_1_0_0_1_n_n.lhsIdx i q 0).val = (i 0).val := by
  unfold DotDims.lhsIdx
  rw [dif_neg (show ¬(0 : Fin S512x384.rank) ∈ dot_S512x384_S384x10_S512x10_1_0_0_1_n_n.lhsBatch by decide), dif_pos (show (0 : Fin S512x384.rank) ∈ dot_S512x384_S384x10_S512x10_1_0_0_1_n_n.lhsNonContracting by decide)]
  rfl
theorem dg10_lhs1 (i : S512x10.Idx) (q : dot_S512x384_S384x10_S512x10_1_0_0_1_n_n.contr.Idx) : (dot_S512x384_S384x10_S512x10_1_0_0_1_n_n.lhsIdx i q 1).val = (q ⟨0, by decide⟩).val :=
  dot_S512x384_S384x10_S512x10_1_0_0_1_n_n.lhsIdx_val_of_single rfl i q
theorem dg10_rhs0 (i : S512x10.Idx) (q : dot_S512x384_S384x10_S512x10_1_0_0_1_n_n.contr.Idx) : (dot_S512x384_S384x10_S512x10_1_0_0_1_n_n.rhsIdx i q 0).val = (q ⟨0, by decide⟩).val :=
  dot_S512x384_S384x10_S512x10_1_0_0_1_n_n.rhsIdx_val_of_single rfl i q
theorem dg10_rhs1 (i : S512x10.Idx) (q : dot_S512x384_S384x10_S512x10_1_0_0_1_n_n.contr.Idx) : (dot_S512x384_S384x10_S512x10_1_0_0_1_n_n.rhsIdx i q 1).val = (i 1).val := by
  unfold DotDims.rhsIdx
  rw [dif_neg (show ¬(1 : Fin S384x10.rank) ∈ dot_S512x384_S384x10_S512x10_1_0_0_1_n_n.rhsBatch by decide), dif_pos (show (1 : Fin S384x10.rank) ∈ dot_S512x384_S384x10_S512x10_1_0_0_1_n_n.rhsNonContracting by decide)]
  rfl
/-- The product [512,384]·[384,10] at (p, q) is the sum over k of a(p,k)·b(k,q). -/
theorem dg10_apply (a : FVec Ideal S512x384 .f32) (b : FVec Ideal S384x10 .f32) (p : Fin 512) (q : Fin 10) :
    Host.dotGeneral (F := Ideal) dot_S512x384_S384x10_S512x10_1_0_0_1_n_n none a b (ix2 p q) = ∑ k : Fin 384, a (ix2 p k) * b (ix2 k q) := by
  simp only [Host.dotGeneral]
  rw [Ideal.dotGeneral_apply, ← Equiv.sum_comp (contrEquiv1 dot_S512x384_S384x10_S512x10_1_0_0_1_n_n 384 rfl rfl).symm]
  refine Finset.sum_congr rfl fun k _ => ?_
  have hk := contrEquiv1_symm_val dot_S512x384_S384x10_S512x10_1_0_0_1_n_n 384 rfl rfl k
  have el : dot_S512x384_S384x10_S512x10_1_0_0_1_n_n.lhsIdx (ix2 p q) ((contrEquiv1 dot_S512x384_S384x10_S512x10_1_0_0_1_n_n 384 rfl rfl).symm k) = ix2 p k := funext fun a => Fin.ext (by
    match a with
    | ⟨0, _⟩ => exact dg10_lhs0 _ _
    | ⟨1, _⟩ => exact (dg10_lhs1 _ _).trans hk)
  have er : dot_S512x384_S384x10_S512x10_1_0_0_1_n_n.rhsIdx (ix2 p q) ((contrEquiv1 dot_S512x384_S384x10_S512x10_1_0_0_1_n_n 384 rfl rfl).symm k) = ix2 k q := funext fun a => Fin.ext (by
    match a with
    | ⟨0, _⟩ => exact (dg10_rhs0 _ _).trans hk
    | ⟨1, _⟩ => exact dg10_rhs1 _ _)
  rw [el, er]

/-- A [128] vector broadcast along the rows of [50000,128] reads its entry at the column. -/
theorem bvec128_apply (v : FVec Ideal S128 .f32) (p : Fin 50000) (q : Fin 128) :
    broadcastInDim S50000x128 ![0, 1] bcast_S1x128_S50000x128_0_1 (broadcastInDim S1x128 ![1] bcast_S128_S1x128_1 v) (ix2 p q) = v (ix1 q) := by
  refine (broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 v (ix2 (0 : Fin 1) q) (ix1 q) (fun a => match a with
    | ⟨0, _⟩ => by show q.val = if (128 : Nat) = 1 then 0 else q.val; rw [if_neg (by decide)])

/-- A [384] vector broadcast along the rows of [512,384] reads its entry at the column. -/
theorem bvec384_apply (v : FVec Ideal S384 .f32) (p : Fin 512) (q : Fin 384) :
    broadcastInDim S512x384 ![0, 1] bcast_S1x384_S512x384_0_1 (broadcastInDim S1x384 ![1] bcast_S384_S1x384_1 v) (ix2 p q) = v (ix1 q) := by
  refine (broadcastInDim_apply _ bcast_S1x384_S512x384_0_1 _ (ix2 p q) (ix2 (0 : Fin 1) q) (fun a => match a with
    | ⟨0, _⟩ => by show 0 = if (1 : Nat) = 1 then 0 else p.val; rw [if_pos rfl]
    | ⟨1, _⟩ => by show q.val = if (384 : Nat) = 1 then 0 else q.val; rw [if_neg (by decide)])).trans ?_
  exact broadcastInDim_apply _ bcast_S384_S1x384_1 v (ix2 (0 : Fin 1) q) (ix1 q) (fun a => match a with
    | ⟨0, _⟩ => by show q.val = if (384 : Nat) = 1 then 0 else q.val; rw [if_neg (by decide)])

/-- A [10] vector broadcast along the rows of [512,10] reads its entry at the column. -/
theorem bvec10_apply (v : FVec Ideal S10 .f32) (p : Fin 512) (q : Fin 10) :
    broadcastInDim S512x10 ![0, 1] bcast_S1x10_S512x10_0_1 (broadcastInDim S1x10 ![1] bcast_S10_S1x10_1 v) (ix2 p q) = v (ix1 q) := by
  refine (broadcastInDim_apply _ bcast_S1x10_S512x10_0_1 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans ?_
  exact broadcastInDim_apply _ bcast_S10_S1x10_1 v (ix2 (0 : Fin 1) q) (ix1 q) (fun a => match a with
    | ⟨0, _⟩ => by show q.val = if (10 : Nat) = 1 then 0 else q.val; rw [if_neg (by decide)])

/-- A scalar constant broadcast to any shape reads the constant's value. -/
theorem splat_apply {T : Shape} (h : S_.BroadcastsInDim T ![]) (b : BitVec 32) (j : T.Idx) :
    broadcastInDim T ![] h (constant (F := Ideal) S_ .f32 b) j = Ideal.ofBits .f32 b :=
  broadcastInDim_scalar_apply h _ j

/-- The batch-norm factor of channel k as the reference computes it, gamma k / √(rv k + eps), is
    gamma k · (rv k + eps)^(-1/2) when rv k + eps is positive. -/
theorem scale_apply (g rv : FVec Ideal S128 .f32) (k : Fin 128) (hv : 0 < rv (ix1 k) + eps) :
    Host.divf g (Host.sqrt (addf rv (broadcastInDim S128 ![] bcast_S_S128 (constant (F := Ideal) S_ .f32 0x3727C5AC#32)))) (ix1 k)
      = g (ix1 k) * Ideal.rsqrt (rv (ix1 k) + eps) := by
  rw [mul_rsqrt_eq_div_sqrt _ _ hv]
  show Ideal.div (g (ix1 k)) (Ideal.sqrt (rv (ix1 k) + broadcastInDim S128 ![] bcast_S_S128 (constant (F := Ideal) S_ .f32 0x3727C5AC#32) (ix1 k))) = _
  rw [splat_apply]

/-! ## A layer and the head are the specification's -/

/-- One layer of the reference is the specification's layer with the channel factor gamma k · (rv k + eps)^(-1/2),
    provided every rv k + eps is positive (so that dividing by the square root is multiplying by its reciprocal). -/
theorem layerR_eq (h agg : FVec Ideal S50000x128 .f32) (W1 : FVec Ideal S128x128 .f32) (b1 g be rm rv : FVec Ideal S128 .f32)
    (W2 : FVec Ideal S128x128 .f32) (b2 : FVec Ideal S128 .f32) (hv : ∀ k : Fin 128, 0 < rv (ix1 k) + eps) :
    layerR h agg W1 b1 g be rm rv W2 b2
      = layer 50000 h agg W1 (fun k => b1 (ix1 k)) (fun k => g (ix1 k) * Ideal.rsqrt (rv (ix1 k) + eps))
          (fun k => be (ix1 k)) (fun k => rm (ix1 k)) W2 (fun k => b2 (ix1 k)) := by
  funext i
  obtain ⟨p, q, rfl⟩ : ∃ (p : Fin 50000) (q : Fin 128), i = ix2 p q := ⟨i 0, i 1, eq_ix2 i⟩
  refine Eq.trans ?_ (show max ((∑ k : Fin 128, hid 50000 h agg W1 (fun k => b1 (ix1 k)) (fun k => g (ix1 k) * Ideal.rsqrt (rv (ix1 k) + eps))
      (fun k => be (ix1 k)) (fun k => rm (ix1 k)) p k * W2 (ix2 k q)) + b2 (ix1 q)) zero = _ from rfl)
  unfold layerR
  rw [maximumf_apply, addf_apply, dg128_apply, bvec128_apply b2 p q, splat_apply]
  refine congrArg (fun s => max (s + b2 (ix1 q)) zero) (Finset.sum_congr rfl fun k _ => ?_)
  refine congrArg (· * W2 (ix2 k q)) ?_
  unfold hid
  rw [maximumf_apply, addf_apply, mulf_apply, subf_apply, addf_apply, dg128_apply, bvec128_apply b1 p k, bvec128_apply rm p k,
    bvec128_apply be p k, bvec128_apply _ p k, splat_apply, scale_apply g rv k (hv k)]
  rfl

/-- The reference's head is the specification's head. -/
theorem headR_eq (g : FVec Ideal S512x384 .f32) (W1 : FVec Ideal S384x384 .f32) (b1 : FVec Ideal S384 .f32)
    (W2 : FVec Ideal S384x10 .f32) (b2 : FVec Ideal S10 .f32) :
    headR g W1 b1 W2 b2 = head g W1 (fun k => b1 (ix1 k)) W2 (fun k => b2 (ix1 k)) := by
  funext i
  obtain ⟨p, q, rfl⟩ : ∃ (p : Fin 512) (q : Fin 10), i = ix2 p q := ⟨i 0, i 1, eq_ix2 i⟩
  refine Eq.trans ?_ (show (∑ k : Fin 384, max ((∑ j : Fin 384, g (ix2 p j) * W1 (ix2 j k)) + b1 (ix1 k)) zero * W2 (ix2 k q)) + b2 (ix1 q) = _ from rfl)
  unfold headR
  rw [addf_apply, dg10_apply, bvec10_apply b2 p q]
  refine congrArg (· + b2 (ix1 q)) (Finset.sum_congr rfl fun k _ => ?_)
  refine congrArg (· * W2 (ix2 k q)) ?_
  rw [maximumf_apply, addf_apply, dg384_apply, bvec384_apply b1 p k, splat_apply]

/-! ## The per-layer slices read at an index -/

/-- Layer 0's vector is row 0 of the stack. -/
theorem vecOf0_apply (b : FVec Ideal S3x128 .f32) (k : Fin 128) : vecOf0 b (ix1 k) = b (ix2 (0 : Fin 3) k) := by
  unfold vecOf0
  refine (shapeCast_apply _ shapeCasts_S1x128_S128 (ix1 k) (ix2 (0 : Fin 1) k) (by
    rewrite [Shape.rowMajor_val_two, Shape.rowMajor_val_one]; show 0 * 128 + k.val = k.val; omega)).trans ?_
  exact extractStridedSlice_apply ![0, 0] b slices_S3x128_S1x128_0_0 (ix2 (0 : Fin 1) k) (ix2 (0 : Fin 3) k) (fun a => match a with
    | ⟨0, _⟩ => rfl
    | ⟨1, _⟩ => by show k.val = 0 + k.val; omega)
/-- Layer 0's matrix is slab 0 of the stack. -/
theorem matOf0_apply (W : FVec Ideal S3x128x128 .f32) (j k : Fin 128) : matOf0 W (ix2 j k) = W (ix3 (0 : Fin 3) j k) := by
  unfold matOf0
  refine (shapeCast_apply _ shapeCasts_S1x128x128_S128x128 (ix2 j k) (ix3 (0 : Fin 1) j k) (by
    rewrite [Shape.rowMajor_val_three, Shape.rowMajor_val_two]; show (0 * 128 + j.val) * 128 + k.val = j.val * 128 + k.val; omega)).trans ?_
  exact extractStridedSlice_apply ![0, 0, 0] W slices_S3x128x128_S1x128x128_0_0_0 (ix3 (0 : Fin 1) j k) (ix3 (0 : Fin 3) j k) (fun a => match a with
    | ⟨0, _⟩ => rfl
    | ⟨1, _⟩ => by show j.val = 0 + j.val; omega
    | ⟨2, _⟩ => by show k.val = 0 + k.val; omega)

/-- Layer 1's vector is row 1 of the stack. -/
theorem vecOf1_apply (b : FVec Ideal S3x128 .f32) (k : Fin 128) : vecOf1 b (ix1 k) = b (ix2 (1 : Fin 3) k) := by
  unfold vecOf1
  refine (shapeCast_apply _ shapeCasts_S1x128_S128 (ix1 k) (ix2 (0 : Fin 1) k) (by
    rewrite [Shape.rowMajor_val_two, Shape.rowMajor_val_one]; show 0 * 128 + k.val = k.val; omega)).trans ?_
  exact extractStridedSlice_apply ![1, 0] b slices_S3x128_S1x128_1_0 (ix2 (0 : Fin 1) k) (ix2 (1 : Fin 3) k) (fun a => match a with
    | ⟨0, _⟩ => rfl
    | ⟨1, _⟩ => by show k.val = 0 + k.val; omega)
/-- Layer 1's matrix is slab 1 of the stack. -/
theorem matOf1_apply (W : FVec Ideal S3x128x128 .f32) (j k : Fin 128) : matOf1 W (ix2 j k) = W (ix3 (1 : Fin 3) j k) := by
  unfold matOf1
  refine (shapeCast_apply _ shapeCasts_S1x128x128_S128x128 (ix2 j k) (ix3 (0 : Fin 1) j k) (by
    rewrite [Shape.rowMajor_val_three, Shape.rowMajor_val_two]; show (0 * 128 + j.val) * 128 + k.val = j.val * 128 + k.val; omega)).trans ?_
  exact extractStridedSlice_apply ![1, 0, 0] W slices_S3x128x128_S1x128x128_1_0_0 (ix3 (0 : Fin 1) j k) (ix3 (1 : Fin 3) j k) (fun a => match a with
    | ⟨0, _⟩ => rfl
    | ⟨1, _⟩ => by show j.val = 0 + j.val; omega
    | ⟨2, _⟩ => by show k.val = 0 + k.val; omega)

/-- Layer 2's vector is row 2 of the stack. -/
theorem vecOf2_apply (b : FVec Ideal S3x128 .f32) (k : Fin 128) : vecOf2 b (ix1 k) = b (ix2 (2 : Fin 3) k) := by
  unfold vecOf2
  refine (shapeCast_apply _ shapeCasts_S1x128_S128 (ix1 k) (ix2 (0 : Fin 1) k) (by
    rewrite [Shape.rowMajor_val_two, Shape.rowMajor_val_one]; show 0 * 128 + k.val = k.val; omega)).trans ?_
  exact extractStridedSlice_apply ![2, 0] b slices_S3x128_S1x128_2_0 (ix2 (0 : Fin 1) k) (ix2 (2 : Fin 3) k) (fun a => match a with
    | ⟨0, _⟩ => rfl
    | ⟨1, _⟩ => by show k.val = 0 + k.val; omega)
/-- Layer 2's matrix is slab 2 of the stack. -/
theorem matOf2_apply (W : FVec Ideal S3x128x128 .f32) (j k : Fin 128) : matOf2 W (ix2 j k) = W (ix3 (2 : Fin 3) j k) := by
  unfold matOf2
  refine (shapeCast_apply _ shapeCasts_S1x128x128_S128x128 (ix2 j k) (ix3 (0 : Fin 1) j k) (by
    rewrite [Shape.rowMajor_val_three, Shape.rowMajor_val_two]; show (0 * 128 + j.val) * 128 + k.val = j.val * 128 + k.val; omega)).trans ?_
  exact extractStridedSlice_apply ![2, 0, 0] W slices_S3x128x128_S1x128x128_2_0_0 (ix3 (0 : Fin 1) j k) (ix3 (2 : Fin 3) j k) (fun a => match a with
    | ⟨0, _⟩ => rfl
    | ⟨1, _⟩ => by show j.val = 0 + j.val; omega
    | ⟨2, _⟩ => by show k.val = 0 + k.val; omega)

/-! ## The concatenation read at an index: columns 0–127, 128–255, 256–383 are the three pieces -/

theorem catR_apply0 (p0 p1 p2 : FVec Ideal S512x128 .f32) (r : Fin 512) (c : Fin 128) :
    catR p0 p1 p2 (ix2 r (⟨c.val, by omega⟩ : Fin 384)) = p0 (ix2 r c) := by
  unfold catR
  exact concatenate_apply_piece 1 [⟨S512x128, p0⟩, ⟨S512x128, p1⟩, ⟨S512x128, p2⟩] concatenates_S512x128_S512x128_S512x128_S512x384_d1 (ix2 r (⟨c.val, by omega⟩ : Fin 384))
    0 (by show (0 : Nat) < 3; decide) S512x128 p0 rfl rfl 0 rfl (ix2 r c)
    (fun b hb => match b with | ⟨0, _⟩ => rfl | ⟨1, _⟩ => absurd rfl hb) (by show 0 + c.val = c.val; omega)
theorem catR_apply1 (p0 p1 p2 : FVec Ideal S512x128 .f32) (r : Fin 512) (c : Fin 128) :
    catR p0 p1 p2 (ix2 r (⟨128 + c.val, by omega⟩ : Fin 384)) = p1 (ix2 r c) := by
  unfold catR
  exact concatenate_apply_piece 1 [⟨S512x128, p0⟩, ⟨S512x128, p1⟩, ⟨S512x128, p2⟩] concatenates_S512x128_S512x128_S512x128_S512x384_d1 (ix2 r (⟨128 + c.val, by omega⟩ : Fin 384))
    1 (by show (1 : Nat) < 3; decide) S512x128 p1 rfl rfl 128 rfl (ix2 r c)
    (fun b hb => match b with | ⟨0, _⟩ => rfl | ⟨1, _⟩ => absurd rfl hb) rfl
theorem catR_apply2 (p0 p1 p2 : FVec Ideal S512x128 .f32) (r : Fin 512) (c : Fin 128) :
    catR p0 p1 p2 (ix2 r (⟨256 + c.val, by omega⟩ : Fin 384)) = p2 (ix2 r c) := by
  unfold catR
  exact concatenate_apply_piece 1 [⟨S512x128, p0⟩, ⟨S512x128, p1⟩, ⟨S512x128, p2⟩] concatenates_S512x128_S512x128_S512x128_S512x384_d1 (ix2 r (⟨256 + c.val, by omega⟩ : Fin 384))
    2 (by show (2 : Nat) < 3; decide) S512x128 p2 rfl rfl 256 rfl (ix2 r c)
    (fun b hb => match b with | ⟨0, _⟩ => rfl | ⟨1, _⟩ => absurd rfl hb) rfl
/-! ## The three layers' outputs in the specification's terms -/

/-- The features after layer 0 in the specification's terms, the layer's parameters read out of the stacks at row 0. -/
theorem h1R_eq (x : FVec Ideal S50000x128 .f32) (ei : IVec S2x800000 32) (W1 : FVec Ideal S3x128x128 .f32)
    (b1 g be rm rv : FVec Ideal S3x128 .f32) (W2 : FVec Ideal S3x128x128 .f32) (b2 : FVec Ideal S3x128 .f32)
    (hv : ∀ k : Fin 128, 0 < rv (ix2 (0 : Fin 3) k) + eps) :
    h1R x ei W1 b1 g be rm rv W2 b2 = layer 50000 x (aggR x ei) (matOf0 W1) (fun k => b1 (ix2 (0 : Fin 3) k))
      (fun k => g (ix2 (0 : Fin 3) k) * Ideal.rsqrt (rv (ix2 (0 : Fin 3) k) + eps)) (fun k => be (ix2 (0 : Fin 3) k))
      (fun k => rm (ix2 (0 : Fin 3) k)) (matOf0 W2) (fun k => b2 (ix2 (0 : Fin 3) k)) := by
  unfold h1R
  refine (layerR_eq _ _ _ _ _ _ _ _ _ _ (fun k => by rw [vecOf0_apply]; exact hv k)).trans ?_
  have e (v : FVec Ideal S3x128 .f32) : (fun k : Fin 128 => vecOf0 v (ix1 k)) = fun k => v (ix2 (0 : Fin 3) k) :=
    funext fun k => vecOf0_apply v k
  have es : (fun k : Fin 128 => vecOf0 g (ix1 k) * Ideal.rsqrt (vecOf0 rv (ix1 k) + eps))
      = fun k => g (ix2 (0 : Fin 3) k) * Ideal.rsqrt (rv (ix2 (0 : Fin 3) k) + eps) :=
    funext fun k => by rw [vecOf0_apply, vecOf0_apply]
  rw [e b1, e be, e rm, e b2, es]

/-- The features after layer 1 in the specification's terms, the layer's parameters read out of the stacks at row 1. -/
theorem h2R_eq (x : FVec Ideal S50000x128 .f32) (ei : IVec S2x800000 32) (W1 : FVec Ideal S3x128x128 .f32)
    (b1 g be rm rv : FVec Ideal S3x128 .f32) (W2 : FVec Ideal S3x128x128 .f32) (b2 : FVec Ideal S3x128 .f32)
    (hv : ∀ k : Fin 128, 0 < rv (ix2 (1 : Fin 3) k) + eps) :
    h2R x ei W1 b1 g be rm rv W2 b2 = layer 50000 (h1R x ei W1 b1 g be rm rv W2 b2) (aggR (h1R x ei W1 b1 g be rm rv W2 b2) ei) (matOf1 W1) (fun k => b1 (ix2 (1 : Fin 3) k))
      (fun k => g (ix2 (1 : Fin 3) k) * Ideal.rsqrt (rv (ix2 (1 : Fin 3) k) + eps)) (fun k => be (ix2 (1 : Fin 3) k))
      (fun k => rm (ix2 (1 : Fin 3) k)) (matOf1 W2) (fun k => b2 (ix2 (1 : Fin 3) k)) := by
  unfold h2R
  refine (layerR_eq _ _ _ _ _ _ _ _ _ _ (fun k => by rw [vecOf1_apply]; exact hv k)).trans ?_
  have e (v : FVec Ideal S3x128 .f32) : (fun k : Fin 128 => vecOf1 v (ix1 k)) = fun k => v (ix2 (1 : Fin 3) k) :=
    funext fun k => vecOf1_apply v k
  have es : (fun k : Fin 128 => vecOf1 g (ix1 k) * Ideal.rsqrt (vecOf1 rv (ix1 k) + eps))
      = fun k => g (ix2 (1 : Fin 3) k) * Ideal.rsqrt (rv (ix2 (1 : Fin 3) k) + eps) :=
    funext fun k => by rw [vecOf1_apply, vecOf1_apply]
  rw [e b1, e be, e rm, e b2, es]

/-- The features after layer 2 in the specification's terms, the layer's parameters read out of the stacks at row 2. -/
theorem h3R_eq (x : FVec Ideal S50000x128 .f32) (ei : IVec S2x800000 32) (W1 : FVec Ideal S3x128x128 .f32)
    (b1 g be rm rv : FVec Ideal S3x128 .f32) (W2 : FVec Ideal S3x128x128 .f32) (b2 : FVec Ideal S3x128 .f32)
    (hv : ∀ k : Fin 128, 0 < rv (ix2 (2 : Fin 3) k) + eps) :
    h3R x ei W1 b1 g be rm rv W2 b2 = layer 50000 (h2R x ei W1 b1 g be rm rv W2 b2) (aggR (h2R x ei W1 b1 g be rm rv W2 b2) ei) (matOf2 W1) (fun k => b1 (ix2 (2 : Fin 3) k))
      (fun k => g (ix2 (2 : Fin 3) k) * Ideal.rsqrt (rv (ix2 (2 : Fin 3) k) + eps)) (fun k => be (ix2 (2 : Fin 3) k))
      (fun k => rm (ix2 (2 : Fin 3) k)) (matOf2 W2) (fun k => b2 (ix2 (2 : Fin 3) k)) := by
  unfold h3R
  refine (layerR_eq _ _ _ _ _ _ _ _ _ _ (fun k => by rw [vecOf2_apply]; exact hv k)).trans ?_
  have e (v : FVec Ideal S3x128 .f32) : (fun k : Fin 128 => vecOf2 v (ix1 k)) = fun k => v (ix2 (2 : Fin 3) k) :=
    funext fun k => vecOf2_apply v k
  have es : (fun k : Fin 128 => vecOf2 g (ix1 k) * Ideal.rsqrt (vecOf2 rv (ix1 k) + eps))
      = fun k => g (ix2 (2 : Fin 3) k) * Ideal.rsqrt (rv (ix2 (2 : Fin 3) k) + eps) :=
    funext fun k => by rw [vecOf2_apply, vecOf2_apply]
  rw [e b1, e be, e rm, e b2, es]

end Cert.ReferenceIdeal.RefValue

end
-- ==== Proof.Bridge.lean ====
/-
  The kernel program's result buffer as the network of the argument arrays. The boundary contents of the run are
  walked from the launch: a host stretch's buffers by the stretch read as named functions, a region's output array by
  its blocks assembled into one index-by-index function (the layer, the head), every other buffer carried unchanged.
  Layer by layer the node features are the reference's: the same gather and scatter-add, the same slices of the
  parameters, and the batch-norm factor gamma · (rv + eps)^(-1/2) against gamma / √(rv + eps), equal since rv + eps > 0.
-/
import proofs.«149891_j64046552318029_1_alg».proof.Proof.KI.Run
import proofs.«149891_j64046552318029_1_alg».proof.Proof.KI.Finals
import proofs.«149891_j64046552318029_1_alg».proof.Proof.KLayout
import proofs.«149891_j64046552318029_1_alg».proof.Proof.KHost
import proofs.«149891_j64046552318029_1_alg».proof.Proof.RefSide

set_option maxRecDepth 16384

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.Frame Cert.KernelIdeal.Lay Cert.Gin
open Cert.ReferenceIdeal.RefValue

variable (m : (ℓ : Loc nD τ sig) → Buf (Elt Ideal) ℓ) (c : Dev nD)

/-! ## Buffers no segment has written yet hold their launch contents -/

theorem W2_launch (r : Ref sig .tc) (h0 : r ∉ hostOps0_W) (g0 : r ≠ main_v36) :
    W2 m c (Proc.devRef .tc r) = m ((c : Thread nD τ).loc r) :=
  (W2_keep m c r g0).trans ((W1_keep m c r h0).trans rfl)
theorem W4_launch (r : Ref sig .tc) (h0 : r ∉ hostOps0_W) (h1 : r ∉ hostOps1_W) (g0 : r ≠ main_v36) (g1 : r ≠ main_v72) :
    W4 m c (Proc.devRef .tc r) = m ((c : Thread nD τ).loc r) :=
  (W4_keep m c r g1).trans ((W3_keep m c r h1).trans (W2_launch m c r h0 g0))
theorem W6_launch (r : Ref sig .tc) (h0 : r ∉ hostOps0_W) (h1 : r ∉ hostOps1_W) (h2 : r ∉ hostOps2_W) (g0 : r ≠ main_v36) (g1 : r ≠ main_v72) (g2 : r ≠ main_v108) :
    W6 m c (Proc.devRef .tc r) = m ((c : Thread nD τ).loc r) :=
  (W6_keep m c r g2).trans ((W5_keep m c r h2).trans (W4_launch m c r h0 h1 g0 g1))

/-! ## The edge lists, computed once by the first host stretch, reach the later stretches unchanged -/

theorem W2_src : (W2 m c (Proc.devRef .tc main_v1) : IVec S800000 32) = srcVec (m ((c : Thread nD τ).loc main_arg1)) :=
  (W2_keep m c main_v1 (by decide)).trans (h0_v1 (W0 m c))
theorem W2_dst : (W2 m c (Proc.devRef .tc main_v3) : IVec S800000 32) = dstVec (m ((c : Thread nD τ).loc main_arg1)) :=
  (W2_keep m c main_v3 (by decide)).trans (h0_v3 (W0 m c))
theorem W4_src : (W4 m c (Proc.devRef .tc main_v1) : IVec S800000 32) = srcVec (m ((c : Thread nD τ).loc main_arg1)) :=
  (W4_keep m c main_v1 (by decide)).trans ((W3_keep m c main_v1 (by decide)).trans (W2_src m c))
theorem W4_dst : (W4 m c (Proc.devRef .tc main_v3) : IVec S800000 32) = dstVec (m ((c : Thread nD τ).loc main_arg1)) :=
  (W4_keep m c main_v3 (by decide)).trans ((W3_keep m c main_v3 (by decide)).trans (W2_dst m c))

/-! ## The rows and matrices of one layer's parameters, kernel spelling against reference spelling -/

theorem row0 (b : FVec Ideal S3x128 .f32) : row128 (rowK0 b) = fun k => b (ix2 (0 : Fin 3) k) :=
  funext fun k => rowK0_apply b k
theorem scale0 (g rv : FVec Ideal S3x128 .f32) : bnScale (rowK0 g) (rowK0 rv)
    = fun k => g (ix2 (0 : Fin 3) k) * Ideal.rsqrt (rv (ix2 (0 : Fin 3) k) + eps) :=
  funext fun k => by
    show rowK0 g (ix2 0 k) * Ideal.rsqrt (rowK0 rv (ix2 0 k) + eps) = _
    rw [rowK0_apply g k, rowK0_apply rv k]

theorem row1 (b : FVec Ideal S3x128 .f32) : row128 (rowK1 b) = fun k => b (ix2 (1 : Fin 3) k) :=
  funext fun k => rowK1_apply b k
theorem scale1 (g rv : FVec Ideal S3x128 .f32) : bnScale (rowK1 g) (rowK1 rv)
    = fun k => g (ix2 (1 : Fin 3) k) * Ideal.rsqrt (rv (ix2 (1 : Fin 3) k) + eps) :=
  funext fun k => by
    show rowK1 g (ix2 0 k) * Ideal.rsqrt (rowK1 rv (ix2 0 k) + eps) = _
    rw [rowK1_apply g k, rowK1_apply rv k]

theorem row2 (b : FVec Ideal S3x128 .f32) : row128 (rowK2 b) = fun k => b (ix2 (2 : Fin 3) k) :=
  funext fun k => rowK2_apply b k
theorem scale2 (g rv : FVec Ideal S3x128 .f32) : bnScale (rowK2 g) (rowK2 rv)
    = fun k => g (ix2 (2 : Fin 3) k) * Ideal.rsqrt (rv (ix2 (2 : Fin 3) k) + eps) :=
  funext fun k => by
    show rowK2 g (ix2 0 k) * Ideal.rsqrt (rowK2 rv (ix2 0 k) + eps) = _
    rw [rowK2_apply g k, rowK2_apply rv k]

/-- The head's bias rows read back as the bias vectors. -/
theorem l1b_row (b : FVec Ideal S384 .f32) : (fun k : Fin 384 => l1bRow b (ix2 0 k)) = fun k => b (ix1 k) :=
  funext fun k => l1bRow_apply b k
theorem l2b_row (b : FVec Ideal S10 .f32) : (fun k : Fin 10 => l2bRow b (ix2 0 k)) = fun k => b (ix1 k) :=
  funext fun k => l2bRow_apply b k

/-! ## The node features after each layer -/

/-- Every running variance plus the batch-norm epsilon is positive. -/
abbrev RvPos (rv : FVec Ideal S3x128 .f32) : Prop := ∀ (i : Fin 3) (k : Fin 128), 0 < rv (ix2 i k) + eps

variable (hrv : RvPos (m ((c : Thread nD τ).loc main_arg8)))
include hrv

/-- After layer 0: the region's output array is the layer of what the region was entered with, which is the reference's
    layer of the same arrays. -/
theorem h1_eq : (W2 m c (Proc.devRef .tc main_v36) : FVec Ideal S50000x128 .f32) = h1R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [h1R_eq _ _ _ _ _ _ _ _ _ _ (hrv 0)]
  refine (W2_arr m c 10).trans ((final0 (Frame.V1 m) c).trans ?_)
  have eh : (Frame.V1 m c main_arg0 : FVec Ideal S50000x128 .f32) = (m ((c : Thread nD τ).loc main_arg0)) := W1_keep m c main_arg0 (by decide)
  have eagg : (Frame.V1 m c main_v13 : FVec Ideal S50000x128 .f32) = aggK (m ((c : Thread nD τ).loc main_arg0)) (m ((c : Thread nD τ).loc main_arg1)) := h0_v13 (W0 m c)
  have eW1 : (Frame.V1 m c main_v15 : FVec Ideal S128x128 .f32) = matK0 (m ((c : Thread nD τ).loc main_arg3)) := (h0_v15 (W0 m c)).trans (congrArg matK0 (rfl))
  have eb1 : (Frame.V1 m c main_v30 : FVec Ideal S1x128 .f32) = rowK0 (m ((c : Thread nD τ).loc main_arg4)) := (h0_v30 (W0 m c)).trans (congrArg rowK0 (rfl))
  have eg : (Frame.V1 m c main_v31 : FVec Ideal S1x128 .f32) = rowK0 (m ((c : Thread nD τ).loc main_arg5)) := (h0_v31 (W0 m c)).trans (congrArg rowK0 (rfl))
  have ebe : (Frame.V1 m c main_v32 : FVec Ideal S1x128 .f32) = rowK0 (m ((c : Thread nD τ).loc main_arg6)) := (h0_v32 (W0 m c)).trans (congrArg rowK0 (rfl))
  have erm : (Frame.V1 m c main_v33 : FVec Ideal S1x128 .f32) = rowK0 (m ((c : Thread nD τ).loc main_arg7)) := (h0_v33 (W0 m c)).trans (congrArg rowK0 (rfl))
  have erv : (Frame.V1 m c main_v34 : FVec Ideal S1x128 .f32) = rowK0 (m ((c : Thread nD τ).loc main_arg8)) := (h0_v34 (W0 m c)).trans (congrArg rowK0 (rfl))
  have eW2 : (Frame.V1 m c main_v27 : FVec Ideal S128x128 .f32) = matK0 (m ((c : Thread nD τ).loc main_arg9)) := (h0_v27 (W0 m c)).trans (congrArg matK0 (rfl))
  have eb2 : (Frame.V1 m c main_v35 : FVec Ideal S1x128 .f32) = rowK0 (m ((c : Thread nD τ).loc main_arg10)) := (h0_v35 (W0 m c)).trans (congrArg rowK0 (rfl))
  rw [eh, eagg, eW1, eb1, eg, ebe, erm, erv, eW2, eb2, row0, row0, row0, row0, scale0]
  rfl

/-- After layer 1: the region's output array is the layer of what the region was entered with, which is the reference's
    layer of the same arrays. -/
theorem h2_eq : (W4 m c (Proc.devRef .tc main_v72) : FVec Ideal S50000x128 .f32) = h2R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [h2R_eq _ _ _ _ _ _ _ _ _ _ (hrv 1)]
  refine (W4_arr m c 10).trans ((final1 (Frame.V3 m) c).trans ?_)
  have eh : (Frame.V3 m c main_v36 : FVec Ideal S50000x128 .f32) = (h1R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := (W3_keep m c main_v36 (by decide)).trans (h1_eq m c hrv)
  have eagg : (Frame.V3 m c main_v49 : FVec Ideal S50000x128 .f32) = aggK (h1R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) := by
    have e := h1_v49 (W2 m c)
    rw [h1_eq m c hrv, W2_src m c, W2_dst m c] at e
    exact e
  have eW1 : (Frame.V3 m c main_v51 : FVec Ideal S128x128 .f32) = matK1 (m ((c : Thread nD τ).loc main_arg3)) := (h1_v51 (W2 m c)).trans (congrArg matK1 (W2_launch m c main_arg3 (by decide) (by decide)))
  have eb1 : (Frame.V3 m c main_v66 : FVec Ideal S1x128 .f32) = rowK1 (m ((c : Thread nD τ).loc main_arg4)) := (h1_v66 (W2 m c)).trans (congrArg rowK1 (W2_launch m c main_arg4 (by decide) (by decide)))
  have eg : (Frame.V3 m c main_v67 : FVec Ideal S1x128 .f32) = rowK1 (m ((c : Thread nD τ).loc main_arg5)) := (h1_v67 (W2 m c)).trans (congrArg rowK1 (W2_launch m c main_arg5 (by decide) (by decide)))
  have ebe : (Frame.V3 m c main_v68 : FVec Ideal S1x128 .f32) = rowK1 (m ((c : Thread nD τ).loc main_arg6)) := (h1_v68 (W2 m c)).trans (congrArg rowK1 (W2_launch m c main_arg6 (by decide) (by decide)))
  have erm : (Frame.V3 m c main_v69 : FVec Ideal S1x128 .f32) = rowK1 (m ((c : Thread nD τ).loc main_arg7)) := (h1_v69 (W2 m c)).trans (congrArg rowK1 (W2_launch m c main_arg7 (by decide) (by decide)))
  have erv : (Frame.V3 m c main_v70 : FVec Ideal S1x128 .f32) = rowK1 (m ((c : Thread nD τ).loc main_arg8)) := (h1_v70 (W2 m c)).trans (congrArg rowK1 (W2_launch m c main_arg8 (by decide) (by decide)))
  have eW2 : (Frame.V3 m c main_v63 : FVec Ideal S128x128 .f32) = matK1 (m ((c : Thread nD τ).loc main_arg9)) := (h1_v63 (W2 m c)).trans (congrArg matK1 (W2_launch m c main_arg9 (by decide) (by decide)))
  have eb2 : (Frame.V3 m c main_v71 : FVec Ideal S1x128 .f32) = rowK1 (m ((c : Thread nD τ).loc main_arg10)) := (h1_v71 (W2 m c)).trans (congrArg rowK1 (W2_launch m c main_arg10 (by decide) (by decide)))
  rw [eh, eagg, eW1, eb1, eg, ebe, erm, erv, eW2, eb2, row1, row1, row1, row1, scale1]
  rfl

/-- After layer 2: the region's output array is the layer of what the region was entered with, which is the reference's
    layer of the same arrays. -/
theorem h3_eq : (W6 m c (Proc.devRef .tc main_v108) : FVec Ideal S50000x128 .f32) = h3R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [h3R_eq _ _ _ _ _ _ _ _ _ _ (hrv 2)]
  refine (W6_arr m c 10).trans ((final2 (Frame.V5 m) c).trans ?_)
  have eh : (Frame.V5 m c main_v72 : FVec Ideal S50000x128 .f32) = (h2R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := (W5_keep m c main_v72 (by decide)).trans (h2_eq m c hrv)
  have eagg : (Frame.V5 m c main_v85 : FVec Ideal S50000x128 .f32) = aggK (h2R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg1)) := by
    have e := h2_v85 (W4 m c)
    rw [h2_eq m c hrv, W4_src m c, W4_dst m c] at e
    exact e
  have eW1 : (Frame.V5 m c main_v87 : FVec Ideal S128x128 .f32) = matK2 (m ((c : Thread nD τ).loc main_arg3)) := (h2_v87 (W4 m c)).trans (congrArg matK2 (W4_launch m c main_arg3 (by decide) (by decide) (by decide) (by decide)))
  have eb1 : (Frame.V5 m c main_v102 : FVec Ideal S1x128 .f32) = rowK2 (m ((c : Thread nD τ).loc main_arg4)) := (h2_v102 (W4 m c)).trans (congrArg rowK2 (W4_launch m c main_arg4 (by decide) (by decide) (by decide) (by decide)))
  have eg : (Frame.V5 m c main_v103 : FVec Ideal S1x128 .f32) = rowK2 (m ((c : Thread nD τ).loc main_arg5)) := (h2_v103 (W4 m c)).trans (congrArg rowK2 (W4_launch m c main_arg5 (by decide) (by decide) (by decide) (by decide)))
  have ebe : (Frame.V5 m c main_v104 : FVec Ideal S1x128 .f32) = rowK2 (m ((c : Thread nD τ).loc main_arg6)) := (h2_v104 (W4 m c)).trans (congrArg rowK2 (W4_launch m c main_arg6 (by decide) (by decide) (by decide) (by decide)))
  have erm : (Frame.V5 m c main_v105 : FVec Ideal S1x128 .f32) = rowK2 (m ((c : Thread nD τ).loc main_arg7)) := (h2_v105 (W4 m c)).trans (congrArg rowK2 (W4_launch m c main_arg7 (by decide) (by decide) (by decide) (by decide)))
  have erv : (Frame.V5 m c main_v106 : FVec Ideal S1x128 .f32) = rowK2 (m ((c : Thread nD τ).loc main_arg8)) := (h2_v106 (W4 m c)).trans (congrArg rowK2 (W4_launch m c main_arg8 (by decide) (by decide) (by decide) (by decide)))
  have eW2 : (Frame.V5 m c main_v99 : FVec Ideal S128x128 .f32) = matK2 (m ((c : Thread nD τ).loc main_arg9)) := (h2_v99 (W4 m c)).trans (congrArg matK2 (W4_launch m c main_arg9 (by decide) (by decide) (by decide) (by decide)))
  have eb2 : (Frame.V5 m c main_v107 : FVec Ideal S1x128 .f32) = rowK2 (m ((c : Thread nD τ).loc main_arg10)) := (h2_v107 (W4 m c)).trans (congrArg rowK2 (W4_launch m c main_arg10 (by decide) (by decide) (by decide) (by decide)))
  rw [eh, eagg, eW1, eb1, eg, ebe, erm, erv, eW2, eb2, row2, row2, row2, row2, scale2]
  rfl

/-! ## The pooled features and the head -/

/-- The result buffer at the end of the run is the reference's network of the argument arrays. -/
theorem kernel_value : (W8 m c (Proc.devRef .tc main_v115) : FVec Ideal S512x10 .f32)
    = netR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold netR
  rw [headR_eq]
  refine (W8_arr m c 5).trans ((final3 (Frame.V7 m) c).trans ?_)
  have ep1 : (W6 m c (Proc.devRef .tc main_v39) : FVec Ideal S512x128 .f32) = poolK (h1R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) := by
    refine (W6_keep m c main_v39 (by decide)).trans ((W5_keep m c main_v39 (by decide)).trans ((W4_keep m c main_v39 (by decide)).trans ?_))
    have e := h1_v39 (W2 m c)
    rw [h1_eq m c hrv, W2_launch m c main_arg2 (by decide) (by decide)] at e
    exact e
  have ep2 : (W6 m c (Proc.devRef .tc main_v75) : FVec Ideal S512x128 .f32) = poolK (h2R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2)) := by
    refine (W6_keep m c main_v75 (by decide)).trans ?_
    have e := h2_v75 (W4 m c)
    rw [h2_eq m c hrv, W4_launch m c main_arg2 (by decide) (by decide) (by decide) (by decide)] at e
    exact e
  have eg : (Frame.V7 m c main_v112 : FVec Ideal S512x384 .f32)
      = catK (poolK (h1R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) (poolK (h2R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) (poolK (h3R (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg2))) := by
    have e := h3_v112 (W6 m c)
    rw [ep1, ep2, h3_eq m c hrv, W6_launch m c main_arg2 (by decide) (by decide) (by decide) (by decide) (by decide) (by decide)] at e
    exact e
  have eW1 : (Frame.V7 m c main_arg11 : FVec Ideal S384x384 .f32) = (m ((c : Thread nD τ).loc main_arg11)) :=
    (W7_keep m c main_arg11 (by decide)).trans (W6_launch m c main_arg11 (by decide) (by decide) (by decide) (by decide) (by decide) (by decide))
  have eb1 : (Frame.V7 m c main_v113 : FVec Ideal S1x384 .f32) = l1bRow (m ((c : Thread nD τ).loc main_arg12)) :=
    (h3_v113 (W6 m c)).trans (congrArg l1bRow (W6_launch m c main_arg12 (by decide) (by decide) (by decide) (by decide) (by decide) (by decide)))
  have eW2 : (Frame.V7 m c main_arg13 : FVec Ideal S384x10 .f32) = (m ((c : Thread nD τ).loc main_arg13)) :=
    (W7_keep m c main_arg13 (by decide)).trans (W6_launch m c main_arg13 (by decide) (by decide) (by decide) (by decide) (by decide) (by decide))
  have eb2 : (Frame.V7 m c main_v114 : FVec Ideal S1x10 .f32) = l2bRow (m ((c : Thread nD τ).loc main_arg14)) :=
    (h3_v114 (W6 m c)).trans (congrArg l2bRow (W6_launch m c main_arg14 (by decide) (by decide) (by decide) (by decide) (by decide) (by decide)))
  rw [eg, eW1, eb1, eW2, eb2, l1b_row, l2b_row]
  rfl

end Cert.Proof.Bridge

end
-- ==== Proof.PreRv.lean ====
/-
  The precondition's last conjunct, read back: every running variance plus the batch-norm epsilon is positive.

  The predicate is a conjunction (a chain of one-bit `and`s) whose last member is the all-reduction, by `and`
  from the bit 1, of the array of comparisons  running_var[i,k] + eps > 0.  A one-bit `and` that is 1 has both
  operands 1; an all-reduction by `and` that is 1 met only 1s; and a comparison `x > y` on the extended reals is
  the bit of `y < x`. The epsilon stays the word the program carries; the zero word is the extended real 0.
-/
import proofs.«149891_j64046552318029_1_alg».proof.Pre_finite_inputs
import proofs.«149891_j64046552318029_1_alg».proof.Proof.Spec
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Decode

open Idealize.ShloMosaic Idealize.ShloMosaic.ValueIdx Cert.Pre_finite_inputs

variable [Facts]

/-- The scalar shape has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- Under the precondition, running_var[i,k] + eps is positive for every layer i and channel k. -/
theorem rv_pos (a0 : FVec Ideal S50000x128 .f32) (a1 : IVec S2x800000 32) (a2 : IVec S50000 32)
    (a3 : FVec Ideal S3x128x128 .f32) (a4 a5 a6 a7 a8 : FVec Ideal S3x128 .f32) (a9 : FVec Ideal S3x128x128 .f32)
    (a10 : FVec Ideal S3x128 .f32) (a11 : FVec Ideal S384x384 .f32) (a12 : FVec Ideal S384 .f32)
    (a13 : FVec Ideal S384x10 .f32) (a14 : FVec Ideal S10 .f32)
    (h : fn (F := Ideal) a0 a1 a2 a3 a4 a5 a6 a7 a8 a9 a10 a11 a12 a13 a14 = fun _ => 1#1) (i : Fin 3) (k : Fin 128) :
    0 < a8 (ix2 i k) + Cert.Gin.eps := by
  have h0 := congrFun h ix0
  -- the predicate at its one index is the `and` of all the earlier conjuncts with the last all-reduction
  obtain ⟨X, hX⟩ : ∃ X : BitVec 1,
      fn (F := Ideal) a0 a1 a2 a3 a4 a5 a6 a7 a8 a9 a10 a11 a12 a13 a14 ix0
        = IntOp.andi X
            (Host.reduce IntOp.andi
              (cmpf .ogt
                (addf a8 (broadcastInDim S3x128 ![] Facts.bcast_S_S3x128 (constant (F := Ideal) S_ .f32 0x3727C5AC#32)))
                (broadcastInDim S3x128 ![] Facts.bcast_S_S3x128 (constant (F := Ideal) S_ .f32 0x00000000#32)))
              (constantI S_ 1 1#1) Facts.reducesTo_S3x128_S_d0_1 Facts.h_S_ ix0) := ⟨_, rfl⟩
  rw [hX] at h0
  have h1 := (IntOp.andi_eq_one.1 h0).2
  have h2 := Host.reduce_andi_all _ _ _ _ _ h1 (ix2 i k)
  -- the comparison at [i,k]: 0 < running_var[i,k] + eps
  have h3 : BitVec.ofBool (decide (Ideal.ofBits .f32 0x00000000#32 < a8 (ix2 i k) + Ideal.ofBits .f32 0x3727C5AC#32)) = 1#1 := h2
  rw [ofBool_eq_one, decide_eq_true_eq, Ideal.ofBits_zero_f32] at h3
  exact h3

end Cert.Pre_finite_inputs.Decode

end
-- ==== Proof.lean ====
/-
  The certificate of a three-layer GIN network: per layer a neighbour sum (a gather of the source rows scattered onto
  the destination rows), a two-matmul node MLP with batch-norm in evaluation mode and relu, a sum pooling of the nodes
  into 512 graphs, then a two-matmul head on the concatenated pooled features.

  The kernel program computes the node MLP of each layer and the head in pallas_calls and everything else on the host;
  the reference computes everything on the host. On the extended reals a matmul against a zero accumulator and the
  host's dot_general are the same sum, a change of float format is the identity, and the two programs apply the same
  host operations around the node MLP. The one place they differ is the batch-norm factor: the kernel multiplies gamma
  by the reciprocal square root of (running_var + eps), the reference divides gamma by its square root. For a positive
  radicand the two agree on every extended real; the precondition states running_var + eps > 0 (outside it the
  reference itself takes the square root of a non-positive number and divides by it).

  The frames: each program's run is the list of its segments (host stretch, region, … ) over the library's launch
  theorem for several regions; no segment writes an argument array. The idealization rewrote nothing, so `preserves`
  is trivial.
-/
import proofs.«149891_j64046552318029_1_alg».proof.Defs
import proofs.«149891_j64046552318029_1_alg».proof.Proof.Gen.Kernel
import proofs.«149891_j64046552318029_1_alg».proof.Proof.Gen.KernelIdeal
import proofs.«149891_j64046552318029_1_alg».proof.Proof.Gen.ReferenceIdeal
import proofs.«149891_j64046552318029_1_alg».proof.Proof.Gen.Pre_finite_inputs
import proofs.«149891_j64046552318029_1_alg».proof.Proof.Gen.ReferenceIdeal.Run
import proofs.«149891_j64046552318029_1_alg».proof.Proof.KB.Run
import proofs.«149891_j64046552318029_1_alg».proof.Proof.KI.Run
import proofs.«149891_j64046552318029_1_alg».proof.Proof.Bridge
import proofs.«149891_j64046552318029_1_alg».proof.Proof.PreRv
import Idealize.ShloMosaic.Adequacy
import Idealize.ShloMosaic.Init

noncomputable section

namespace Cert.Proof

open Idealize.ShloMosaic Idealize.ShloMosaic.TcCoe Idealize.SL.Sem

/-- The word-level kernel program runs and leaves its arguments unchanged: its run with the result dropped. -/
theorem frame_k : Cert.frame_Kernel := fun m ρ _ =>
  (θ_run Cert.Kernel.defs _ _).mono (fun _ h c => (h c).2) (Cert.Kernel.Frame.run (F := Bits) m ρ)

/-- The same for the idealized kernel program. -/
theorem frame_ki : Cert.frame_KernelIdeal := fun m ρ _ =>
  (θ_run Cert.KernelIdeal.defs _ _).mono (fun _ h c => (h c).2) (Cert.KernelIdeal.Frame.run (F := Ideal) m ρ)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the same result: the kernel program's
    result buffer is the network of the arguments (`Bridge.kernel_value`, under running_var + eps > 0 from the
    precondition), and so is the reference's (`RefValue.res_eq`). -/
theorem algebraic : Cert.algebraic_KernelIdeal_ReferenceIdeal := by
  intro m ρ m' ρ' hpre hagree
  refine ⟨fun c => Cert.KernelIdeal.Frame.W8 m c (Proc.devRef .tc Cert.KernelIdeal.main_v115), Cert.KernelIdeal.Frame.run (F := Ideal) m ρ, ?_⟩
  refine (θ_run Cert.ReferenceIdeal.defs _ _).mono (fun _ h c => ⟨(h c).1.trans ?_, (h c).2⟩)
    (Cert.ReferenceIdeal.Value.run (F := Ideal) m' ρ')
  have hrv : Cert.Proof.Bridge.RvPos (m ((c : Thread Cert.KernelIdeal.nD Cert.KernelIdeal.τ).loc Cert.KernelIdeal.main_arg8)) :=
    fun i k => Cert.Pre_finite_inputs.Decode.rv_pos _ _ _ _ _ _ _ _ _ _ _ _ _ _ _ (hpre c) i k
  rw [Cert.ReferenceIdeal.RefValue.res_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2.1, (hagree c).2.2.2.2.2.2.2.2.2.2.2.1,
    (hagree c).2.2.2.2.2.2.2.2.2.2.2.2.1, (hagree c).2.2.2.2.2.2.2.2.2.2.2.2.2.1, (hagree c).2.2.2.2.2.2.2.2.2.2.2.2.2.2]
  exact (Cert.Proof.Bridge.kernel_value m c hrv).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
